-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x4 : Shape := ⟨2, ![400000, 4]⟩
abbrev S10000x32 : Shape := ⟨2, ![10000, 32]⟩
abbrev S1000x16 : Shape := ⟨2, ![1000, 16]⟩
abbrev S100x16 : Shape := ⟨2, ![100, 16]⟩
abbrev S1000000x64 : Shape := ⟨2, ![1000000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S200000 : Shape := ⟨1, ![200000]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_
  bcast_S_S100x16 : S_.BroadcastsInDim S100x16 (![] : Fin 0 → Fin S100x16.rank)
  reducesTo_S100x16_S_d0_1 : S100x16.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x256 .f32) (main_arg10 : FVec F S256 .f32) (main_arg11 : FVec F S256x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_v48 main_v49 main_v50

def fn_part1 {F : FTy → Type} [FloatOps F] (main_arg5 : FVec F S128x256 .f32) (main_arg6 : FVec F S256 .f32) (main_arg7 : FVec F S256x128 .f32) (main_arg8 : FVec F S128 .f32) (main_arg9 : FVec F S128x256 .f32) (main_arg10 : FVec F S256 .f32) (main_arg11 : FVec F S256x128 .f32) (main_arg12 : FVec F S128 .f32) (main_v13 : IVec S_ 1) (main_v16 : IVec S1000000x64 1) : IVec S_ 1 :=
  let main_c_5 : IVec S_ 1 := constantI S_ 1 1#1
  let main_v17 : IVec S_ 1 := (fun x v => Host.reduce IntOp.andi x v reducesTo_S1000000x64_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S400000x4 32) (main_arg1 : FVec F S10000x32 .f32) (main_arg2 : FVec F S1000x16 .f32) (main_arg3 : FVec F S100x16 .f32) (main_arg4 : FVec F S1000000x64 .f32) (main_arg5 : FVec F S128x256 .f32) (main_arg6 : FVec F S256 .f32) (main_arg7 : FVec F S256x128 .f32) (main_arg8 : FVec F S128 .f32) (main_arg9 : FVec F S128x256 .f32) (main_arg10 : FVec F S256 .f32) (main_arg11 : FVec F S256x128 .f32) (main_arg12 : FVec F S128 .f32) (main_arg13 : IVec S800000 32) (main_arg14 : IVec S800000 32) (main_arg15 : IVec S200000 32) (main_arg16 : IVec S200000 32) (main_arg17 : IVec S800000 32) (main_arg18 : IVec S800000 32) (main_arg19 : IVec S200000 32) (main_arg20 : IVec S200000 32) : IVec S_ 1 :=
  let main_v0 : FVec F S10000x32 .f32 := Host.absf main_arg1
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S1000x16 .f32 := Host.absf main_arg2
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  let main_v9 : FVec F S100x16 .f32 := Host.absf main_arg3
  let main_cst_2 : FVec F S_ .f32 := constant S_ .f32 0x7F800000#32
  let main_v10 : FVec F S100x16 .f32 := broadcastInDim S100x16 ![] bcast_S_S100x16 main_cst_2
  let main_v11 : IVec S100x16 1 := cmpf .olt main_v9 main_v10
  let main_c_3 : IVec S_ 1 := constantI S_ 1 1#1
  let main_v12 : IVec S_ 1 := (fun x v => Host.reduce IntOp.andi x v reducesTo_S100x16_S_d0_1 h_S_) main_v11 main_c_3
  let main_v13 : IVec S_ 1 := andi main_v8 main_v12
  let main_v14 : FVec F S1000000x64 .f32 := Host.absf main_arg4
  let main_cst_4 : FVec F S_ .f32 := constant S_ .f32 0x7F800000#32
  let main_v15 : FVec F S1000000x64 .f32 := broadcastInDim S1000000x64 ![] bcast_S_S1000000x64 main_cst_4
  let main_v16 : IVec S1000000x64 1 := cmpf .olt main_v14 main_v15
  fn_part1 (F := F) main_arg5 main_arg6 main_arg7 main_arg8 main_arg9 main_arg10 main_arg11 main_arg12 main_v13 main_v16
-- ==== Kernel.lean ====
abbrev S400000x4 : Shape := ⟨2, ![400000, 4]⟩
abbrev S10000x32 : Shape := ⟨2, ![10000, 32]⟩
abbrev S1000x16 : Shape := ⟨2, ![1000, 16]⟩
abbrev S100x16 : Shape := ⟨2, ![100, 16]⟩
abbrev S1000000x64 : Shape := ⟨2, ![1000000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S200000 : Shape := ⟨1, ![200000]⟩
abbrev S400000x1 : Shape := ⟨2, ![400000, 1]⟩
abbrev S400000 : Shape := ⟨1, ![400000]⟩
abbrev S_ : Shape := ⟨0, ![]⟩
abbrev S400000x32 : Shape := ⟨2, ![400000, 32]⟩
abbrev S400000x16 : Shape := ⟨2, ![400000, 16]⟩
abbrev S400000x64 : Shape := ⟨2, ![400000, 64]⟩
abbrev S400000x128 : Shape := ⟨2, ![400000, 128]⟩
abbrev S400000x256 : Shape := ⟨2, ![400000, 256]⟩
abbrev S4000x128 : Shape := ⟨2, ![4000, 128]⟩
abbrev S4000x256 : Shape := ⟨2, ![4000, 256]⟩
abbrev S1x256 : Shape := ⟨2, ![1, 256]⟩
abbrev S800000x1 : Shape := ⟨2, ![800000, 1]⟩
abbrev S800000x256 : Shape := ⟨2, ![800000, 256]⟩
abbrev S100000x256 : Shape := ⟨2, ![100000, 256]⟩
abbrev S100000 : Shape := ⟨1, ![100000]⟩
abbrev S100000x1 : Shape := ⟨2, ![100000, 1]⟩
abbrev S200000x1 : Shape := ⟨2, ![200000, 1]⟩
abbrev S200000x256 : Shape := ⟨2, ![200000, 256]⟩
abbrev S25000x256 : Shape := ⟨2, ![25000, 256]⟩
abbrev S25000 : Shape := ⟨1, ![25000]⟩
abbrev S25000x1 : Shape := ⟨2, ![25000, 1]⟩
abbrev S25000x128 : Shape := ⟨2, ![25000, 128]⟩
abbrev S5000x256 : Shape := ⟨2, ![5000, 256]⟩
abbrev S5000x128 : Shape := ⟨2, ![5000, 128]⟩
abbrev S1x128 : Shape := ⟨2, ![1, 128]⟩

abbrev nBuf : Space → Nat
  | .hbm => 192
  | .vmem => 24
  | .smem => 0
  | _ => 0

abbrev hbmTy0_0 (i : Nat) : BufTy := match i % 128 with
  | 0 => ⟨S400000x4, .i32⟩
  | 1 => ⟨S10000x32, .f32⟩
  | 2 => ⟨S1000x16, .f32⟩
  | 3 => ⟨S100x16, .f32⟩
  | 4 => ⟨S1000000x64, .f32⟩
  | 5 => ⟨S128x256, .f32⟩
  | 6 => ⟨S256, .f32⟩
  | 7 => ⟨S256x128, .f32⟩
  | 8 => ⟨S128, .f32⟩
  | 9 => ⟨S128x256, .f32⟩
  | 10 => ⟨S256, .f32⟩
  | 11 => ⟨S256x128, .f32⟩
  | 12 => ⟨S128, .f32⟩
  | 13 => ⟨S800000, .i32⟩
  | 14 => ⟨S800000, .i32⟩
  | 15 => ⟨S200000, .i32⟩
  | 16 => ⟨S200000, .i32⟩
  | 17 => ⟨S800000, .i32⟩
  | 18 => ⟨S800000, .i32⟩
  | 19 => ⟨S200000, .i32⟩
  | 20 => ⟨S200000, .i32⟩
  | 21 => ⟨S400000x1, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x32, .f32⟩
  | 32 => ⟨S400000x1, .i32⟩
  | 33 => ⟨S400000, .i32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x16, .f32⟩
  | 43 => ⟨S400000x1, .i32⟩
  | 44 => ⟨S400000, .i32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x16, .f32⟩
  | 54 => ⟨S400000x1, .i32⟩
  | 55 => ⟨S400000, .i32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x64, .f32⟩
  | 65 => ⟨S400000x128, .f32⟩
  | 66 => ⟨S400000x128, .bf16⟩
  | 67 => ⟨S128x256, .bf16⟩
  | 68 => ⟨S400000x256, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x256, .f32⟩
  | 78 => ⟨S_, .f32⟩
  | 79 => ⟨S100000x256, .f32⟩
  | 80 => ⟨S800000x1, .i32⟩
  | 81 => ⟨S100000x256, .f32⟩
  | 82 => ⟨S_, .f32⟩
  | 83 => ⟨S800000, .f32⟩
  | 84 => ⟨S_, .f32⟩
  | 85 => ⟨S100000, .f32⟩
  | 86 => ⟨S800000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x256, .f32⟩
  | 93 => ⟨S100000x256, .f32⟩
  | 94 => ⟨S100000x256, .f32⟩
  | 95 => ⟨S100000x256, .f32⟩
  | 96 => ⟨S_, .f32⟩
  | 97 => ⟨S100000x256, .f32⟩
  | 98 => ⟨S100000x256, .f32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S200000x256, .f32⟩
  | 108 => ⟨S_, .f32⟩
  | 109 => ⟨S25000x256, .f32⟩
  | 110 => ⟨S200000x1, .i32⟩
  | 111 => ⟨S25000x256, .f32⟩
  | 112 => ⟨S_, .f32⟩
  | 113 => ⟨S200000, .f32⟩
  | 114 => ⟨S_, .f32⟩
  | 115 => ⟨S25000, .f32⟩
  | 116 => ⟨S200000x1, .i32⟩
  | 117 => ⟨S25000, .f32⟩
  | 118 => ⟨S_, .f32⟩
  | 119 => ⟨S25000, .f32⟩
  | 120 => ⟨S25000, .f32⟩
  | 121 => ⟨S25000x1, .f32⟩
  | 122 => ⟨S25000x256, .f32⟩
  | 123 => ⟨S25000x256, .f32⟩
  | 124 => ⟨S25000x256, .f32⟩
  | 125 => ⟨S25000x256, .f32⟩
  | 126 => ⟨S25000x256, .bf16⟩
  | 127 => ⟨S256x128, .bf16⟩
  | _ => ⟨S400000x4, .i32⟩

abbrev hbmTy0_1 (i : Nat) : BufTy := match i % 128 with
  | 0 => ⟨S25000x128, .f32⟩
  | 1 => ⟨S400000x128, .bf16⟩
  | 2 => ⟨S128x256, .bf16⟩
  | 3 => ⟨S400000x256, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x256, .f32⟩
  | 13 => ⟨S_, .f32⟩
  | 14 => ⟨S100000x256, .f32⟩
  | 15 => ⟨S800000x1, .i32⟩
  | 16 => ⟨S100000x256, .f32⟩
  | 17 => ⟨S_, .f32⟩
  | 18 => ⟨S800000, .f32⟩
  | 19 => ⟨S_, .f32⟩
  | 20 => ⟨S100000, .f32⟩
  | 21 => ⟨S800000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x256, .f32⟩
  | 28 => ⟨S100000x256, .f32⟩
  | 29 => ⟨S100000x256, .f32⟩
  | 30 => ⟨S100000x256, .f32⟩
  | 31 => ⟨S_, .f32⟩
  | 32 => ⟨S100000x256, .f32⟩
  | 33 => ⟨S100000x256, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x256, .f32⟩
  | 43 => ⟨S_, .f32⟩
  | 44 => ⟨S25000x256, .f32⟩
  | 45 => ⟨S200000x1, .i32⟩
  | 46 => ⟨S25000x256, .f32⟩
  | 47 => ⟨S_, .f32⟩
  | 48 => ⟨S200000, .f32⟩
  | 49 => ⟨S_, .f32⟩
  | 50 => ⟨S25000, .f32⟩
  | 51 => ⟨S200000x1, .i32⟩
  | 52 => ⟨S25000, .f32⟩
  | 53 => ⟨S_, .f32⟩
  | 54 => ⟨S25000, .f32⟩
  | 55 => ⟨S25000, .f32⟩
  | 56 => ⟨S25000x1, .f32⟩
  | 57 => ⟨S25000x256, .f32⟩
  | 58 => ⟨S25000x256, .f32⟩
  | 59 => ⟨S25000x256, .f32⟩
  | 60 => ⟨S25000x256, .f32⟩
  | 61 => ⟨S25000x256, .bf16⟩
  | 62 => ⟨S256x128, .bf16⟩
  | 63 => ⟨S25000x128, .f32⟩
  | _ => ⟨S400000x4, .i32⟩

abbrev hbmTy (i : Nat) : BufTy := match i / 128 with
  | 0 => hbmTy0_0 i
  | 1 => hbmTy0_1 i
  | _ => ⟨S400000x4, .i32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x256, .bf16⟩
  | .local _ .vmem, ⟨3, _⟩ => ⟨S256, .f32⟩
  | .local _ .vmem, ⟨4, _⟩ => ⟨S4000x256, .f32⟩
  | .local _ .vmem, ⟨5, _⟩ => ⟨S4000x256, .f32⟩
  | .local _ .vmem, ⟨6, _⟩ => ⟨S5000x256, .bf16⟩
  | .local _ .vmem, ⟨7, _⟩ => ⟨S5000x256, .bf16⟩
  | .local _ .vmem, ⟨8, _⟩ => ⟨S256x128, .bf16⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S4000x128, .bf16⟩
  | .local _ .vmem, ⟨13, _⟩ => ⟨S4000x128, .bf16⟩
  | .local _ .vmem, ⟨14, _⟩ => ⟨S128x256, .bf16⟩
  | .local _ .vmem, ⟨15, _⟩ => ⟨S256, .f32⟩
  | .local _ .vmem, ⟨16, _⟩ => ⟨S4000x256, .f32⟩
  | .local _ .vmem, ⟨17, _⟩ => ⟨S4000x256, .f32⟩
  | .local _ .vmem, ⟨18, _⟩ => ⟨S5000x256, .bf16⟩
  | .local _ .vmem, ⟨19, _⟩ => ⟨S5000x256, .bf16⟩
  | .local _ .vmem, ⟨20, _⟩ => ⟨S256x128, .bf16⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S400000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call0_cst : Ref sig .tc := ⟨.hbm, 96, rfl⟩
abbrev main_call0_v0 : Ref sig .tc := ⟨.hbm, 97, rfl⟩
abbrev main_v61 : Ref sig .tc := ⟨.hbm, 98, rfl⟩
abbrev main_c_12 : Ref sig .tc := ⟨.hbm, 99, rfl⟩
abbrev main_v62 : Ref sig .tc := ⟨.hbm, 100, rfl⟩
abbrev main_v63 : Ref sig .tc := ⟨.hbm, 101, rfl⟩
abbrev main_c_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_15 : Ref sig .tc := ⟨.hbm, 112, rfl⟩
abbrev main_v72 : Ref sig .tc := ⟨.hbm, 113, rfl⟩
abbrev main_cst_16 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_17 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_21 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call1_cst : Ref sig .tc := ⟨.hbm, 159, rfl⟩
abbrev main_call1_v0 : Ref sig .tc := ⟨.hbm, 160, rfl⟩
abbrev main_v110 : Ref sig .tc := ⟨.hbm, 161, rfl⟩
abbrev main_c_24 : Ref sig .tc := ⟨.hbm, 162, rfl⟩
abbrev main_v111 : Ref sig .tc := ⟨.hbm, 163, rfl⟩
abbrev main_v112 : Ref sig .tc := ⟨.hbm, 164, rfl⟩
abbrev main_c_25 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_26 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_27 : Ref sig .tc := ⟨.hbm, 175, rfl⟩
abbrev main_v121 : Ref sig .tc := ⟨.hbm, 176, rfl⟩
abbrev main_cst_28 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_29 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S400000x4_S400000x1_0_0 : S400000x4.Slices ![0, 0] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S400000x4_S400000x1_0_1 : S400000x4.Slices ![0, 1] S400000x1
  slices_S400000x4_S400000x1_0_2 : S400000x4.Slices ![0, 2] S400000x1
  slices_S400000x4_S400000x1_0_3 : S400000x4.Slices ![0, 3] S400000x1
  concatenates_S400000x32_S400000x16_S400000x16_S400000x64_S400000x128_d1 : Shape.Concatenates [S400000x32, S400000x16, S400000x16, S400000x64] S400000x128 1
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S400000x256_S100000x256_0_0 : S400000x256.Slices ![0, 0] S100000x256
  bcast_S_S200000 : S_.BroadcastsInDim S200000 (![] : Fin 0 → Fin S200000.rank)
  bcast_S200000_S200000x1_0 : S200000.BroadcastsInDim S200000x1 (![0] : Fin 1 → Fin S200000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  slices_S100000x256_S25000x256_0_0 : S100000x256.Slices ![0, 0] S25000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S10000x32_S400000x1_S400000x32_1_0_n_n_0_1_132_wf : GatherDims.WF S10000x32 S400000x1 S400000x32 [1] [0] [] [0] [] 1 ![1, 32]
  gather_S1000x16_S400000x1_S400000x16_1_0_n_n_0_1_116_wf : GatherDims.WF S1000x16 S400000x1 S400000x16 [1] [0] [] [0] [] 1 ![1, 16]
  gather_S100x16_S400000x1_S400000x16_1_0_n_n_0_1_116_wf : GatherDims.WF S100x16 S400000x1 S400000x16 [1] [0] [] [0] [] 1 ![1, 16]
  gather_S1000000x64_S400000x1_S400000x64_1_0_n_n_0_1_164_wf : GatherDims.WF S1000000x64 S400000x1 S400000x64 [1] [0] [] [0] [] 1 ![1, 64]
  dot_S4000x128_S128x256_S4000x256_1_0_0_1_n_n_wf : DotDims.WF S4000x128 S128x256 S4000x256 [1] [0] [0] [1] [] []
  gather_S400000x256_S800000x1_S800000x256_1_0_n_n_0_1_1256_wf : GatherDims.WF S400000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  gather_S100000x256_S200000x1_S200000x256_1_0_n_n_0_1_1256_wf : GatherDims.WF S100000x256 S200000x1 S200000x256 [1] [0] [] [0] [] 1 ![1, 256]
  scatter_S25000x256_S200000x1_S200000x256_1_0_0_1_wf : ScatterDims.WF S25000x256 S200000x1 S200000x256 [1] [0] [0] 1
  scatter_S25000_S200000x1_S200000_n_0_0_1_wf : ScatterDims.WF S25000 S200000x1 S200000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S400000x256.size a
  hwx0_3 : ∀ i : grid0.Coords, EltTy.bits .f32 = 32 ∨ (Rect.block (s := S400000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S25000x256.size a
  hwx1_0 : ∀ i : grid1.Coords, EltTy.bits .bf16 = 32 ∨ (Rect.block (s := S25000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .bf16 = 32 ∨ (Rect.block (s := S400000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .bf16 = 32 ∨ (Rect.block (s := S128x256) S128x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x256.size a ≤ S400000x256.size a
  hwx2_3 : ∀ i : grid2.Coords, EltTy.bits .f32 = 32 ∨ (Rect.block (s := S400000x256) S4000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S25000x256.size a
  hwx3_0 : ∀ i : grid3.Coords, EltTy.bits .bf16 = 32 ∨ (Rect.block (s := S25000x256) S5000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .bf16 = 32 ∨ (Rect.block (s := S256x128) S256x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S25000x128.size a
  hwx3_3 : ∀ i : grid3.Coords, EltTy.bits .f32 = 32 ∨ (Rect.block (s := S25000x128) S5000x128.size (cc3_transform_3 i) (hinb3_3 i)).WholeWords (EltTy.packing .f32)

variable [Facts₀]

def gather_S10000x32_S400000x1_S400000x32_1_0_n_n_0_1_132 : GatherDims S10000x32 S400000x1 S400000x32 where
  offsetDims := [1]
  collapsedSliceDims := [0]
  operandBatchingDims := []
  startIndicesBatchingDims := []
  startIndexMap := [0]
  indexVectorDim := 1
  sliceSizes := ![1, 32]
  wf := gather_S10000x32_S400000x1_S400000x32_1_0_n_n_0_1_132_wf
def gather_S1000x16_S400000x1_S400000x16_1_0_n_n_0_1_116 : GatherDims S1000x16 S400000x1 S400000x16 where
  offsetDims := [1]
  collapsedSliceDims := [0]
  operandBatchingDims := []
  startIndicesBatchingDims := []
  startIndexMap := [0]
  indexVectorDim := 1
  sliceSizes := ![1, 16]
  wf := gather_S1000x16_S400000x1_S400000x16_1_0_n_n_0_1_116_wf
def gather_S100x16_S400000x1_S400000x16_1_0_n_n_0_1_116 : GatherDims S100x16 S400000x1 S400000x16 where
  offsetDims := [1]
  collapsedSliceDims := [0]
  operandBatchingDims := []
  startIndicesBatchingDims := []
  startIndexMap := [0]
  indexVectorDim := 1
  sliceSizes := ![1, 16]
  wf := gather_S100x16_S400000x1_S400000x16_1_0_n_n_0_1_116_wf
def gather_S1000000x64_S400000x1_S400000x64_1_0_n_n_0_1_164 : GatherDims S1000000x64 S400000x1 S400000x64 where
  offsetDims := [1]
  collapsedSliceDims := [0]
  operandBatchingDims := []
  startIndicesBatchingDims := []
  startIndexMap := [0]
  indexVectorDim := 1
  sliceSizes := ![1, 64]
  wf := gather_S1000000x64_S400000x1_S400000x64_1_0_n_n_0_1_164_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S400000x256_S800000x1_S800000x256_1_0_n_n_0_1_1256 : GatherDims S400000x256 S800000x1 S800000x256 where
  offsetDims := [1]
  collapsedSliceDims := [0]
  operandBatchingDims := []
  startIndicesBatchingDims := []
  startIndexMap := [0]
  indexVectorDim := 1
  sliceSizes := ![1, 256]
  wf := gather_S400000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S25000x256_S200000x1_S200000x256_1_0_0_1 : ScatterDims S25000x256 S200000x1 S200000x256 where
  updateWindowDims := [1]
  insertedWindowDims := [0]
  scatterDimsToOperandDims := [0]
  indexVectorDim := 1
  wf := scatter_S25000x256_S200000x1_S200000x256_1_0_0_1_wf
def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v86) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S4000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v132) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v133) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v134) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S400000x4 : Shape := ⟨2, ![400000, 4]⟩
abbrev S10000x32 : Shape := ⟨2, ![10000, 32]⟩
abbrev S1000x16 : Shape := ⟨2, ![1000, 16]⟩
abbrev S100x16 : Shape := ⟨2, ![100, 16]⟩
abbrev S1000000x64 : Shape := ⟨2, ![1000000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S200000 : Shape := ⟨1, ![200000]⟩
abbrev S400000x1 : Shape := ⟨2, ![400000, 1]⟩
abbrev S400000 : Shape := ⟨1, ![400000]⟩
abbrev S_ : Shape := ⟨0, ![]⟩
abbrev S400000x32 : Shape := ⟨2, ![400000, 32]⟩
abbrev S400000x16 : Shape := ⟨2, ![400000, 16]⟩
abbrev S400000x64 : Shape := ⟨2, ![400000, 64]⟩
abbrev S400000x128 : Shape := ⟨2, ![400000, 128]⟩
abbrev S400000x256 : Shape := ⟨2, ![400000, 256]⟩
abbrev S1x256 : Shape := ⟨2, ![1, 256]⟩
abbrev S800000x1 : Shape := ⟨2, ![800000, 1]⟩
abbrev S800000x256 : Shape := ⟨2, ![800000, 256]⟩
abbrev S100000x256 : Shape := ⟨2, ![100000, 256]⟩
abbrev S100000 : Shape := ⟨1, ![100000]⟩
abbrev S100000x1 : Shape := ⟨2, ![100000, 1]⟩
abbrev S200000x1 : Shape := ⟨2, ![200000, 1]⟩
abbrev S200000x256 : Shape := ⟨2, ![200000, 256]⟩
abbrev S25000x256 : Shape := ⟨2, ![25000, 256]⟩
abbrev S25000 : Shape := ⟨1, ![25000]⟩
abbrev S25000x1 : Shape := ⟨2, ![25000, 1]⟩
abbrev S25000x128 : Shape := ⟨2, ![25000, 128]⟩
abbrev S1x128 : Shape := ⟨2, ![1, 128]⟩

abbrev nBuf : Space → Nat
  | .hbm => 196
  | .vmem => 0
  | .smem => 0
  | _ => 0

abbrev hbmTy0_0 (i : Nat) : BufTy := match i % 128 with
  | 0 => ⟨S400000x4, .i32⟩
  | 1 => ⟨S10000x32, .f32⟩
  | 2 => ⟨S1000x16, .f32⟩
  | 3 => ⟨S100x16, .f32⟩
  | 4 => ⟨S1000000x64, .f32⟩
  | 5 => ⟨S128x256, .f32⟩
  | 6 => ⟨S256, .f32⟩
  | 7 => ⟨S256x128, .f32⟩
  | 8 => ⟨S128, .f32⟩
  | 9 => ⟨S128x256, .f32⟩
  | 10 => ⟨S256, .f32⟩
  | 11 => ⟨S256x128, .f32⟩
  | 12 => ⟨S128, .f32⟩
  | 13 => ⟨S800000, .i32⟩
  | 14 => ⟨S800000, .i32⟩
  | 15 => ⟨S200000, .i32⟩
  | 16 => ⟨S200000, .i32⟩
  | 17 => ⟨S800000, .i32⟩
  | 18 => ⟨S800000, .i32⟩
  | 19 => ⟨S200000, .i32⟩
  | 20 => ⟨S200000, .i32⟩
  | 21 => ⟨S400000x1, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x32, .f32⟩
  | 32 => ⟨S400000x1, .i32⟩
  | 33 => ⟨S400000, .i32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x16, .f32⟩
  | 43 => ⟨S400000x1, .i32⟩
  | 44 => ⟨S400000, .i32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x16, .f32⟩
  | 54 => ⟨S400000x1, .i32⟩
  | 55 => ⟨S400000, .i32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x64, .f32⟩
  | 65 => ⟨S400000x128, .f32⟩
  | 66 => ⟨S400000x256, .f32⟩
  | 67 => ⟨S1x256, .f32⟩
  | 68 => ⟨S400000x256, .f32⟩
  | 69 => ⟨S400000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x256, .f32⟩
  | 79 => ⟨S_, .f32⟩
  | 80 => ⟨S100000x256, .f32⟩
  | 81 => ⟨S800000x1, .i32⟩
  | 82 => ⟨S100000x256, .f32⟩
  | 83 => ⟨S_, .f32⟩
  | 84 => ⟨S800000, .f32⟩
  | 85 => ⟨S_, .f32⟩
  | 86 => ⟨S100000, .f32⟩
  | 87 => ⟨S800000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x256, .f32⟩
  | 94 => ⟨S100000x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x256, .f32⟩
  | 109 => ⟨S_, .f32⟩
  | 110 => ⟨S25000x256, .f32⟩
  | 111 => ⟨S200000x1, .i32⟩
  | 112 => ⟨S25000x256, .f32⟩
  | 113 => ⟨S_, .f32⟩
  | 114 => ⟨S200000, .f32⟩
  | 115 => ⟨S_, .f32⟩
  | 116 => ⟨S25000, .f32⟩
  | 117 => ⟨S200000x1, .i32⟩
  | 118 => ⟨S25000, .f32⟩
  | 119 => ⟨S_, .f32⟩
  | 120 => ⟨S25000, .f32⟩
  | 121 => ⟨S25000, .f32⟩
  | 122 => ⟨S25000x1, .f32⟩
  | 123 => ⟨S25000x256, .f32⟩
  | 124 => ⟨S25000x256, .f32⟩
  | 125 => ⟨S25000x256, .f32⟩
  | 126 => ⟨S25000x256, .f32⟩
  | 127 => ⟨S25000x128, .f32⟩
  | _ => ⟨S400000x4, .i32⟩

abbrev hbmTy0_1 (i : Nat) : BufTy := match i % 128 with
  | 0 => ⟨S1x128, .f32⟩
  | 1 => ⟨S25000x128, .f32⟩
  | 2 => ⟨S25000x128, .f32⟩
  | 3 => ⟨S400000x256, .f32⟩
  | 4 => ⟨S1x256, .f32⟩
  | 5 => ⟨S400000x256, .f32⟩
  | 6 => ⟨S400000x256, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x256, .f32⟩
  | 16 => ⟨S_, .f32⟩
  | 17 => ⟨S100000x256, .f32⟩
  | 18 => ⟨S800000x1, .i32⟩
  | 19 => ⟨S100000x256, .f32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x256, .f32⟩
  | 31 => ⟨S100000x256, .f32⟩
  | 32 => ⟨S100000x256, .f32⟩
  | 33 => ⟨S100000x256, .f32⟩
  | 34 => ⟨S_, .f32⟩
  | 35 => ⟨S100000x256, .f32⟩
  | 36 => ⟨S100000x256, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x256, .f32⟩
  | 46 => ⟨S_, .f32⟩
  | 47 => ⟨S25000x256, .f32⟩
  | 48 => ⟨S200000x1, .i32⟩
  | 49 => ⟨S25000x256, .f32⟩
  | 50 => ⟨S_, .f32⟩
  | 51 => ⟨S200000, .f32⟩
  | 52 => ⟨S_, .f32⟩
  | 53 => ⟨S25000, .f32⟩
  | 54 => ⟨S200000x1, .i32⟩
  | 55 => ⟨S25000, .f32⟩
  | 56 => ⟨S_, .f32⟩
  | 57 => ⟨S25000, .f32⟩
  | 58 => ⟨S25000, .f32⟩
  | 59 => ⟨S25000x1, .f32⟩
  | 60 => ⟨S25000x256, .f32⟩
  | 61 => ⟨S25000x256, .f32⟩
  | 62 => ⟨S25000x256, .f32⟩
  | 63 => ⟨S25000x256, .f32⟩
  | 64 => ⟨S25000x128, .f32⟩
  | 65 => ⟨S1x128, .f32⟩
  | 66 => ⟨S25000x128, .f32⟩
  | 67 => ⟨S25000x128, .f32⟩
  | _ => ⟨S400000x4, .i32⟩

abbrev hbmTy (i : Nat) : BufTy := match i / 128 with
  | 0 => hbmTy0_0 i
  | 1 => hbmTy0_1 i
  | _ => ⟨S400000x4, .i32⟩

abbrev bufTy : (tb : Table) → Fin (tcTables nBuf tb) → BufTy
  | .hbm, ⟨i, _⟩ => hbmTy i
  | _, _ => ⟨S400000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call0_cst : Ref sig .tc := ⟨.hbm, 97, rfl⟩
abbrev main_call0_v0 : Ref sig .tc := ⟨.hbm, 98, rfl⟩
abbrev main_v62 : Ref sig .tc := ⟨.hbm, 99, rfl⟩
abbrev main_c_12 : Ref sig .tc := ⟨.hbm, 100, rfl⟩
abbrev main_v63 : Ref sig .tc := ⟨.hbm, 101, rfl⟩
abbrev main_v64 : Ref sig .tc := ⟨.hbm, 102, rfl⟩
abbrev main_c_13 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_cst_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_17 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_18 : Ref sig .tc := ⟨.hbm, 135, rfl⟩
abbrev main_v92 : Ref sig .tc := ⟨.hbm, 136, rfl⟩
abbrev main_v93 : Ref sig .tc := ⟨.hbm, 137, rfl⟩
abbrev main_c_19 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_21 : Ref sig .tc := ⟨.hbm, 148, rfl⟩
abbrev main_v102 : Ref sig .tc := ⟨.hbm, 149, rfl⟩
abbrev main_cst_22 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_call1_cst : Ref sig .tc := ⟨.hbm, 162, rfl⟩
abbrev main_call1_v0 : Ref sig .tc := ⟨.hbm, 163, rfl⟩
abbrev main_v113 : Ref sig .tc := ⟨.hbm, 164, rfl⟩
abbrev main_c_24 : Ref sig .tc := ⟨.hbm, 165, rfl⟩
abbrev main_v114 : Ref sig .tc := ⟨.hbm, 166, rfl⟩
abbrev main_v115 : Ref sig .tc := ⟨.hbm, 167, rfl⟩
abbrev main_c_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_26 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_27 : Ref sig .tc := ⟨.hbm, 178, rfl⟩
abbrev main_v124 : Ref sig .tc := ⟨.hbm, 179, rfl⟩
abbrev main_cst_28 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_29 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩

abbrev nD : Nat := 1
abbrev τ : Topo := Topo.v7x

variable {F : FTy → Type} [FloatOps F]

class Facts₀ : Prop where
  slices_S400000x4_S400000x1_0_0 : S400000x4.Slices ![0, 0] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S400000x4_S400000x1_0_1 : S400000x4.Slices ![0, 1] S400000x1
  slices_S400000x4_S400000x1_0_2 : S400000x4.Slices ![0, 2] S400000x1
  slices_S400000x4_S400000x1_0_3 : S400000x4.Slices ![0, 3] S400000x1
  concatenates_S400000x32_S400000x16_S400000x16_S400000x64_S400000x128_d1 : Shape.Concatenates [S400000x32, S400000x16, S400000x16, S400000x64] S400000x128 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S400000x256_S100000x256_0_0 : S400000x256.Slices ![0, 0] S100000x256
  bcast_S_S200000 : S_.BroadcastsInDim S200000 (![] : Fin 0 → Fin S200000.rank)
  bcast_S200000_S200000x1_0 : S200000.BroadcastsInDim S200000x1 (![0] : Fin 1 → Fin S200000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  slices_S100000x256_S25000x256_0_0 : S100000x256.Slices ![0, 0] S25000x256
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  gather_S10000x32_S400000x1_S400000x32_1_0_n_n_0_1_132_wf : GatherDims.WF S10000x32 S400000x1 S400000x32 [1] [0] [] [0] [] 1 ![1, 32]
  gather_S1000x16_S400000x1_S400000x16_1_0_n_n_0_1_116_wf : GatherDims.WF S1000x16 S400000x1 S400000x16 [1] [0] [] [0] [] 1 ![1, 16]
  gather_S100x16_S400000x1_S400000x16_1_0_n_n_0_1_116_wf : GatherDims.WF S100x16 S400000x1 S400000x16 [1] [0] [] [0] [] 1 ![1, 16]
  gather_S1000000x64_S400000x1_S400000x64_1_0_n_n_0_1_164_wf : GatherDims.WF S1000000x64 S400000x1 S400000x64 [1] [0] [] [0] [] 1 ![1, 64]
  dot_S400000x128_S128x256_S400000x256_1_0_0_1_n_n_wf : DotDims.WF S400000x128 S128x256 S400000x256 [1] [0] [0] [1] [] []
  gather_S400000x256_S800000x1_S800000x256_1_0_n_n_0_1_1256_wf : GatherDims.WF S400000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  gather_S100000x256_S200000x1_S200000x256_1_0_n_n_0_1_1256_wf : GatherDims.WF S100000x256 S200000x1 S200000x256 [1] [0] [] [0] [] 1 ![1, 256]
  scatter_S25000x256_S200000x1_S200000x256_1_0_0_1_wf : ScatterDims.WF S25000x256 S200000x1 S200000x256 [1] [0] [0] 1
  scatter_S25000_S200000x1_S200000_n_0_0_1_wf : ScatterDims.WF S25000 S200000x1 S200000 [] [0] [0] 1
  dot_S25000x256_S256x128_S25000x128_1_0_0_1_n_n_wf : DotDims.WF S25000x256 S256x128 S25000x128 [1] [0] [0] [1] [] []

variable [Facts₀]

def gather_S10000x32_S400000x1_S400000x32_1_0_n_n_0_1_132 : GatherDims S10000x32 S400000x1 S400000x32 where
  offsetDims := [1]
  collapsedSliceDims := [0]
  operandBatchingDims := []
  startIndicesBatchingDims := []
  startIndexMap := [0]
  indexVectorDim := 1
  sliceSizes := ![1, 32]
  wf := gather_S10000x32_S400000x1_S400000x32_1_0_n_n_0_1_132_wf
def gather_S1000x16_S400000x1_S400000x16_1_0_n_n_0_1_116 : GatherDims S1000x16 S400000x1 S400000x16 where
  offsetDims := [1]
  collapsedSliceDims := [0]
  operandBatchingDims := []
  startIndicesBatchingDims := []
  startIndexMap := [0]
  indexVectorDim := 1
  sliceSizes := ![1, 16]
  wf := gather_S1000x16_S400000x1_S400000x16_1_0_n_n_0_1_116_wf
def gather_S100x16_S400000x1_S400000x16_1_0_n_n_0_1_116 : GatherDims S100x16 S400000x1 S400000x16 where
  offsetDims := [1]
  collapsedSliceDims := [0]
  operandBatchingDims := []
  startIndicesBatchingDims := []
  startIndexMap := [0]
  indexVectorDim := 1
  sliceSizes := ![1, 16]
  wf := gather_S100x16_S400000x1_S400000x16_1_0_n_n_0_1_116_wf
def gather_S1000000x64_S400000x1_S400000x64_1_0_n_n_0_1_164 : GatherDims S1000000x64 S400000x1 S400000x64 where
  offsetDims := [1]
  collapsedSliceDims := [0]
  operandBatchingDims := []
  startIndicesBatchingDims := []
  startIndexMap := [0]
  indexVectorDim := 1
  sliceSizes := ![1, 64]
  wf := gather_S1000000x64_S400000x1_S400000x64_1_0_n_n_0_1_164_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def gather_S400000x256_S800000x1_S800000x256_1_0_n_n_0_1_1256 : GatherDims S400000x256 S800000x1 S800000x256 where
  offsetDims := [1]
  collapsedSliceDims := [0]
  operandBatchingDims := []
  startIndicesBatchingDims := []
  startIndexMap := [0]
  indexVectorDim := 1
  sliceSizes := ![1, 256]
  wf := gather_S400000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S25000x256_S200000x1_S200000x256_1_0_0_1 : ScatterDims S25000x256 S200000x1 S200000x256 where
  updateWindowDims := [1]
  insertedWindowDims := [0]
  scatterDimsToOperandDims := [0]
  indexVectorDim := 1
  wf := scatter_S25000x256_S200000x1_S200000x256_1_0_0_1_wf
def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf

class Facts : Prop extends Facts₀ where

variable [Facts]
-- ==== Proof.FrB.Region0.lean ====
/-
  Region 0 of the program is one fully connected layer whose rows are tiled over a one-axis grid of 100 points.
  At a grid point the body reads the point's block of 4000 rows of the activations (a 4000×128 block), the whole
  128×256 weight matrix and the whole bias vector of length 256, and writes the 4000×256 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.Kernel.Launch
import proofs.«180239_j88888643158466_1_alg».proof.Proof.Gen.Kernel.Skeleton
import proofs.«180239_j88888643158466_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the window's block in place after
    the body, the window's current buffer holds the point's block at every point — freshly fetched where the block index moved,
    and otherwise still the same block, because the index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: whatever proof data has the entry contents as its array and leaves the window's block in place after
    the body, the window's current buffer holds the point's block at every point — freshly fetched where the block index moved,
    and otherwise still the same block, because the index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: whatever proof data has the entry contents as its array and leaves the window's block in place after
    the body, the window's current buffer holds the point's block at every point — freshly fetched where the block index moved,
    and otherwise still the same block, because the index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, as one whole rectangle -/

abbrev r0_0 : Rect S4000x128 := Rect.unit (s := S4000x128) ![0, 0] S4000x128.size inb_S4000x128_S4000x128_0_0
abbrev r0_1 : Rect S128x256 := Rect.unit (s := S128x256) ![0, 0] S128x256.size inb_S128x256_S128x256_0_0
abbrev r0_2 : Rect S256 := Rect.unit (s := S256) ![0] S256.size inb_S256_S256_0
abbrev r0_3 : Rect S4000x256 := Rect.unit (s := S4000x256) ![0, 0] S4000x256.size inb_S4000x256_S4000x256_0_0

/-! ## What the body leaves in the output window's buffer -/

/-- The output block after the body, from the three input blocks: the one store, of the product of the activation block
    with the weights plus the bias on every row, over the whole buffer. -/
def out0_3 (x0 : Vec F S4000x128 .bf16) (x1 : Vec F S128x256 .bf16) (x2 : Vec F S256 .f32) : Vec F S4000x256 .f32 :=
  View.canon [⟨r0_3, k0_pay1 (View.ld x0 r0_0) (View.ld x1 r0_1) (View.ld x2 r0_2)⟩]

/-- The one store covers the buffer: its rectangle is the whole shape. -/
theorem cover0_3 (p0 : Vec F S4000x256 .f32) (y : S4000x256.Idx) :
    ∃ pc ∈ ([⟨r0_3, p0⟩] : List (View.Piece (Elt F) S4000x256 .f32)), y ∈ pc.1.set :=
  View.cover_of_tiled [⟨r0_3, p0⟩] S4000x256.size (by rfl) y

/-! ## The body's run -/

set_option maxHeartbeats 1000000 in
/-- The body on whole buffers — the three inputs at contents `x0`, `x1`, `x2`, the output at anything — runs to a state
    where the inputs hold what they held and the output holds `out0_3 x0 x1 x2`. -/
theorem sound_kernel0 (c : Dev nD) (E : Set ℕ) (i : grid0.Coords)
    (arg1 : Memref sig .tc .vmem S4000x128 .bf16) (harg1 : arg1.IsWhole) (arg2 : Memref sig .tc .vmem S128x256 .bf16) (harg2 : arg2.IsWhole)
    (arg3 : Memref sig .tc .vmem S256 .f32) (harg3 : arg3.IsWhole) (arg4 : Memref sig .tc .vmem S4000x256 .f32) (harg4 : arg4.IsWhole)
    (x0 : Vec F S4000x128 .bf16) (x1 : Vec F S128x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them; after the body at point `t`
    each input's buffer at its block and the output's at `out0_3` of the three input blocks; the invariant is the untouched
    rest; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrB.Region1.lean ====
/-
  Region 1 of the program is one fully connected layer whose rows are tiled over a one-axis grid of 5 points.
  At a grid point the body reads the point's block of 5000 rows of the activations (a 5000×256 block), the whole
  256×128 weight matrix and the whole bias vector of length 128, and writes the 5000×128 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.Kernel.Launch
import proofs.«180239_j88888643158466_1_alg».proof.Proof.Gen.Kernel.Skeleton
import proofs.«180239_j88888643158466_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has the entry contents as its array and leaves the window's block in place after
    the body, the window's current buffer holds the point's block at every point — freshly fetched where the block index moved,
    and otherwise still the same block, because the index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever proof data has the entry contents as its array and leaves the window's block in place after
    the body, the window's current buffer holds the point's block at every point — freshly fetched where the block index moved,
    and otherwise still the same block, because the index did not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever proof data has the entry contents as its array and leaves the window's block in place after
    the body, the window's current buffer holds the point's block at every point — freshly fetched where the block index moved,
    and otherwise still the same block, because the index did not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, as one whole rectangle -/

abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S5000x128 := Rect.unit (s := S5000x128) ![0, 0] S5000x128.size inb_S5000x128_S5000x128_0_0

/-! ## What the body leaves in the output window's buffer -/

/-- The output block after the body, from the three input blocks: the one store, of the product of the activation block
    with the weights plus the bias on every row, over the whole buffer. -/
def out1_3 (x0 : Vec F S5000x256 .bf16) (x1 : Vec F S256x128 .bf16) (x2 : Vec F S128 .f32) : Vec F S5000x128 .f32 :=
  View.canon [⟨r1_3, k1_pay1 (View.ld x0 r1_0) (View.ld x1 r1_1) (View.ld x2 r1_2)⟩]

/-- The one store covers the buffer: its rectangle is the whole shape. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's run -/

set_option maxHeartbeats 1000000 in
/-- The body on whole buffers — the three inputs at contents `x0`, `x1`, `x2`, the output at anything — runs to a state
    where the inputs hold what they held and the output holds `out1_3 x0 x1 x2`. -/
theorem sound_kernel1 (c : Dev nD) (E : Set ℕ) (i : grid1.Coords)
    (arg1 : Memref sig .tc .vmem S5000x256 .bf16) (harg1 : arg1.IsWhole) (arg2 : Memref sig .tc .vmem S256x128 .bf16) (harg2 : arg2.IsWhole)
    (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them; after the body at point `t`
    each input's buffer at its block and the output's at `out1_3` of the three input blocks; the invariant is the untouched
    rest; nothing is owed; the shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrB.Region2.lean ====
/-
  Region 2 of the program is one fully connected layer whose rows are tiled over a one-axis grid of 100 points.
  At a grid point the body reads the point's block of 4000 rows of the activations (a 4000×128 block), the whole
  128×256 weight matrix and the whole bias vector of length 256, and writes the 4000×256 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.Kernel.Launch
import proofs.«180239_j88888643158466_1_alg».proof.Proof.Gen.Kernel.Skeleton
import proofs.«180239_j88888643158466_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever proof data has the entry contents as its array and leaves the window's block in place after
    the body, the window's current buffer holds the point's block at every point — freshly fetched where the block index moved,
    and otherwise still the same block, because the index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: whatever proof data has the entry contents as its array and leaves the window's block in place after
    the body, the window's current buffer holds the point's block at every point — freshly fetched where the block index moved,
    and otherwise still the same block, because the index did not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: whatever proof data has the entry contents as its array and leaves the window's block in place after
    the body, the window's current buffer holds the point's block at every point — freshly fetched where the block index moved,
    and otherwise still the same block, because the index did not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, as one whole rectangle -/

abbrev r2_0 : Rect S4000x128 := Rect.unit (s := S4000x128) ![0, 0] S4000x128.size inb_S4000x128_S4000x128_0_0
abbrev r2_1 : Rect S128x256 := Rect.unit (s := S128x256) ![0, 0] S128x256.size inb_S128x256_S128x256_0_0
abbrev r2_2 : Rect S256 := Rect.unit (s := S256) ![0] S256.size inb_S256_S256_0
abbrev r2_3 : Rect S4000x256 := Rect.unit (s := S4000x256) ![0, 0] S4000x256.size inb_S4000x256_S4000x256_0_0

/-! ## What the body leaves in the output window's buffer -/

/-- The output block after the body, from the three input blocks: the one store, of the product of the activation block
    with the weights plus the bias on every row, over the whole buffer. -/
def out2_3 (x0 : Vec F S4000x128 .bf16) (x1 : Vec F S128x256 .bf16) (x2 : Vec F S256 .f32) : Vec F S4000x256 .f32 :=
  View.canon [⟨r2_3, k2_pay1 (View.ld x0 r2_0) (View.ld x1 r2_1) (View.ld x2 r2_2)⟩]

/-- The one store covers the buffer: its rectangle is the whole shape. -/
theorem cover2_3 (p0 : Vec F S4000x256 .f32) (y : S4000x256.Idx) :
    ∃ pc ∈ ([⟨r2_3, p0⟩] : List (View.Piece (Elt F) S4000x256 .f32)), y ∈ pc.1.set :=
  View.cover_of_tiled [⟨r2_3, p0⟩] S4000x256.size (by rfl) y

/-! ## The body's run -/

set_option maxHeartbeats 1000000 in
/-- The body on whole buffers — the three inputs at contents `x0`, `x1`, `x2`, the output at anything — runs to a state
    where the inputs hold what they held and the output holds `out2_3 x0 x1 x2`. -/
theorem sound_kernel2 (c : Dev nD) (E : Set ℕ) (i : grid2.Coords)
    (arg1 : Memref sig .tc .vmem S4000x128 .bf16) (harg1 : arg1.IsWhole) (arg2 : Memref sig .tc .vmem S128x256 .bf16) (harg2 : arg2.IsWhole)
    (arg3 : Memref sig .tc .vmem S256 .f32) (harg3 : arg3.IsWhole) (arg4 : Memref sig .tc .vmem S4000x256 .f32) (harg4 : arg4.IsWhole)
    (x0 : Vec F S4000x128 .bf16) (x1 : Vec F S128x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them; after the body at point `t`
    each input's buffer at its block and the output's at `out2_3` of the three input blocks; the invariant is the untouched
    rest; nothing is owed; the shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrB.Region3.lean ====
/-
  Region 3 of the program is one fully connected layer whose rows are tiled over a one-axis grid of 5 points.
  At a grid point the body reads the point's block of 5000 rows of the activations (a 5000×256 block), the whole
  256×128 weight matrix and the whole bias vector of length 128, and writes the 5000×128 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.Kernel.Launch
import proofs.«180239_j88888643158466_1_alg».proof.Proof.Gen.Kernel.Skeleton
import proofs.«180239_j88888643158466_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has the entry contents as its array and leaves the window's block in place after
    the body, the window's current buffer holds the point's block at every point — freshly fetched where the block index moved,
    and otherwise still the same block, because the index did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has the entry contents as its array and leaves the window's block in place after
    the body, the window's current buffer holds the point's block at every point — freshly fetched where the block index moved,
    and otherwise still the same block, because the index did not move. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has the entry contents as its array and leaves the window's block in place after
    the body, the window's current buffer holds the point's block at every point — freshly fetched where the block index moved,
    and otherwise still the same block, because the index did not move. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, as one whole rectangle -/

abbrev r3_0 : Rect S5000x256 := Rect.unit (s := S5000x256) ![0, 0] S5000x256.size inb_S5000x256_S5000x256_0_0
abbrev r3_1 : Rect S256x128 := Rect.unit (s := S256x128) ![0, 0] S256x128.size inb_S256x128_S256x128_0_0
abbrev r3_2 : Rect S128 := Rect.unit (s := S128) ![0] S128.size inb_S128_S128_0
abbrev r3_3 : Rect S5000x128 := Rect.unit (s := S5000x128) ![0, 0] S5000x128.size inb_S5000x128_S5000x128_0_0

/-! ## What the body leaves in the output window's buffer -/

/-- The output block after the body, from the three input blocks: the one store, of the product of the activation block
    with the weights plus the bias on every row, over the whole buffer. -/
def out3_3 (x0 : Vec F S5000x256 .bf16) (x1 : Vec F S256x128 .bf16) (x2 : Vec F S128 .f32) : Vec F S5000x128 .f32 :=
  View.canon [⟨r3_3, k3_pay1 (View.ld x0 r3_0) (View.ld x1 r3_1) (View.ld x2 r3_2)⟩]

/-- The one store covers the buffer: its rectangle is the whole shape. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The body's run -/

set_option maxHeartbeats 1000000 in
/-- The body on whole buffers — the three inputs at contents `x0`, `x1`, `x2`, the output at anything — runs to a state
    where the inputs hold what they held and the output holds `out3_3 x0 x1 x2`. -/
theorem sound_kernel3 (c : Dev nD) (E : Set ℕ) (i : grid3.Coords)
    (arg1 : Memref sig .tc .vmem S5000x256 .bf16) (harg1 : arg1.IsWhole) (arg2 : Memref sig .tc .vmem S256x128 .bf16) (harg2 : arg2.IsWhole)
    (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__fc_kernel i arg1 harg1 arg2 harg2 arg3 harg3 arg4 harg4) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them; after the body at point `t`
    each input's buffer at its block and the output's at `out3_3` of the three input blocks; the invariant is the untouched
    rest; nothing is owed; the shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's run applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrB.Run.lean ====
/-
  The whole program as a sequence of segments: stretches of host operations and the four fully connected regions.
  Between two segments every unscoped buffer of a core holds a known valuation: the launch contents, then each host stretch's
  operations applied in order, then — after a region — the same valuation with the region's one output array replaced.
  The replacement values are a parameter `outs`; the one hypothesis on it (`OutsOk`) says that each region's output array
  is what that region's pipeline leaves when run from the valuation the region is entered with.
  Each region is then a segment between its entry and exit valuations, and the program's frame follows: it terminates,
  nothing faults, and every argument array ends as launched.
-/
import proofs.«180239_j88888643158466_1_alg».proof.Proof.Gen.Kernel.Regions
import proofs.«180239_j88888643158466_1_alg».proof.Proof.FrB.Region0
import proofs.«180239_j88888643158466_1_alg».proof.Proof.FrB.Region1
import proofs.«180239_j88888643158466_1_alg».proof.Proof.FrB.Region2
import proofs.«180239_j88888643158466_1_alg».proof.Proof.FrB.Region3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-! ## The valuations between segments, read at the TensorCore's references -/

abbrev T1 : (c : Dev nD) → (b : Ref sig .tc) → Buf (Elt F) ((c : Thread nD τ).loc b) := fun c b => V1 m c b
abbrev T2 : (c : Dev nD) → (b : Ref sig .tc) → Buf (Elt F) ((c : Thread nD τ).loc b) := fun c b => V2 m outs c b
abbrev T5 : (c : Dev nD) → (b : Ref sig .tc) → Buf (Elt F) ((c : Thread nD τ).loc b) := fun c b => V5 m outs c b
abbrev T6 : (c : Dev nD) → (b : Ref sig .tc) → Buf (Elt F) ((c : Thread nD τ).loc b) := fun c b => V6 m outs c b
abbrev T7 : (c : Dev nD) → (b : Ref sig .tc) → Buf (Elt F) ((c : Thread nD τ).loc b) := fun c b => V7 m outs c b
abbrev T8 : (c : Dev nD) → (b : Ref sig .tc) → Buf (Elt F) ((c : Thread nD τ).loc b) := fun c b => V8 m outs c b
abbrev T11 : (c : Dev nD) → (b : Ref sig .tc) → Buf (Elt F) ((c : Thread nD τ).loc b) := fun c b => V11 m outs c b
abbrev T12 : (c : Dev nD) → (b : Ref sig .tc) → Buf (Elt F) ((c : Thread nD τ).loc b) := fun c b => V12 m outs c b

/-- The hypothesis on `outs`: each region's output array, after the region, is what the region's pipeline leaves in it when
    run from the valuation the region is entered with (all write-backs of its grid points folded). -/
structure OutsOk : Prop where
  h2 : ∀ c, outs 2 main_v39 c = (dat0 (T1 m) c).arrAt 3 cfg0.N
  h6 : ∀ c, outs 6 main_v85 c = (dat1 (T5 m outs) c).arrAt 3 cfg1.N
  h8 : ∀ c, outs 8 main_v88 c = (dat2 (T7 m outs) c).arrAt 3 cfg2.N
  h12 : ∀ c, outs 12 main_v134 c = (dat3 (T11 m outs) c).arrAt 3 cfg3.N

/-! ## The proof data family and what rides beside the buffers -/

/-- Every pipeline's proof data, each at its region's entry valuation. -/
def pdats : (p : Fin 4) → (c : Dev nD) → Dat τ (Elt F) Unit ℕ (UR sig nD τ) ℕ (cfgs p) c
  | ⟨0, _⟩ => fun c => dat0 (T1 m) c
  | ⟨1, _⟩ => fun c => dat1 (T5 m outs) c
  | ⟨2, _⟩ => fun c => dat2 (T7 m outs) c
  | ⟨3, _⟩ => fun c => dat3 (T11 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and that it owes nothing. -/
abbrev R (c : Dev nD) : sProp 𝕄 := iprop((∃ r, prngReg c r) ∗ ∃ W, owes (c : Thread nD τ) (0 : CellTallies nD τ sig Unit) W)

/-! ## The regions as segments -/

/-- At region 0's exit each of its arrays holds what the pipeline leaves: an input's array is never written, so it holds what
    it held on entry, and the output's array is the region's one changed buffer, which `outs` names. -/
theorem hF0 (h : OutsOk m outs) (c : Dev nD) : ∀ w : Fin cfg0.W, (dat0 (T1 m) c).arrAt w cfg0.N = T2 m outs c (Pipeline.arrRef spec0 w)
  | ⟨0, _⟩ => ((dat0 (T1 m) c).arrAt_in 0 rfl _).trans ((A_eq0 (T1 m) c 0).trans (V2_of m outs c _ (by decide)).symm)
  | ⟨1, _⟩ => ((dat0 (T1 m) c).arrAt_in 1 rfl _).trans ((A_eq0 (T1 m) c 1).trans (V2_of m outs c _ (by decide)).symm)
  | ⟨2, _⟩ => ((dat0 (T1 m) c).arrAt_in 2 rfl _).trans ((A_eq0 (T1 m) c 2).trans (V2_of m outs c _ (by decide)).symm)
  | ⟨3, _⟩ => (h.h2 c).symm.trans (Function.update_self (f := V1 m c) (Proc.devRef .tc main_v39) (outs 2 main_v39 c)).symm

/-- Every buffer that is none of region 0's arrays holds at the exit what it held on entry. -/
theorem hrest0 (c : Dev nD) : ∀ b, b ∉ Finset.univ.image (Pipeline.arrRef spec0) → T2 m outs c b = T1 m c b :=
  fun b hb => V2_of m outs c b (by
    intro hmem; rw [List.mem_singleton] at hmem; subst hmem
    exact hb (Finset.mem_image.mpr ⟨3, Finset.mem_univ _, rfl⟩))

set_option backward.isDefEq.respectTransparency.types false in
/-- REGION 0 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (T1 m c) (T2 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input's array is never written, so it holds what
    it held on entry, and the output's array is the region's one changed buffer, which `outs` names. -/
theorem hF1 (h : OutsOk m outs) (c : Dev nD) : ∀ w : Fin cfg1.W, (dat1 (T5 m outs) c).arrAt w cfg1.N = T6 m outs c (Pipeline.arrRef spec1 w)
  | ⟨0, _⟩ => ((dat1 (T5 m outs) c).arrAt_in 0 rfl _).trans ((A_eq1 (T5 m outs) c 0).trans (V6_of m outs c _ (by decide)).symm)
  | ⟨1, _⟩ => ((dat1 (T5 m outs) c).arrAt_in 1 rfl _).trans ((A_eq1 (T5 m outs) c 1).trans (V6_of m outs c _ (by decide)).symm)
  | ⟨2, _⟩ => ((dat1 (T5 m outs) c).arrAt_in 2 rfl _).trans ((A_eq1 (T5 m outs) c 2).trans (V6_of m outs c _ (by decide)).symm)
  | ⟨3, _⟩ => (h.h6 c).symm.trans (Function.update_self (f := V5 m outs c) (Proc.devRef .tc main_v85) (outs 6 main_v85 c)).symm

/-- Every buffer that is none of region 1's arrays holds at the exit what it held on entry. -/
theorem hrest1 (c : Dev nD) : ∀ b, b ∉ Finset.univ.image (Pipeline.arrRef spec1) → T6 m outs c b = T5 m outs c b :=
  fun b hb => V6_of m outs c b (by
    intro hmem; rw [List.mem_singleton] at hmem; subst hmem
    exact hb (Finset.mem_image.mpr ⟨3, Finset.mem_univ _, rfl⟩))

set_option backward.isDefEq.respectTransparency.types false in
/-- REGION 1 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (T5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (T5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (T5 m outs c) (T6 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input's array is never written, so it holds what
    it held on entry, and the output's array is the region's one changed buffer, which `outs` names. -/
theorem hF2 (h : OutsOk m outs) (c : Dev nD) : ∀ w : Fin cfg2.W, (dat2 (T7 m outs) c).arrAt w cfg2.N = T8 m outs c (Pipeline.arrRef spec2 w)
  | ⟨0, _⟩ => ((dat2 (T7 m outs) c).arrAt_in 0 rfl _).trans ((A_eq2 (T7 m outs) c 0).trans (V8_of m outs c _ (by decide)).symm)
  | ⟨1, _⟩ => ((dat2 (T7 m outs) c).arrAt_in 1 rfl _).trans ((A_eq2 (T7 m outs) c 1).trans (V8_of m outs c _ (by decide)).symm)
  | ⟨2, _⟩ => ((dat2 (T7 m outs) c).arrAt_in 2 rfl _).trans ((A_eq2 (T7 m outs) c 2).trans (V8_of m outs c _ (by decide)).symm)
  | ⟨3, _⟩ => (h.h8 c).symm.trans (Function.update_self (f := V7 m outs c) (Proc.devRef .tc main_v88) (outs 8 main_v88 c)).symm

/-- Every buffer that is none of region 2's arrays holds at the exit what it held on entry. -/
theorem hrest2 (c : Dev nD) : ∀ b, b ∉ Finset.univ.image (Pipeline.arrRef spec2) → T8 m outs c b = T7 m outs c b :=
  fun b hb => V8_of m outs c b (by
    intro hmem; rw [List.mem_singleton] at hmem; subst hmem
    exact hb (Finset.mem_image.mpr ⟨3, Finset.mem_univ _, rfl⟩))

set_option backward.isDefEq.respectTransparency.types false in
/-- REGION 2 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T7 m outs) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (T7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (T7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (T7 m outs c) (T8 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input's array is never written, so it holds what
    it held on entry, and the output's array is the region's one changed buffer, which `outs` names. -/
theorem hF3 (h : OutsOk m outs) (c : Dev nD) : ∀ w : Fin cfg3.W, (dat3 (T11 m outs) c).arrAt w cfg3.N = T12 m outs c (Pipeline.arrRef spec3 w)
  | ⟨0, _⟩ => ((dat3 (T11 m outs) c).arrAt_in 0 rfl _).trans ((A_eq3 (T11 m outs) c 0).trans (V12_of m outs c _ (by decide)).symm)
  | ⟨1, _⟩ => ((dat3 (T11 m outs) c).arrAt_in 1 rfl _).trans ((A_eq3 (T11 m outs) c 1).trans (V12_of m outs c _ (by decide)).symm)
  | ⟨2, _⟩ => ((dat3 (T11 m outs) c).arrAt_in 2 rfl _).trans ((A_eq3 (T11 m outs) c 2).trans (V12_of m outs c _ (by decide)).symm)
  | ⟨3, _⟩ => (h.h12 c).symm.trans (Function.update_self (f := V11 m outs c) (Proc.devRef .tc main_v134) (outs 12 main_v134 c)).symm

/-- Every buffer that is none of region 3's arrays holds at the exit what it held on entry. -/
theorem hrest3 (c : Dev nD) : ∀ b, b ∉ Finset.univ.image (Pipeline.arrRef spec3) → T12 m outs c b = T11 m outs c b :=
  fun b hb => V12_of m outs c b (by
    intro hmem; rw [List.mem_singleton] at hmem; subst hmem
    exact hb (Finset.mem_image.mpr ⟨3, Finset.mem_univ _, rfl⟩))

set_option backward.isDefEq.respectTransparency.types false in
/-- REGION 3 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m outs) c).loose
  hwaits := Pipeline.hwaits_of_owed_zero _ _ _ _ L lv 3 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec3 c (T11 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (T11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (T11 m outs c) (T12 m outs c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME, for any `outs` that names what the regions leave: from any memory with zero counters every weakly fair execution
    of the program terminates, nothing faults, and every argument array ends holding its launch contents. -/
theorem frame_of (ρ : Dev nD → PrngReg) (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)) : sProp 𝕄)
          ⊢ R (F := F) c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => R (F := F) c : sProp 𝕄) :=
        bigSep_mono fun c _ => hcore c
      iintro ⟨H, -⟩
      imodintro
      iapply hmono
      iexact H)
    (fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)
    (reg3 m outs h) (fun _ => .rfl) (fun _ => .rfl)

end Cert.Kernel.Fr

end
-- ==== Proof.FrB.Outs.lean ====
/-
  A concrete choice of what the four regions leave, satisfying the hypothesis the run is stated under.
  The choice is made region by region: region 0's output array is what its pipeline leaves when run from the valuation before
  it; with that fixed, the valuation before region 1 is determined, and region 1's output is what its pipeline leaves from
  there; and so on. A later choice never changes an earlier valuation, because the valuation before a region depends only on
  the outputs of the regions before it.
-/
import proofs.«180239_j88888643158466_1_alg».proof.Proof.FrB.Run

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

/-- `o` with the entry at position `J`, buffer `r0` replaced by `v`. -/
def setOut (o : Outs (F := F)) (J : ℕ) (r0 : Ref sig .tc) (v : (c : Dev nD) → Buf (Elt F) ((c : Thread nD τ).loc r0)) : Outs (F := F) :=
  fun J' r c => if h : J' = J ∧ r = r0 then h.2 ▸ v c else o J' r c

theorem setOut_same (o : Outs (F := F)) (J : ℕ) (r0 : Ref sig .tc) (v : (c : Dev nD) → Buf (Elt F) ((c : Thread nD τ).loc r0)) (c : Dev nD) :
    setOut o J r0 v J r0 c = v c := by
  unfold setOut; rw [dif_pos ⟨rfl, rfl⟩]

theorem setOut_ne (o : Outs (F := F)) (J : ℕ) (r0 : Ref sig .tc) (v : (c : Dev nD) → Buf (Elt F) ((c : Thread nD τ).loc r0))
    (J' : ℕ) (r : Ref sig .tc) (c : Dev nD) (h : J' ≠ J) : setOut o J r0 v J' r c = o J' r c := by
  unfold setOut; rw [dif_neg (fun hh => h hh.1)]

variable (m : (ℓ : Loc nD τ sig) → Buf (Elt F) ℓ)

/-! ## The valuation before a region depends only on the outputs of the regions before it -/

theorem T5_congr (o o' : Outs (F := F)) (h2 : ∀ c, o 2 main_v39 c = o' 2 main_v39 c) : T5 m o = T5 m o' := by
  funext c b
  show StableHlo.after hostOps1_2 (StableHlo.after hostOps1_1 (StableHlo.after hostOps1 (Function.update (V1 m c) main_v39 (o 2 main_v39 c)))) b
    = StableHlo.after hostOps1_2 (StableHlo.after hostOps1_1 (StableHlo.after hostOps1 (Function.update (V1 m c) main_v39 (o' 2 main_v39 c)))) b
  rw [h2 c]

theorem V5_congr (o o' : Outs (F := F)) (h2 : ∀ c, o 2 main_v39 c = o' 2 main_v39 c) (c : Dev nD) : V5 m o c = V5 m o' c := by
  show StableHlo.after hostOps1_2 (StableHlo.after hostOps1_1 (StableHlo.after hostOps1 (Function.update (V1 m c) main_v39 (o 2 main_v39 c))))
    = StableHlo.after hostOps1_2 (StableHlo.after hostOps1_1 (StableHlo.after hostOps1 (Function.update (V1 m c) main_v39 (o' 2 main_v39 c))))
  rw [h2 c]

theorem V7_congr (o o' : Outs (F := F)) (h2 : ∀ c, o 2 main_v39 c = o' 2 main_v39 c) (h6 : ∀ c, o 6 main_v85 c = o' 6 main_v85 c) (c : Dev nD) :
    V7 m o c = V7 m o' c := by
  show StableHlo.after hostOps2 (Function.update (V5 m o c) main_v85 (o 6 main_v85 c))
    = StableHlo.after hostOps2 (Function.update (V5 m o' c) main_v85 (o' 6 main_v85 c))
  rw [h6 c, V5_congr m o o' h2 c]

theorem T7_congr (o o' : Outs (F := F)) (h2 : ∀ c, o 2 main_v39 c = o' 2 main_v39 c) (h6 : ∀ c, o 6 main_v85 c = o' 6 main_v85 c) :
    T7 m o = T7 m o' := by
  funext c b
  show V7 m o c b = V7 m o' c b
  rw [V7_congr m o o' h2 h6 c]

theorem V11_congr (o o' : Outs (F := F)) (h2 : ∀ c, o 2 main_v39 c = o' 2 main_v39 c) (h6 : ∀ c, o 6 main_v85 c = o' 6 main_v85 c)
    (h8 : ∀ c, o 8 main_v88 c = o' 8 main_v88 c) (c : Dev nD) : V11 m o c = V11 m o' c := by
  show StableHlo.after hostOps3_2 (StableHlo.after hostOps3_1 (StableHlo.after hostOps3 (Function.update (V7 m o c) main_v88 (o 8 main_v88 c))))
    = StableHlo.after hostOps3_2 (StableHlo.after hostOps3_1 (StableHlo.after hostOps3 (Function.update (V7 m o' c) main_v88 (o' 8 main_v88 c))))
  rw [h8 c, V7_congr m o o' h2 h6 c]

theorem T11_congr (o o' : Outs (F := F)) (h2 : ∀ c, o 2 main_v39 c = o' 2 main_v39 c) (h6 : ∀ c, o 6 main_v85 c = o' 6 main_v85 c)
    (h8 : ∀ c, o 8 main_v88 c = o' 8 main_v88 c) : T11 m o = T11 m o' := by
  funext c b
  show V11 m o c b = V11 m o' c b
  rw [V11_congr m o o' h2 h6 h8 c]

/-! ## The choice, region by region -/

/-- Nothing chosen yet: every entry the launch contents. -/
def outsA : Outs (F := F) := fun _ r c => V0 m c r
/-- Region 0's output array: what its pipeline leaves from the valuation after the first host stretch. -/
def outsB : Outs (F := F) := setOut (outsA m) 2 main_v39 (fun c => (dat0 (T1 m) c).arrAt 3 cfg0.N)
/-- Region 1's output array, with region 0's fixed. -/
def outsC : Outs (F := F) := setOut (outsB m) 6 main_v85 (fun c => (dat1 (T5 m (outsB m)) c).arrAt 3 cfg1.N)
/-- Region 2's output array, with the first two fixed. -/
def outsD : Outs (F := F) := setOut (outsC m) 8 main_v88 (fun c => (dat2 (T7 m (outsC m)) c).arrAt 3 cfg2.N)
/-- Region 3's output array, with the first three fixed: the final choice. -/
def outsE : Outs (F := F) := setOut (outsD m) 12 main_v134 (fun c => (dat3 (T11 m (outsD m)) c).arrAt 3 cfg3.N)

theorem outsE_2 (c : Dev nD) : outsE m 2 main_v39 c = (dat0 (T1 m) c).arrAt 3 cfg0.N := by
  unfold outsE; rw [setOut_ne _ _ _ _ _ _ _ (by decide)]
  unfold outsD; rw [setOut_ne _ _ _ _ _ _ _ (by decide)]
  unfold outsC; rw [setOut_ne _ _ _ _ _ _ _ (by decide)]
  unfold outsB; rw [setOut_same]

theorem outsD_2 (c : Dev nD) : outsD m 2 main_v39 c = (dat0 (T1 m) c).arrAt 3 cfg0.N := by
  unfold outsD; rw [setOut_ne _ _ _ _ _ _ _ (by decide)]
  unfold outsC; rw [setOut_ne _ _ _ _ _ _ _ (by decide)]
  unfold outsB; rw [setOut_same]

theorem outsC_2 (c : Dev nD) : outsC m 2 main_v39 c = (dat0 (T1 m) c).arrAt 3 cfg0.N := by
  unfold outsC; rw [setOut_ne _ _ _ _ _ _ _ (by decide)]
  unfold outsB; rw [setOut_same]

theorem outsB_2 (c : Dev nD) : outsB m 2 main_v39 c = (dat0 (T1 m) c).arrAt 3 cfg0.N := by
  unfold outsB; rw [setOut_same]

theorem outsC_6 (c : Dev nD) : outsC m 6 main_v85 c = (dat1 (T5 m (outsB m)) c).arrAt 3 cfg1.N := by
  unfold outsC; rw [setOut_same]

theorem outsD_6 (c : Dev nD) : outsD m 6 main_v85 c = (dat1 (T5 m (outsB m)) c).arrAt 3 cfg1.N := by
  unfold outsD; rw [setOut_ne _ _ _ _ _ _ _ (by decide)]; exact outsC_6 m c

theorem outsE_6 (c : Dev nD) : outsE m 6 main_v85 c = (dat1 (T5 m (outsB m)) c).arrAt 3 cfg1.N := by
  unfold outsE; rw [setOut_ne _ _ _ _ _ _ _ (by decide)]; exact outsD_6 m c

theorem outsD_8 (c : Dev nD) : outsD m 8 main_v88 c = (dat2 (T7 m (outsC m)) c).arrAt 3 cfg2.N := by
  unfold outsD; rw [setOut_same]

theorem outsE_8 (c : Dev nD) : outsE m 8 main_v88 c = (dat2 (T7 m (outsC m)) c).arrAt 3 cfg2.N := by
  unfold outsE; rw [setOut_ne _ _ _ _ _ _ _ (by decide)]; exact outsD_8 m c

theorem outsE_12 (c : Dev nD) : outsE m 12 main_v134 c = (dat3 (T11 m (outsD m)) c).arrAt 3 cfg3.N := by
  unfold outsE; rw [setOut_same]

/-- The final choice names what every region leaves. -/
theorem outsE_ok : OutsOk m (outsE m) where
  h2 := outsE_2 m
  h6 c := by
    rw [outsE_6, T5_congr m (outsE m) (outsB m) (fun c => (outsE_2 m c).trans (outsB_2 m c).symm)]
  h8 c := by
    rw [outsE_8, T7_congr m (outsE m) (outsC m) (fun c => (outsE_2 m c).trans (outsC_2 m c).symm)
      (fun c => (outsE_6 m c).trans (outsC_6 m c).symm)]
  h12 c := by
    rw [outsE_12, T11_congr m (outsE m) (outsD m) (fun c => (outsE_2 m c).trans (outsD_2 m c).symm)
      (fun c => (outsE_6 m c).trans (outsD_6 m c).symm) (fun c => (outsE_8 m c).trans (outsD_8 m c).symm)]

end Cert.Kernel.Fr

end
-- ==== Proof.FrI.Region0.lean ====
/-
  Region 0 of the program is one fully connected layer whose rows are tiled over a one-axis grid of 100 points.
  At a grid point the body reads the point's block of 4000 rows of the activations (a 4000×128 block), the whole
  128×256 weight matrix and the whole bias vector of length 256, and writes the 4000×256 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.KernelIdeal.Launch
import proofs.«180239_j88888643158466_1_alg».proof.Proof.Gen.KernelIdeal.Skeleton
import proofs.«180239_j88888643158466_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the window's block in place after
    the body, the window's current buffer holds the point's block at every point — freshly fetched where the block index moved,
    and otherwise still the same block, because the index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: whatever proof data has the entry contents as its array and leaves the window's block in place after
    the body, the window's current buffer holds the point's block at every point — freshly fetched where the block index moved,
    and otherwise still the same block, because the index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: whatever proof data has the entry contents as its array and leaves the window's block in place after
    the body, the window's current buffer holds the point's block at every point — freshly fetched where the block index moved,
    and otherwise still the same block, because the index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, as one whole rectangle -/

abbrev r0_0 : Rect S4000x128 := Rect.unit (s := S4000x128) ![0, 0] S4000x128.size inb_S4000x128_S4000x128_0_0
abbrev r0_1 : Rect S128x256 := Rect.unit (s := S128x256) ![0, 0] S128x256.size inb_S128x256_S128x256_0_0
abbrev r0_2 : Rect S256 := Rect.unit (s := S256) ![0] S256.size inb_S256_S256_0
abbrev r0_3 : Rect S4000x256 := Rect.unit (s := S4000x256) ![0, 0] S4000x256.size inb_S4000x256_S4000x256_0_0

/-! ## What the body leaves in the output window's buffer -/

/-- The output block after the body, from the three input blocks: the one store, of the product of the activation block
    with the weights plus the bias on every row, over the whole buffer. -/
def out0_3 (x0 : Vec F S4000x128 .bf16) (x1 : Vec F S128x256 .bf16) (x2 : Vec F S256 .f32) : Vec F S4000x256 .f32 :=
  View.canon [⟨r0_3, k0_pay1 (View.ld x0 r0_0) (View.ld x1 r0_1) (View.ld x2 r0_2)⟩]

/-- The one store covers the buffer: its rectangle is the whole shape. -/
theorem cover0_3 (p0 : Vec F S4000x256 .f32) (y : S4000x256.Idx) :
    ∃ pc ∈ ([⟨r0_3, p0⟩] : List (View.Piece (Elt F) S4000x256 .f32)), y ∈ pc.1.set :=
  View.cover_of_tiled [⟨r0_3, p0⟩] S4000x256.size (by rfl) y

/-! ## The body's run -/

set_option maxHeartbeats 1000000 in
/-- The body on whole buffers — the three inputs at contents `x0`, `x1`, `x2`, the output at anything — runs to a state
    where the inputs hold what they held and the output holds `out0_3 x0 x1 x2`. -/
theorem sound_kernel0 (c : Dev nD) (E : Set ℕ) (i : grid0.Coords)
    (arg1 : Memref sig .tc .vmem S4000x128 .bf16) (harg1 : arg1.IsWhole) (arg2 : Memref sig .tc .vmem S128x256 .bf16) (harg2 : arg2.IsWhole)
    (arg3 : Memref sig .tc .vmem S256 .f32) (harg3 : arg3.IsWhole) (arg4 : Memref sig .tc .vmem S4000x256 .f32) (harg4 : arg4.IsWhole)
    (x0 : Vec F S4000x128 .bf16) (x1 : Vec F S128x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them; after the body at point `t`
    each input's buffer at its block and the output's at `out0_3` of the three input blocks; the invariant is the untouched
    rest; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrI.Region1.lean ====
/-
  Region 1 of the program is one fully connected layer whose rows are tiled over a one-axis grid of 5 points.
  At a grid point the body reads the point's block of 5000 rows of the activations (a 5000×256 block), the whole
  256×128 weight matrix and the whole bias vector of length 128, and writes the 5000×128 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.KernelIdeal.Launch
import proofs.«180239_j88888643158466_1_alg».proof.Proof.Gen.KernelIdeal.Skeleton
import proofs.«180239_j88888643158466_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has the entry contents as its array and leaves the window's block in place after
    the body, the window's current buffer holds the point's block at every point — freshly fetched where the block index moved,
    and otherwise still the same block, because the index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever proof data has the entry contents as its array and leaves the window's block in place after
    the body, the window's current buffer holds the point's block at every point — freshly fetched where the block index moved,
    and otherwise still the same block, because the index did not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever proof data has the entry contents as its array and leaves the window's block in place after
    the body, the window's current buffer holds the point's block at every point — freshly fetched where the block index moved,
    and otherwise still the same block, because the index did not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, as one whole rectangle -/

abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S5000x128 := Rect.unit (s := S5000x128) ![0, 0] S5000x128.size inb_S5000x128_S5000x128_0_0

/-! ## What the body leaves in the output window's buffer -/

/-- The output block after the body, from the three input blocks: the one store, of the product of the activation block
    with the weights plus the bias on every row, over the whole buffer. -/
def out1_3 (x0 : Vec F S5000x256 .bf16) (x1 : Vec F S256x128 .bf16) (x2 : Vec F S128 .f32) : Vec F S5000x128 .f32 :=
  View.canon [⟨r1_3, k1_pay1 (View.ld x0 r1_0) (View.ld x1 r1_1) (View.ld x2 r1_2)⟩]

/-- The one store covers the buffer: its rectangle is the whole shape. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's run -/

set_option maxHeartbeats 1000000 in
/-- The body on whole buffers — the three inputs at contents `x0`, `x1`, `x2`, the output at anything — runs to a state
    where the inputs hold what they held and the output holds `out1_3 x0 x1 x2`. -/
theorem sound_kernel1 (c : Dev nD) (E : Set ℕ) (i : grid1.Coords)
    (arg1 : Memref sig .tc .vmem S5000x256 .bf16) (harg1 : arg1.IsWhole) (arg2 : Memref sig .tc .vmem S256x128 .bf16) (harg2 : arg2.IsWhole)
    (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them; after the body at point `t`
    each input's buffer at its block and the output's at `out1_3` of the three input blocks; the invariant is the untouched
    rest; nothing is owed; the shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrI.Region2.lean ====
/-
  Region 2 of the program is one fully connected layer whose rows are tiled over a one-axis grid of 100 points.
  At a grid point the body reads the point's block of 4000 rows of the activations (a 4000×128 block), the whole
  128×256 weight matrix and the whole bias vector of length 256, and writes the 4000×256 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.KernelIdeal.Launch
import proofs.«180239_j88888643158466_1_alg».proof.Proof.Gen.KernelIdeal.Skeleton
import proofs.«180239_j88888643158466_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever proof data has the entry contents as its array and leaves the window's block in place after
    the body, the window's current buffer holds the point's block at every point — freshly fetched where the block index moved,
    and otherwise still the same block, because the index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: whatever proof data has the entry contents as its array and leaves the window's block in place after
    the body, the window's current buffer holds the point's block at every point — freshly fetched where the block index moved,
    and otherwise still the same block, because the index did not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: whatever proof data has the entry contents as its array and leaves the window's block in place after
    the body, the window's current buffer holds the point's block at every point — freshly fetched where the block index moved,
    and otherwise still the same block, because the index did not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, as one whole rectangle -/

abbrev r2_0 : Rect S4000x128 := Rect.unit (s := S4000x128) ![0, 0] S4000x128.size inb_S4000x128_S4000x128_0_0
abbrev r2_1 : Rect S128x256 := Rect.unit (s := S128x256) ![0, 0] S128x256.size inb_S128x256_S128x256_0_0
abbrev r2_2 : Rect S256 := Rect.unit (s := S256) ![0] S256.size inb_S256_S256_0
abbrev r2_3 : Rect S4000x256 := Rect.unit (s := S4000x256) ![0, 0] S4000x256.size inb_S4000x256_S4000x256_0_0

/-! ## What the body leaves in the output window's buffer -/

/-- The output block after the body, from the three input blocks: the one store, of the product of the activation block
    with the weights plus the bias on every row, over the whole buffer. -/
def out2_3 (x0 : Vec F S4000x128 .bf16) (x1 : Vec F S128x256 .bf16) (x2 : Vec F S256 .f32) : Vec F S4000x256 .f32 :=
  View.canon [⟨r2_3, k2_pay1 (View.ld x0 r2_0) (View.ld x1 r2_1) (View.ld x2 r2_2)⟩]

/-- The one store covers the buffer: its rectangle is the whole shape. -/
theorem cover2_3 (p0 : Vec F S4000x256 .f32) (y : S4000x256.Idx) :
    ∃ pc ∈ ([⟨r2_3, p0⟩] : List (View.Piece (Elt F) S4000x256 .f32)), y ∈ pc.1.set :=
  View.cover_of_tiled [⟨r2_3, p0⟩] S4000x256.size (by rfl) y

/-! ## The body's run -/

set_option maxHeartbeats 1000000 in
/-- The body on whole buffers — the three inputs at contents `x0`, `x1`, `x2`, the output at anything — runs to a state
    where the inputs hold what they held and the output holds `out2_3 x0 x1 x2`. -/
theorem sound_kernel2 (c : Dev nD) (E : Set ℕ) (i : grid2.Coords)
    (arg1 : Memref sig .tc .vmem S4000x128 .bf16) (harg1 : arg1.IsWhole) (arg2 : Memref sig .tc .vmem S128x256 .bf16) (harg2 : arg2.IsWhole)
    (arg3 : Memref sig .tc .vmem S256 .f32) (harg3 : arg3.IsWhole) (arg4 : Memref sig .tc .vmem S4000x256 .f32) (harg4 : arg4.IsWhole)
    (x0 : Vec F S4000x128 .bf16) (x1 : Vec F S128x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them; after the body at point `t`
    each input's buffer at its block and the output's at `out2_3` of the three input blocks; the invariant is the untouched
    rest; nothing is owed; the shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrI.Region3.lean ====
/-
  Region 3 of the program is one fully connected layer whose rows are tiled over a one-axis grid of 5 points.
  At a grid point the body reads the point's block of 5000 rows of the activations (a 5000×256 block), the whole
  256×128 weight matrix and the whole bias vector of length 128, and writes the 5000×128 block
  "activations times weights, plus the bias on every row" of the output.
  Everything here is stated at arbitrary contents `V` of the buffers when the region is entered, and at any float instance:
  the block of each window at a point; the output block the body leaves, as one function of the three input blocks;
  that the body, run on buffers holding those blocks, ends with the inputs unchanged and the output at that function;
  and that this is what the pipeline asks of the body at every grid point.
-/
import proofs.«180239_j88888643158466_1_alg».proof.Proof.Gen.KernelIdeal.Launch
import proofs.«180239_j88888643158466_1_alg».proof.Proof.Gen.KernelIdeal.Skeleton
import proofs.«180239_j88888643158466_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the window's rectangle at that point, read off the window's array as the
    region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has the entry contents as its array and leaves the window's block in place after
    the body, the window's current buffer holds the point's block at every point — freshly fetched where the block index moved,
    and otherwise still the same block, because the index did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has the entry contents as its array and leaves the window's block in place after
    the body, the window's current buffer holds the point's block at every point — freshly fetched where the block index moved,
    and otherwise still the same block, because the index did not move. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has the entry contents as its array and leaves the window's block in place after
    the body, the window's current buffer holds the point's block at every point — freshly fetched where the block index moved,
    and otherwise still the same block, because the index did not move. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, as one whole rectangle -/

abbrev r3_0 : Rect S5000x256 := Rect.unit (s := S5000x256) ![0, 0] S5000x256.size inb_S5000x256_S5000x256_0_0
abbrev r3_1 : Rect S256x128 := Rect.unit (s := S256x128) ![0, 0] S256x128.size inb_S256x128_S256x128_0_0
abbrev r3_2 : Rect S128 := Rect.unit (s := S128) ![0] S128.size inb_S128_S128_0
abbrev r3_3 : Rect S5000x128 := Rect.unit (s := S5000x128) ![0, 0] S5000x128.size inb_S5000x128_S5000x128_0_0

/-! ## What the body leaves in the output window's buffer -/

/-- The output block after the body, from the three input blocks: the one store, of the product of the activation block
    with the weights plus the bias on every row, over the whole buffer. -/
def out3_3 (x0 : Vec F S5000x256 .bf16) (x1 : Vec F S256x128 .bf16) (x2 : Vec F S128 .f32) : Vec F S5000x128 .f32 :=
  View.canon [⟨r3_3, k3_pay1 (View.ld x0 r3_0) (View.ld x1 r3_1) (View.ld x2 r3_2)⟩]

/-- The one store covers the buffer: its rectangle is the whole shape. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The body's run -/

set_option maxHeartbeats 1000000 in
/-- The body on whole buffers — the three inputs at contents `x0`, `x1`, `x2`, the output at anything — runs to a state
    where the inputs hold what they held and the output holds `out3_3 x0 x1 x2`. -/
theorem sound_kernel3 (c : Dev nD) (E : Set ℕ) (i : grid3.Coords)
    (arg1 : Memref sig .tc .vmem S5000x256 .bf16) (harg1 : arg1.IsWhole) (arg2 : Memref sig .tc .vmem S256x128 .bf16) (harg2 : arg2.IsWhole)
    (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__fc_kernel i arg1 harg1 arg2 harg2 arg3 harg3 arg4 harg4) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them; after the body at point `t`
    each input's buffer at its block and the output's at `out3_3` of the three input blocks; the invariant is the untouched
    rest; nothing is owed; the shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's run applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrI.Run.lean ====
/-
  The whole program as a sequence of segments: stretches of host operations and the four fully connected regions.
  Between two segments every unscoped buffer of a core holds a known valuation: the launch contents, then each host stretch's
  operations applied in order, then — after a region — the same valuation with the region's one output array replaced.
  The replacement values are a parameter `outs`; the one hypothesis on it (`OutsOk`) says that each region's output array
  is what that region's pipeline leaves when run from the valuation the region is entered with.
  Each region is then a segment between its entry and exit valuations, and the program's frame follows: it terminates,
  nothing faults, and every argument array ends as launched.
-/
import proofs.«180239_j88888643158466_1_alg».proof.Proof.Gen.KernelIdeal.Regions
import proofs.«180239_j88888643158466_1_alg».proof.Proof.FrI.Region0
import proofs.«180239_j88888643158466_1_alg».proof.Proof.FrI.Region1
import proofs.«180239_j88888643158466_1_alg».proof.Proof.FrI.Region2
import proofs.«180239_j88888643158466_1_alg».proof.Proof.FrI.Region3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-! ## The valuations between segments, read at the TensorCore's references -/

abbrev T1 : (c : Dev nD) → (b : Ref sig .tc) → Buf (Elt F) ((c : Thread nD τ).loc b) := fun c b => V1 m c b
abbrev T2 : (c : Dev nD) → (b : Ref sig .tc) → Buf (Elt F) ((c : Thread nD τ).loc b) := fun c b => V2 m outs c b
abbrev T5 : (c : Dev nD) → (b : Ref sig .tc) → Buf (Elt F) ((c : Thread nD τ).loc b) := fun c b => V5 m outs c b
abbrev T6 : (c : Dev nD) → (b : Ref sig .tc) → Buf (Elt F) ((c : Thread nD τ).loc b) := fun c b => V6 m outs c b
abbrev T7 : (c : Dev nD) → (b : Ref sig .tc) → Buf (Elt F) ((c : Thread nD τ).loc b) := fun c b => V7 m outs c b
abbrev T8 : (c : Dev nD) → (b : Ref sig .tc) → Buf (Elt F) ((c : Thread nD τ).loc b) := fun c b => V8 m outs c b
abbrev T11 : (c : Dev nD) → (b : Ref sig .tc) → Buf (Elt F) ((c : Thread nD τ).loc b) := fun c b => V11 m outs c b
abbrev T12 : (c : Dev nD) → (b : Ref sig .tc) → Buf (Elt F) ((c : Thread nD τ).loc b) := fun c b => V12 m outs c b

/-- The hypothesis on `outs`: each region's output array, after the region, is what the region's pipeline leaves in it when
    run from the valuation the region is entered with (all write-backs of its grid points folded). -/
structure OutsOk : Prop where
  h2 : ∀ c, outs 2 main_v39 c = (dat0 (T1 m) c).arrAt 3 cfg0.N
  h6 : ∀ c, outs 6 main_v85 c = (dat1 (T5 m outs) c).arrAt 3 cfg1.N
  h8 : ∀ c, outs 8 main_v88 c = (dat2 (T7 m outs) c).arrAt 3 cfg2.N
  h12 : ∀ c, outs 12 main_v134 c = (dat3 (T11 m outs) c).arrAt 3 cfg3.N

/-! ## The proof data family and what rides beside the buffers -/

/-- Every pipeline's proof data, each at its region's entry valuation. -/
def pdats : (p : Fin 4) → (c : Dev nD) → Dat τ (Elt F) Unit ℕ (UR sig nD τ) ℕ (cfgs p) c
  | ⟨0, _⟩ => fun c => dat0 (T1 m) c
  | ⟨1, _⟩ => fun c => dat1 (T5 m outs) c
  | ⟨2, _⟩ => fun c => dat2 (T7 m outs) c
  | ⟨3, _⟩ => fun c => dat3 (T11 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and that it owes nothing. -/
abbrev R (c : Dev nD) : sProp 𝕄 := iprop((∃ r, prngReg c r) ∗ ∃ W, owes (c : Thread nD τ) (0 : CellTallies nD τ sig Unit) W)

/-! ## The regions as segments -/

/-- At region 0's exit each of its arrays holds what the pipeline leaves: an input's array is never written, so it holds what
    it held on entry, and the output's array is the region's one changed buffer, which `outs` names. -/
theorem hF0 (h : OutsOk m outs) (c : Dev nD) : ∀ w : Fin cfg0.W, (dat0 (T1 m) c).arrAt w cfg0.N = T2 m outs c (Pipeline.arrRef spec0 w)
  | ⟨0, _⟩ => ((dat0 (T1 m) c).arrAt_in 0 rfl _).trans ((A_eq0 (T1 m) c 0).trans (V2_of m outs c _ (by decide)).symm)
  | ⟨1, _⟩ => ((dat0 (T1 m) c).arrAt_in 1 rfl _).trans ((A_eq0 (T1 m) c 1).trans (V2_of m outs c _ (by decide)).symm)
  | ⟨2, _⟩ => ((dat0 (T1 m) c).arrAt_in 2 rfl _).trans ((A_eq0 (T1 m) c 2).trans (V2_of m outs c _ (by decide)).symm)
  | ⟨3, _⟩ => (h.h2 c).symm.trans (Function.update_self (f := V1 m c) (Proc.devRef .tc main_v39) (outs 2 main_v39 c)).symm

/-- Every buffer that is none of region 0's arrays holds at the exit what it held on entry. -/
theorem hrest0 (c : Dev nD) : ∀ b, b ∉ Finset.univ.image (Pipeline.arrRef spec0) → T2 m outs c b = T1 m c b :=
  fun b hb => V2_of m outs c b (by
    intro hmem; rw [List.mem_singleton] at hmem; subst hmem
    exact hb (Finset.mem_image.mpr ⟨3, Finset.mem_univ _, rfl⟩))

set_option backward.isDefEq.respectTransparency.types false in
/-- REGION 0 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (T1 m c) (T2 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input's array is never written, so it holds what
    it held on entry, and the output's array is the region's one changed buffer, which `outs` names. -/
theorem hF1 (h : OutsOk m outs) (c : Dev nD) : ∀ w : Fin cfg1.W, (dat1 (T5 m outs) c).arrAt w cfg1.N = T6 m outs c (Pipeline.arrRef spec1 w)
  | ⟨0, _⟩ => ((dat1 (T5 m outs) c).arrAt_in 0 rfl _).trans ((A_eq1 (T5 m outs) c 0).trans (V6_of m outs c _ (by decide)).symm)
  | ⟨1, _⟩ => ((dat1 (T5 m outs) c).arrAt_in 1 rfl _).trans ((A_eq1 (T5 m outs) c 1).trans (V6_of m outs c _ (by decide)).symm)
  | ⟨2, _⟩ => ((dat1 (T5 m outs) c).arrAt_in 2 rfl _).trans ((A_eq1 (T5 m outs) c 2).trans (V6_of m outs c _ (by decide)).symm)
  | ⟨3, _⟩ => (h.h6 c).symm.trans (Function.update_self (f := V5 m outs c) (Proc.devRef .tc main_v85) (outs 6 main_v85 c)).symm

/-- Every buffer that is none of region 1's arrays holds at the exit what it held on entry. -/
theorem hrest1 (c : Dev nD) : ∀ b, b ∉ Finset.univ.image (Pipeline.arrRef spec1) → T6 m outs c b = T5 m outs c b :=
  fun b hb => V6_of m outs c b (by
    intro hmem; rw [List.mem_singleton] at hmem; subst hmem
    exact hb (Finset.mem_image.mpr ⟨3, Finset.mem_univ _, rfl⟩))

set_option backward.isDefEq.respectTransparency.types false in
/-- REGION 1 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (T5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (T5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (T5 m outs c) (T6 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input's array is never written, so it holds what
    it held on entry, and the output's array is the region's one changed buffer, which `outs` names. -/
theorem hF2 (h : OutsOk m outs) (c : Dev nD) : ∀ w : Fin cfg2.W, (dat2 (T7 m outs) c).arrAt w cfg2.N = T8 m outs c (Pipeline.arrRef spec2 w)
  | ⟨0, _⟩ => ((dat2 (T7 m outs) c).arrAt_in 0 rfl _).trans ((A_eq2 (T7 m outs) c 0).trans (V8_of m outs c _ (by decide)).symm)
  | ⟨1, _⟩ => ((dat2 (T7 m outs) c).arrAt_in 1 rfl _).trans ((A_eq2 (T7 m outs) c 1).trans (V8_of m outs c _ (by decide)).symm)
  | ⟨2, _⟩ => ((dat2 (T7 m outs) c).arrAt_in 2 rfl _).trans ((A_eq2 (T7 m outs) c 2).trans (V8_of m outs c _ (by decide)).symm)
  | ⟨3, _⟩ => (h.h8 c).symm.trans (Function.update_self (f := V7 m outs c) (Proc.devRef .tc main_v88) (outs 8 main_v88 c)).symm

/-- Every buffer that is none of region 2's arrays holds at the exit what it held on entry. -/
theorem hrest2 (c : Dev nD) : ∀ b, b ∉ Finset.univ.image (Pipeline.arrRef spec2) → T8 m outs c b = T7 m outs c b :=
  fun b hb => V8_of m outs c b (by
    intro hmem; rw [List.mem_singleton] at hmem; subst hmem
    exact hb (Finset.mem_image.mpr ⟨3, Finset.mem_univ _, rfl⟩))

set_option backward.isDefEq.respectTransparency.types false in
/-- REGION 2 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T7 m outs) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (T7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (T7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (T7 m outs c) (T8 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input's array is never written, so it holds what
    it held on entry, and the output's array is the region's one changed buffer, which `outs` names. -/
theorem hF3 (h : OutsOk m outs) (c : Dev nD) : ∀ w : Fin cfg3.W, (dat3 (T11 m outs) c).arrAt w cfg3.N = T12 m outs c (Pipeline.arrRef spec3 w)
  | ⟨0, _⟩ => ((dat3 (T11 m outs) c).arrAt_in 0 rfl _).trans ((A_eq3 (T11 m outs) c 0).trans (V12_of m outs c _ (by decide)).symm)
  | ⟨1, _⟩ => ((dat3 (T11 m outs) c).arrAt_in 1 rfl _).trans ((A_eq3 (T11 m outs) c 1).trans (V12_of m outs c _ (by decide)).symm)
  | ⟨2, _⟩ => ((dat3 (T11 m outs) c).arrAt_in 2 rfl _).trans ((A_eq3 (T11 m outs) c 2).trans (V12_of m outs c _ (by decide)).symm)
  | ⟨3, _⟩ => (h.h12 c).symm.trans (Function.update_self (f := V11 m outs c) (Proc.devRef .tc main_v134) (outs 12 main_v134 c)).symm

/-- Every buffer that is none of region 3's arrays holds at the exit what it held on entry. -/
theorem hrest3 (c : Dev nD) : ∀ b, b ∉ Finset.univ.image (Pipeline.arrRef spec3) → T12 m outs c b = T11 m outs c b :=
  fun b hb => V12_of m outs c b (by
    intro hmem; rw [List.mem_singleton] at hmem; subst hmem
    exact hb (Finset.mem_image.mpr ⟨3, Finset.mem_univ _, rfl⟩))

set_option backward.isDefEq.respectTransparency.types false in
/-- REGION 3 as a segment of the program: entered with every unscoped buffer at its entry contents, left with the region's
    output array at what the pipeline's write-backs leave and every other buffer untouched. The region's arrays are split
    out of the held buffers on entry and joined back on exit; the generator register passes through the pipeline's invariant;
    nothing is owed; the body has no semaphore of its own. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m outs) c).loose
  hwaits := Pipeline.hwaits_of_owed_zero _ _ _ _ L lv 3 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec3 c (T11 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (T11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (T11 m outs c) (T12 m outs c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME, for any `outs` that names what the regions leave: from any memory with zero counters every weakly fair execution
    of the program terminates, nothing faults, and every argument array ends holding its launch contents. -/
theorem frame_of (ρ : Dev nD → PrngReg) (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)) : sProp 𝕄)
          ⊢ R (F := F) c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => R (F := F) c : sProp 𝕄) :=
        bigSep_mono fun c _ => hcore c
      iintro ⟨H, -⟩
      imodintro
      iapply hmono
      iexact H)
    (fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)
    (reg3 m outs h) (fun _ => .rfl) (fun _ => .rfl)

end Cert.KernelIdeal.Fr

end
-- ==== Proof.FrI.Outs.lean ====
/-
  A concrete choice of what the four regions leave, satisfying the hypothesis the run is stated under.
  The choice is made region by region: region 0's output array is what its pipeline leaves when run from the valuation before
  it; with that fixed, the valuation before region 1 is determined, and region 1's output is what its pipeline leaves from
  there; and so on. A later choice never changes an earlier valuation, because the valuation before a region depends only on
  the outputs of the regions before it.
-/
import proofs.«180239_j88888643158466_1_alg».proof.Proof.FrI.Run

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- `o` with the entry at position `J`, buffer `r0` replaced by `v`. -/
def setOut (o : Outs (F := F)) (J : ℕ) (r0 : Ref sig .tc) (v : (c : Dev nD) → Buf (Elt F) ((c : Thread nD τ).loc r0)) : Outs (F := F) :=
  fun J' r c => if h : J' = J ∧ r = r0 then h.2 ▸ v c else o J' r c

theorem setOut_same (o : Outs (F := F)) (J : ℕ) (r0 : Ref sig .tc) (v : (c : Dev nD) → Buf (Elt F) ((c : Thread nD τ).loc r0)) (c : Dev nD) :
    setOut o J r0 v J r0 c = v c := by
  unfold setOut; rw [dif_pos ⟨rfl, rfl⟩]

theorem setOut_ne (o : Outs (F := F)) (J : ℕ) (r0 : Ref sig .tc) (v : (c : Dev nD) → Buf (Elt F) ((c : Thread nD τ).loc r0))
    (J' : ℕ) (r : Ref sig .tc) (c : Dev nD) (h : J' ≠ J) : setOut o J r0 v J' r c = o J' r c := by
  unfold setOut; rw [dif_neg (fun hh => h hh.1)]

variable (m : (ℓ : Loc nD τ sig) → Buf (Elt F) ℓ)

/-! ## The valuation before a region depends only on the outputs of the regions before it -/

theorem T5_congr (o o' : Outs (F := F)) (h2 : ∀ c, o 2 main_v39 c = o' 2 main_v39 c) : T5 m o = T5 m o' := by
  funext c b
  show StableHlo.after hostOps1_2 (StableHlo.after hostOps1_1 (StableHlo.after hostOps1 (Function.update (V1 m c) main_v39 (o 2 main_v39 c)))) b
    = StableHlo.after hostOps1_2 (StableHlo.after hostOps1_1 (StableHlo.after hostOps1 (Function.update (V1 m c) main_v39 (o' 2 main_v39 c)))) b
  rw [h2 c]

theorem V5_congr (o o' : Outs (F := F)) (h2 : ∀ c, o 2 main_v39 c = o' 2 main_v39 c) (c : Dev nD) : V5 m o c = V5 m o' c := by
  show StableHlo.after hostOps1_2 (StableHlo.after hostOps1_1 (StableHlo.after hostOps1 (Function.update (V1 m c) main_v39 (o 2 main_v39 c))))
    = StableHlo.after hostOps1_2 (StableHlo.after hostOps1_1 (StableHlo.after hostOps1 (Function.update (V1 m c) main_v39 (o' 2 main_v39 c))))
  rw [h2 c]

theorem V7_congr (o o' : Outs (F := F)) (h2 : ∀ c, o 2 main_v39 c = o' 2 main_v39 c) (h6 : ∀ c, o 6 main_v85 c = o' 6 main_v85 c) (c : Dev nD) :
    V7 m o c = V7 m o' c := by
  show StableHlo.after hostOps2 (Function.update (V5 m o c) main_v85 (o 6 main_v85 c))
    = StableHlo.after hostOps2 (Function.update (V5 m o' c) main_v85 (o' 6 main_v85 c))
  rw [h6 c, V5_congr m o o' h2 c]

theorem T7_congr (o o' : Outs (F := F)) (h2 : ∀ c, o 2 main_v39 c = o' 2 main_v39 c) (h6 : ∀ c, o 6 main_v85 c = o' 6 main_v85 c) :
    T7 m o = T7 m o' := by
  funext c b
  show V7 m o c b = V7 m o' c b
  rw [V7_congr m o o' h2 h6 c]

theorem V11_congr (o o' : Outs (F := F)) (h2 : ∀ c, o 2 main_v39 c = o' 2 main_v39 c) (h6 : ∀ c, o 6 main_v85 c = o' 6 main_v85 c)
    (h8 : ∀ c, o 8 main_v88 c = o' 8 main_v88 c) (c : Dev nD) : V11 m o c = V11 m o' c := by
  show StableHlo.after hostOps3_2 (StableHlo.after hostOps3_1 (StableHlo.after hostOps3 (Function.update (V7 m o c) main_v88 (o 8 main_v88 c))))
    = StableHlo.after hostOps3_2 (StableHlo.after hostOps3_1 (StableHlo.after hostOps3 (Function.update (V7 m o' c) main_v88 (o' 8 main_v88 c))))
  rw [h8 c, V7_congr m o o' h2 h6 c]

theorem T11_congr (o o' : Outs (F := F)) (h2 : ∀ c, o 2 main_v39 c = o' 2 main_v39 c) (h6 : ∀ c, o 6 main_v85 c = o' 6 main_v85 c)
    (h8 : ∀ c, o 8 main_v88 c = o' 8 main_v88 c) : T11 m o = T11 m o' := by
  funext c b
  show V11 m o c b = V11 m o' c b
  rw [V11_congr m o o' h2 h6 h8 c]

/-! ## The choice, region by region -/

/-- Nothing chosen yet: every entry the launch contents. -/
def outsA : Outs (F := F) := fun _ r c => V0 m c r
/-- Region 0's output array: what its pipeline leaves from the valuation after the first host stretch. -/
def outsB : Outs (F := F) := setOut (outsA m) 2 main_v39 (fun c => (dat0 (T1 m) c).arrAt 3 cfg0.N)
/-- Region 1's output array, with region 0's fixed. -/
def outsC : Outs (F := F) := setOut (outsB m) 6 main_v85 (fun c => (dat1 (T5 m (outsB m)) c).arrAt 3 cfg1.N)
/-- Region 2's output array, with the first two fixed. -/
def outsD : Outs (F := F) := setOut (outsC m) 8 main_v88 (fun c => (dat2 (T7 m (outsC m)) c).arrAt 3 cfg2.N)
/-- Region 3's output array, with the first three fixed: the final choice. -/
def outsE : Outs (F := F) := setOut (outsD m) 12 main_v134 (fun c => (dat3 (T11 m (outsD m)) c).arrAt 3 cfg3.N)

theorem outsE_2 (c : Dev nD) : outsE m 2 main_v39 c = (dat0 (T1 m) c).arrAt 3 cfg0.N := by
  unfold outsE; rw [setOut_ne _ _ _ _ _ _ _ (by decide)]
  unfold outsD; rw [setOut_ne _ _ _ _ _ _ _ (by decide)]
  unfold outsC; rw [setOut_ne _ _ _ _ _ _ _ (by decide)]
  unfold outsB; rw [setOut_same]

theorem outsD_2 (c : Dev nD) : outsD m 2 main_v39 c = (dat0 (T1 m) c).arrAt 3 cfg0.N := by
  unfold outsD; rw [setOut_ne _ _ _ _ _ _ _ (by decide)]
  unfold outsC; rw [setOut_ne _ _ _ _ _ _ _ (by decide)]
  unfold outsB; rw [setOut_same]

theorem outsC_2 (c : Dev nD) : outsC m 2 main_v39 c = (dat0 (T1 m) c).arrAt 3 cfg0.N := by
  unfold outsC; rw [setOut_ne _ _ _ _ _ _ _ (by decide)]
  unfold outsB; rw [setOut_same]

theorem outsB_2 (c : Dev nD) : outsB m 2 main_v39 c = (dat0 (T1 m) c).arrAt 3 cfg0.N := by
  unfold outsB; rw [setOut_same]

theorem outsC_6 (c : Dev nD) : outsC m 6 main_v85 c = (dat1 (T5 m (outsB m)) c).arrAt 3 cfg1.N := by
  unfold outsC; rw [setOut_same]

theorem outsD_6 (c : Dev nD) : outsD m 6 main_v85 c = (dat1 (T5 m (outsB m)) c).arrAt 3 cfg1.N := by
  unfold outsD; rw [setOut_ne _ _ _ _ _ _ _ (by decide)]; exact outsC_6 m c

theorem outsE_6 (c : Dev nD) : outsE m 6 main_v85 c = (dat1 (T5 m (outsB m)) c).arrAt 3 cfg1.N := by
  unfold outsE; rw [setOut_ne _ _ _ _ _ _ _ (by decide)]; exact outsD_6 m c

theorem outsD_8 (c : Dev nD) : outsD m 8 main_v88 c = (dat2 (T7 m (outsC m)) c).arrAt 3 cfg2.N := by
  unfold outsD; rw [setOut_same]

theorem outsE_8 (c : Dev nD) : outsE m 8 main_v88 c = (dat2 (T7 m (outsC m)) c).arrAt 3 cfg2.N := by
  unfold outsE; rw [setOut_ne _ _ _ _ _ _ _ (by decide)]; exact outsD_8 m c

theorem outsE_12 (c : Dev nD) : outsE m 12 main_v134 c = (dat3 (T11 m (outsD m)) c).arrAt 3 cfg3.N := by
  unfold outsE; rw [setOut_same]

/-- The final choice names what every region leaves. -/
theorem outsE_ok : OutsOk m (outsE m) where
  h2 := outsE_2 m
  h6 c := by
    rw [outsE_6, T5_congr m (outsE m) (outsB m) (fun c => (outsE_2 m c).trans (outsB_2 m c).symm)]
  h8 c := by
    rw [outsE_8, T7_congr m (outsE m) (outsC m) (fun c => (outsE_2 m c).trans (outsC_2 m c).symm)
      (fun c => (outsE_6 m c).trans (outsC_6 m c).symm)]
  h12 c := by
    rw [outsE_12, T11_congr m (outsE m) (outsD m) (fun c => (outsE_2 m c).trans (outsD_2 m c).symm)
      (fun c => (outsE_6 m c).trans (outsD_6 m c).symm) (fun c => (outsE_8 m c).trans (outsD_8 m c).symm)]

end Cert.KernelIdeal.Fr

end
-- ==== Proof.FrI.RunVals.lean ====
/-
  The same run of the whole program, with more read off its end: in every final state each unscoped buffer holds the last
  valuation of the chain, so besides the argument arrays (which end as launched) the two result buffers end at what the
  second and the fourth region left in them.
-/
import proofs.«180239_j88888643158466_1_alg».proof.Proof.FrI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN WITH ITS RESULTS: every weakly fair execution terminates, nothing faults, the two result buffers end at the last
    valuation's contents and every argument array as launched. -/
theorem run_of (ρ : Dev nD → PrngReg) (h : OutsOk m outs) :
    θ_run defs (onTc (τ := τ) (main (F := F))) ⟨m, fun _ => 0, ρ⟩ (fun r => ∀ c : Dev nD,
      r.2.mem ((c.tc : Thread nD τ).loc main_v85) = V12 m outs c main_v85
      ∧ r.2.mem ((c.tc : Thread nD τ).loc main_v134) = V12 m outs c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm (pdats m outs) () cellOf_inj emb₁ defs₀ 𝒱₀ L lv m ρ main
    (segs m outs 𝒱₀ L lv (fun _ c => R c) () (pdats m outs) (reg0 m outs h) (reg1 m outs h) (reg2 m outs h) (reg3 m outs h))
    (fun c Q => by
      rewrite [main_chain c, Seg.run_eq_chain,
        show (segs m outs 𝒱₀ L lv (fun _ c => R c) () (pdats m outs) (reg0 m outs h) (reg1 m outs h) (reg2 m outs h) (reg3 m outs h) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V12 m outs c))
    (hch := fun c => ⟨.rfl, .rfl, .rfl, .rfl, .rfl, .rfl, .rfl, .rfl, .rfl, .rfl, .rfl, .rfl,
      sep_mono .rfl (show R (F := F) c ⊢ (iprop(∃ W, owes (c : Thread nD τ) (0 : CellTallies nD τ sig Unit) W) : sProp 𝕄) from by iintro ⟨-, HO⟩; iexact HO)⟩)
    (hinit := ?_) (QY := fun c s => ∀ b ∈ Pipeline.ucRefs τ sig, s.mem ((c : Thread nD τ).1, b) = V12 m outs c b)
    (hfin := fun c s' => ?_) (hQ := fun r hs c => ?_)
  · -- the launch: the unscoped buffers are held at the launch contents; the rest makes the register and "owes nothing" on every core
    have hcore : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
        ⊢ (iprop(StableHlo.held (c : Thread nD τ) (Pipeline.ucRefs τ sig) (V0 m c) ∗ R (F := F) c) : sProp 𝕄) := fun c => by
      rw [show unscopedBufs c (fun b => m ((c.tc : Thread nD τ).loc b)) = StableHlo.held (c : Thread nD τ) (Pipeline.ucRefs τ sig) (V0 m c)
        from Pipeline.unscopedBufs_held (Ix := Unit) (Name := ℕ) (U := UR sig nD τ) (Lvl := ℕ) c (V0 m c)]
      iintro ⟨Hh, -, HO, -, Hp, -⟩
      isplitl [Hh]; · iexact Hh
      isplitl [Hp]; · iexists _; iexact Hp
      iexists ∅; iexact HO
    have hmono : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ R (F := F) c) : sProp 𝕄) :=
      bigSep_mono fun c _ => hcore c
    iintro ⟨H, -⟩
    imodintro
    iapply hmono
    iexact H
  · -- the end: every unscoped buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%hr, HSI⟩
    imodintro
    isplitr
    · ipureintro; exact hr
    · iexact HSI
  · exact ⟨hs c _ (mem_uc main_v85 (by decide)), hs c _ (mem_uc main_v134 (by decide)),
      (hs c _ (mem_uc main_arg0 (by decide))).trans (V12_main_arg0 m outs c),
      (hs c _ (mem_uc main_arg1 (by decide))).trans (V12_main_arg1 m outs c),
      (hs c _ (mem_uc main_arg2 (by decide))).trans (V12_main_arg2 m outs c),
      (hs c _ (mem_uc main_arg3 (by decide))).trans (V12_main_arg3 m outs c),
      (hs c _ (mem_uc main_arg4 (by decide))).trans (V12_main_arg4 m outs c),
      (hs c _ (mem_uc main_arg5 (by decide))).trans (V12_main_arg5 m outs c),
      (hs c _ (mem_uc main_arg6 (by decide))).trans (V12_main_arg6 m outs c),
      (hs c _ (mem_uc main_arg7 (by decide))).trans (V12_main_arg7 m outs c),
      (hs c _ (mem_uc main_arg8 (by decide))).trans (V12_main_arg8 m outs c),
      (hs c _ (mem_uc main_arg9 (by decide))).trans (V12_main_arg9 m outs c),
      (hs c _ (mem_uc main_arg10 (by decide))).trans (V12_main_arg10 m outs c),
      (hs c _ (mem_uc main_arg11 (by decide))).trans (V12_main_arg11 m outs c),
      (hs c _ (mem_uc main_arg12 (by decide))).trans (V12_main_arg12 m outs c),
      (hs c _ (mem_uc main_arg13 (by decide))).trans (V12_main_arg13 m outs c),
      (hs c _ (mem_uc main_arg14 (by decide))).trans (V12_main_arg14 m outs c),
      (hs c _ (mem_uc main_arg15 (by decide))).trans (V12_main_arg15 m outs c),
      (hs c _ (mem_uc main_arg16 (by decide))).trans (V12_main_arg16 m outs c),
      (hs c _ (mem_uc main_arg17 (by decide))).trans (V12_main_arg17 m outs c),
      (hs c _ (mem_uc main_arg18 (by decide))).trans (V12_main_arg18 m outs c),
      (hs c _ (mem_uc main_arg19 (by decide))).trans (V12_main_arg19 m outs c),
      (hs c _ (mem_uc main_arg20 (by decide))).trans (V12_main_arg20 m outs c)⟩

end Cert.KernelIdeal.Fr

end
-- ==== Proof.FrI.FcSpec.lean ====
/-
  The fully connected layer as one function of its three whole arrays.

  For an input array `X` (rows × contracted axis), weights `W` (contracted axis × columns) and a bias `B` (columns), the layer's
  array has at row `r` and column `q` the sum over the contracted axis of `X` at (r, k) times `W` at (k, q), plus `B` at `q`,
  in the extended reals. `fcIn` is the 400000×128 by 128×256 layer, `fcOut` the 25000×256 by 256×128 layer; `fcIn_apply` and
  `fcOut_apply` read them at an index given by its coordinates. The functions take an index's coordinates by value, with
  their bounds, so that each coordinate is a number below a literal extent.

  Also here: the zero offsets of a rank-2 and of a rank-1 rectangle are the constant zero function.
-/
import proofs.«180239_j88888643158466_1_alg».proof.KernelIdeal
import Idealize.ShloMosaic.Lib.ValueIdx

noncomputable section

open scoped BigOperators

namespace Cert.KernelIdeal.Fr

open Cert.KernelIdeal Idealize.ShloMosaic Idealize.ShloMosaic.ValueIdx

/-- The 400000×128 by 128×256 layer with a bias of length 256, index by index. -/
def fcIn (X : FVec Ideal S400000x128 .bf16) (W : FVec Ideal S128x256 .bf16) (B : FVec Ideal S256 .f32) :
    FVec Ideal S400000x256 .f32 := fun i =>
  (∑ k : Fin 128, X (ix2 (⟨(i 0).val, (i 0).isLt⟩ : Fin 400000) k) * W (ix2 k (⟨(i 1).val, (i 1).isLt⟩ : Fin 256)))
    + B (ix1 (⟨(i 1).val, (i 1).isLt⟩ : Fin 256))

/-- At row `r` and column `q`: row `r` of the input times column `q` of the weights, plus the bias at `q`. -/
theorem fcIn_apply (X : FVec Ideal S400000x128 .bf16) (W : FVec Ideal S128x256 .bf16) (B : FVec Ideal S256 .f32)
    (r : Fin 400000) (q : Fin 256) :
    fcIn X W B (ix2 r q) = (∑ k : Fin 128, X (ix2 r k) * W (ix2 k q)) + B (ix1 q) := rfl

/-- The 25000×256 by 256×128 layer with a bias of length 128, index by index. -/
def fcOut (X : FVec Ideal S25000x256 .bf16) (W : FVec Ideal S256x128 .bf16) (B : FVec Ideal S128 .f32) :
    FVec Ideal S25000x128 .f32 := fun i =>
  (∑ k : Fin 256, X (ix2 (⟨(i 0).val, (i 0).isLt⟩ : Fin 25000) k) * W (ix2 k (⟨(i 1).val, (i 1).isLt⟩ : Fin 128)))
    + B (ix1 (⟨(i 1).val, (i 1).isLt⟩ : Fin 128))

/-- At row `r` and column `q`: row `r` of the input times column `q` of the weights, plus the bias at `q`. -/
theorem fcOut_apply (X : FVec Ideal S25000x256 .bf16) (W : FVec Ideal S256x128 .bf16) (B : FVec Ideal S128 .f32)
    (r : Fin 25000) (q : Fin 128) :
    fcOut X W B (ix2 r q) = (∑ k : Fin 256, X (ix2 r k) * W (ix2 k q)) + B (ix1 q) := rfl

/-- The zero offsets of a rank-2 rectangle are the constant zero function. -/
theorem fcZero2 : (![0, 0] : Fin 2 → Nat) = fun _ => 0 := funext fun a => by fin_cases a <;> rfl

/-- The zero offset of a rank-1 rectangle is the constant zero function. -/
theorem fcZero1 : (![0] : Fin 1 → Nat) = fun _ => 0 := funext fun a => by fin_cases a <;> rfl

end Cert.KernelIdeal.Fr

end
-- ==== Proof.FcKernel.lean ====
/-
  The fully connected layer's block, read at one element.

  A block of the layer is the matrix product of a block of rows with the weights, accumulated into zero, plus the
  bias repeated down the rows. At the ideal values (extended reals, every operation exact) its element at row `p` and
  column `q` is the sum over the contracted axis of row `p` of the input times column `q` of the weights, plus the bias
  at `q`. Two layer shapes occur: 4000×128 by 128×256 with a bias of length 256 (`pay0_apply`, `pay2_apply`), and
  5000×256 by 256×128 with a bias of length 128 (`pay1_apply`, `pay3_apply`). Each statement names its indices by
  coordinates, so the sum runs over `k : Fin 128` or `k : Fin 256`.

  The steps, per shape: the operand indices of the product at an output index and a contraction coordinate
  (`lhs…`, `rhs…`); the re-indexing of the contraction's sum through its one coordinate (`dot…_sum`); the bias seen as a
  single row and repeated (`bias…_apply`); the whole block (`layer…_apply`). A cast of a block to its own shape is the
  identity. Last, a narrowing change of float format is the identity on extended reals (`truncf_bf16_apply`).
-/
import proofs.«180239_j88888643158466_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.FcKernel

open Cert.KernelIdeal Cert.KernelIdeal.Gen Idealize.ShloMosaic Idealize.ShloMosaic.ValueIdx

/-! ## The 4000×128 by 128×256 layer -/

/-- On the rows axis the left operand's index is the output row. -/
theorem lhsA_0 (i : S4000x256.Idx) (k : dot_S4000x128_S128x256_S4000x256_1_0_0_1_n_n.contr.Idx) :
    (dot_S4000x128_S128x256_S4000x256_1_0_0_1_n_n.lhsIdx i k 0).val = (i 0).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl
/-- On its contracted axis the left operand's index is the contraction coordinate. -/
theorem lhsA_1 (i : S4000x256.Idx) (k : dot_S4000x128_S128x256_S4000x256_1_0_0_1_n_n.contr.Idx) :
    (dot_S4000x128_S128x256_S4000x256_1_0_0_1_n_n.lhsIdx i k 1).val = (k ⟨0, by decide⟩).val :=
  dot_S4000x128_S128x256_S4000x256_1_0_0_1_n_n.lhsIdx_val_of_single rfl i k
/-- On its contracted axis the right operand's index is the contraction coordinate. -/
theorem rhsA_0 (i : S4000x256.Idx) (k : dot_S4000x128_S128x256_S4000x256_1_0_0_1_n_n.contr.Idx) :
    (dot_S4000x128_S128x256_S4000x256_1_0_0_1_n_n.rhsIdx i k 0).val = (k ⟨0, by decide⟩).val :=
  dot_S4000x128_S128x256_S4000x256_1_0_0_1_n_n.rhsIdx_val_of_single rfl i k
/-- On the columns axis the right operand's index is the output column. -/
theorem rhsA_1 (i : S4000x256.Idx) (k : dot_S4000x128_S128x256_S4000x256_1_0_0_1_n_n.contr.Idx) :
    (dot_S4000x128_S128x256_S4000x256_1_0_0_1_n_n.rhsIdx i k 1).val = (i 1).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl

/-- The contraction's sum over its one-axis index set is the sum over `k < 128` of row `p` of the left operand
    times column `q` of the right operand. -/
theorem dotA_sum (X : FVec Ideal S4000x128 .bf16) (W : FVec Ideal S128x256 .bf16) (p : Fin 4000) (q : Fin 256) :
    (∑ k : dot_S4000x128_S128x256_S4000x256_1_0_0_1_n_n.contr.Idx,
        X (dot_S4000x128_S128x256_S4000x256_1_0_0_1_n_n.lhsIdx (ix2 p q) k) * W (dot_S4000x128_S128x256_S4000x256_1_0_0_1_n_n.rhsIdx (ix2 p q) k))
      = ∑ k : Fin 128, X (ix2 p k) * W (ix2 k q) := by
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S4000x128_S128x256_S4000x256_1_0_0_1_n_n.rhsIdx (ix2 p q) ((contrEquiv1 dot_S4000x128_S128x256_S4000x256_1_0_0_1_n_n 128 rfl rfl).symm k) = ix2 k q :=
    funext fun a => Fin.ext (by
      match a with
      | ⟨0, _⟩ => exact (rhsA_0 _ _).trans hk
      | ⟨1, _⟩ => exact rhsA_1 _ _)
  rw [el, er]

/-- The bias, viewed as one row and repeated down the rows, reads the bias at the column. -/
theorem biasA_apply (b : FVec Ideal S256 .f32) (p : Fin 4000) (q : Fin 256) :
    broadcastTo S4000x256 (shapeCast S1x256 b shapeCasts_S256_S1x256) broadcasts_S1x256_S4000x256 (ix2 p q) = b (ix1 q) := by
  refine (broadcastTo_apply _ broadcasts_S1x256_S4000x256 (ix2 p q) (ix2 (0 : Fin 1) q) (fun a => ?_)).trans ?_
  · match a with
    | ⟨0, _⟩ => show 0 = if (1 : Nat) = 1 then 0 else p.val; rw [if_pos rfl]
    | ⟨1, _⟩ => show q.val = if (256 : Nat) = 1 then 0 else q.val; rw [if_neg (by decide)]
  · refine (shapeCast_addUnit_apply ![256] b shapeCasts_S256_S1x256 (ix2 (0 : Fin 1) q)).trans ?_
    refine congrArg b (funext fun a => ?_)
    match a with
    | ⟨0, _⟩ => rfl

/-- The layer's block: the product's sum into a zero accumulator plus the repeated bias, read at row `p`, column `q`. -/
theorem layerA_apply (x : FVec Ideal S4000x128 .bf16) (w : FVec Ideal S128x256 .bf16) (b : FVec Ideal S256 .f32)
    (p : Fin 4000) (q : Fin 256) :
    addf (matmul (F := Ideal) dot_S4000x128_S128x256_S4000x256_1_0_0_1_n_n none
          (shapeCast S4000x128 x shapeCasts_S4000x128_S4000x128) (shapeCast S128x256 w shapeCasts_S128x256_S128x256)
          (constant S4000x256 .f32 0x00000000#32))
        (broadcastTo S4000x256 (shapeCast S1x256 b shapeCasts_S256_S1x256) broadcasts_S1x256_S4000x256) (ix2 p q)
      = (∑ k : Fin 128, x (ix2 p k) * w (ix2 k q)) + b (ix1 q) := by
  rw [shapeCast_self x, shapeCast_self w]
  refine (addf_apply _ _ _).trans ?_
  rw [biasA_apply]
  refine congrArg (· + b (ix1 q)) ?_
  exact (Ideal.matmul_constant_zero_apply dot_S4000x128_S128x256_S4000x256_1_0_0_1_n_n none x w (ix2 p q)).trans (dotA_sum x w p q)

/-! ## The 5000×256 by 256×128 layer -/

/-- On the rows axis the left operand's index is the output row. -/
theorem lhsB_0 (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- On its contracted axis the left operand's index is the contraction coordinate. -/
theorem lhsB_1 (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
/-- On its contracted axis the right operand's index is the contraction coordinate. -/
theorem rhsB_0 (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
/-- On the columns axis the right operand's index is the output column. -/
theorem rhsB_1 (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The contraction's sum over its one-axis index set is the sum over `k < 256` of row `p` of the left operand
    times column `q` of the right operand. -/
theorem dotB_sum (X : FVec Ideal S5000x256 .bf16) (W : FVec Ideal S256x128 .bf16) (p : Fin 5000) (q : Fin 128) :
    (∑ k : dot_S5000x256_S256x128_S5000x128_1_0_0_1_n_n.contr.Idx,
        X (dot_S5000x256_S256x128_S5000x128_1_0_0_1_n_n.lhsIdx (ix2 p q) k) * W (dot_S5000x256_S256x128_S5000x128_1_0_0_1_n_n.rhsIdx (ix2 p q) k))
      = ∑ k : Fin 256, X (ix2 p k) * W (ix2 k q) := by
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (rhsB_0 _ _).trans hk
      | ⟨1, _⟩ => exact rhsB_1 _ _)
  rw [el, er]

/-- The bias, viewed as one row and repeated down the rows, reads the bias at the column. -/
theorem biasB_apply (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine (shapeCast_addUnit_apply ![128] b shapeCasts_S128_S1x128 (ix2 (0 : Fin 1) q)).trans ?_
    refine congrArg b (funext fun a => ?_)
    match a with
    | ⟨0, _⟩ => rfl

/-- The layer's block: the product's sum into a zero accumulator plus the repeated bias, read at row `p`, column `q`. -/
theorem layerB_apply (x : FVec Ideal S5000x256 .bf16) (w : FVec Ideal S256x128 .bf16) (b : FVec Ideal S128 .f32)
    (p : Fin 5000) (q : Fin 128) :
    addf (matmul (F := Ideal) dot_S5000x256_S256x128_S5000x128_1_0_0_1_n_n none
          (shapeCast S5000x256 x shapeCasts_S5000x256_S5000x256) (shapeCast S256x128 w shapeCasts_S256x128_S256x128)
          (constant S5000x128 .f32 0x00000000#32))
        (broadcastTo S5000x128 (shapeCast S1x128 b shapeCasts_S128_S1x128) broadcasts_S1x128_S5000x128) (ix2 p q)
      = (∑ k : Fin 256, x (ix2 p k) * w (ix2 k q)) + b (ix1 q) := by
  rw [shapeCast_self x, shapeCast_self w]
  refine (addf_apply _ _ _).trans ?_
  rw [biasB_apply]
  refine congrArg (· + b (ix1 q)) ?_
  exact (Ideal.matmul_constant_zero_apply dot_S5000x256_S256x128_S5000x128_1_0_0_1_n_n none x w (ix2 p q)).trans (dotB_sum x w p q)

/-! ## The four blocks -/

/-- Element (p, q) of the first 4000-row block: row `p` of the input times column `q` of the weights, plus the bias at `q`. -/
theorem pay0_apply (x : FVec Ideal S4000x128 .bf16) (w : FVec Ideal S128x256 .bf16) (b : FVec Ideal S256 .f32)
    (p : Fin 4000) (q : Fin 256) :
    k0_pay1 (F := Ideal) x w b (ix2 p q) = (∑ k : Fin 128, x (ix2 p k) * w (ix2 k q)) + b (ix1 q) :=
  layerA_apply x w b p q

/-- Element (p, q) of the first 5000-row block. -/
theorem pay1_apply (x : FVec Ideal S5000x256 .bf16) (w : FVec Ideal S256x128 .bf16) (b : FVec Ideal S128 .f32)
    (p : Fin 5000) (q : Fin 128) :
    k1_pay1 (F := Ideal) x w b (ix2 p q) = (∑ k : Fin 256, x (ix2 p k) * w (ix2 k q)) + b (ix1 q) :=
  layerB_apply x w b p q

/-- Element (p, q) of the second 4000-row block. -/
theorem pay2_apply (x : FVec Ideal S4000x128 .bf16) (w : FVec Ideal S128x256 .bf16) (b : FVec Ideal S256 .f32)
    (p : Fin 4000) (q : Fin 256) :
    k2_pay1 (F := Ideal) x w b (ix2 p q) = (∑ k : Fin 128, x (ix2 p k) * w (ix2 k q)) + b (ix1 q) :=
  layerA_apply x w b p q

/-- Element (p, q) of the second 5000-row block. -/
theorem pay3_apply (x : FVec Ideal S5000x256 .bf16) (w : FVec Ideal S256x128 .bf16) (b : FVec Ideal S128 .f32)
    (p : Fin 5000) (q : Fin 128) :
    k3_pay1 (F := Ideal) x w b (ix2 p q) = (∑ k : Fin 256, x (ix2 p k) * w (ix2 k q)) + b (ix1 q) :=
  layerB_apply x w b p q

/-! ## The change of float format -/

/-- Narrowing 32-bit floats to bfloat16 is the identity on extended reals, at every shape and index. -/
theorem truncf_bf16_apply {S : Shape} (x : FVec Ideal S .f32) (i : S.Idx) :
    truncf (F := Ideal) .bf16 x bitsLt_bf16_f32 i = x i := rfl

end Cert.KernelIdeal.FcKernel

end
-- ==== Proof.FrI.Final0.lean ====
/-
  Region 0 as a whole: after its last grid point the output array is the fully connected layer of the arrays it found.

  The region tiles the 400000 rows of the layer over 100 grid points, 4000 rows to a point; every point reads its block of rows
  of the activations, the whole 128×256 weight matrix and the whole bias of length 256, and writes back its 4000×256 block of
  the output. Here the pieces are put together, at the ideal values (extended reals, every operation exact):

  * the printed index maps, decided once over the grid: the activations' and the output's row-block index at a point is
    the point's number, every other block index is zero (`fcIdx0`);
  * each input block read at coordinates: row `p` of the activations' block at point `n` is row `n * 4000 + p` of the array,
    the weights' and the bias's blocks are their whole arrays (`fcBlk0_0`, `fcBlk0_1`, `fcBlk0_2`) — an element of a
    block sits in its array, on each axis, at the block index times the block's size plus its coordinate in the block;
  * one element of one block: the body's result at a block index is the layer of the whole arrays at the array index
    under it (`fcPoint0`, stated over arbitrary arrays and blocks related by those equations);
  * so what a point writes back is its block of the layer of the whole arrays (`fcFlushed0`);
  * an index is in a point's block iff each coordinate is in the block's range (`fcMemBlk0`), and the index with row `r`
    is in the block of point `r / 4000`, so the blocks cover the array (`fcCover0`);
  * hence the output array after the last point is the layer (`final0`).
-/
import proofs.«180239_j88888643158466_1_alg».proof.Proof.FrI.Region0
import proofs.«180239_j88888643158466_1_alg».proof.Proof.FrI.FcSpec
import proofs.«180239_j88888643158466_1_alg».proof.Proof.FcKernel
import Idealize.ShloMosaic.Lib.Pipeline.Value
import Idealize.ShloMosaic.Lib.ValueIdx

noncomputable section

open scoped BigOperators

namespace Cert.KernelIdeal.Fr

open Cert.KernelIdeal Cert.KernelIdeal.Gen Cert.KernelIdeal.FcKernel
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided over the grid -/

/-- At every grid point: the input block's and the output block's row-block index is the point's number, their column-block
    index is zero, and the weights and the bias are read at block index zero on every axis. -/
theorem fcIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid has 100 points. -/
theorem fcN0 : cfg0.N = 100 := N_0

/-! ## The input blocks, read at coordinates -/

/-- The input block at a point whose row-block index is `n`: row `p` of the block is row `n * 4000 + p` of the array. -/
theorem fcBlk0_0 (c : Dev nD) (t : Fin cfg0.N) (n : Nat) (hn : n < 100)
    (h0 : win0_0.index t (0 : Fin 2) = n) (h1 : win0_0.index t (1 : Fin 2) = 0) (p : Fin 4000) (k : Fin 128) :
    iblk0 (F := Ideal) V c 0 t (ix2 p k) = V c main_v37 (ix2 (⟨n * 4000 + p.val, by omega⟩ : Fin 400000) k) := by
  show V c main_v37 (((cfg0.win 0).blk t).view.emb (ix2 p k)) = _
  refine congrArg (V c main_v37) (funext fun a => Fin.ext ?_)
  match a with
  | ⟨0, _⟩ => show win0_0.index t (0 : Fin 2) * 4000 + 1 * p.val = n * 4000 + p.val; omega
  | ⟨1, _⟩ => show win0_0.index t (1 : Fin 2) * 128 + 1 * k.val = k.val; omega

/-- The weights' block is the whole weight array. -/
theorem fcBlk0_1 (c : Dev nD) (t : Fin cfg0.N)
    (h0 : win0_1.index t (0 : Fin 2) = 0) (h1 : win0_1.index t (1 : Fin 2) = 0) (k : Fin 128) (q : Fin 256) :
    iblk0 (F := Ideal) V c 1 t (ix2 k q) = V c main_v38 (ix2 k q) := by
  show V c main_v38 (((cfg0.win 1).blk t).view.emb (ix2 k q)) = _
  refine congrArg (V c main_v38) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The bias's block is the whole bias array. -/
theorem fcBlk0_2 (c : Dev nD) (t : Fin cfg0.N)
    (h0 : win0_2.index t (0 : Fin 1) = 0) (q : Fin 256) :
    iblk0 (F := Ideal) V c 2 t (ix1 q) = V c main_arg6 (ix1 q) := by
  show V c main_arg6 (((cfg0.win 2).blk t).view.emb (ix1 q)) = _
  refine congrArg (V c main_arg6) (funext fun a => Fin.ext ?_)
  match a with
  | ⟨0, _⟩ => show win0_2.index t (0 : Fin 1) * 256 + 1 * q.val = q.val; omega

/-! ## One element of one block -/

/-- If a block `x` of rows is rows `n * 4000 …` of the array `X`, and `w`, `b` are the whole weights `W` and bias `B`, then the
    body's result at a block index `y` is the layer of the whole arrays at the array index `i` with row `n * 4000 + y₀` and
    column `y₁`. -/
theorem fcPoint0 (X : FVec Ideal S400000x128 .bf16) (W : FVec Ideal S128x256 .bf16) (B : FVec Ideal S256 .f32)
    (x : FVec Ideal S4000x128 .bf16) (w : FVec Ideal S128x256 .bf16) (b : FVec Ideal S256 .f32) (n : Nat) (hn : n < 100)
    (hx : ∀ (p : Fin 4000) (k : Fin 128), x (ix2 p k) = X (ix2 (⟨n * 4000 + p.val, by omega⟩ : Fin 400000) k))
    (hw : ∀ (k : Fin 128) (q : Fin 256), w (ix2 k q) = W (ix2 k q))
    (hb : ∀ q : Fin 256, b (ix1 q) = B (ix1 q))
    (y : S4000x256.Idx) (i : S400000x256.Idx) (hi0 : (i 0).val = n * 4000 + (y 0).val) (hi1 : (i 1).val = (y 1).val) :
    k0_pay1 (F := Ideal) x w b y = fcIn X W B i := by
  have hy0 : (y 0).val < 4000 := (y 0).isLt
  have hy1 : (y 1).val < 256 := (y 1).isLt
  have hy : y = ix2 (⟨(y 0).val, hy0⟩ : Fin 4000) (⟨(y 1).val, hy1⟩ : Fin 256) :=
    funext fun a => Fin.ext (by match a with | ⟨0, _⟩ => rfl | ⟨1, _⟩ => rfl)
  have hi : i = ix2 (⟨n * 4000 + (y 0).val, by omega⟩ : Fin 400000) (⟨(y 1).val, hy1⟩ : Fin 256) :=
    funext fun a => Fin.ext (by match a with | ⟨0, _⟩ => exact hi0 | ⟨1, _⟩ => exact hi1)
  refine (congrArg (k0_pay1 (F := Ideal) x w b) hy).trans ?_
  refine Eq.trans ?_ (congrArg (fcIn X W B) hi.symm)
  rw [pay0_apply, fcIn_apply, hb]
  refine congrArg (· + B (ix1 (⟨(y 1).val, hy1⟩ : Fin 256))) (Finset.sum_congr rfl fun k _ => ?_)
  rw [hx, hw]

/-! ## What a grid point writes back -/

/-- What point `t` writes back to the output array is block `t` of the layer of the whole arrays as the region finds them. -/
theorem fcFlushed0 (c : Dev nD) (t : Fin cfg0.N) :
    (dat0 (F := Ideal) V c).flushed 3 t
      = ((cfg0.win 3).blk t).view.read (Elt Ideal) (fcIn (V c main_v37) (V c main_v38) (V c main_arg6)) := by
  show (cfg0.win 3).cut (grid0.coords t) ((dat0 V c).after 3 t) = _
  rw [after0_3]
  unfold out0_3
  rw [View.canon_unit_zero fcZero2]
  simp only [View.ld_unit_zero (S := S4000x128) fcZero2, View.ld_unit_zero (S := S128x256) fcZero2, View.ld_unit_zero (S := S256) fcZero1]
  obtain ⟨e0, e1, e2, e3, e4, e5, e6⟩ := fcIdx0 t
  have ht : t.val < 100 := lt_of_lt_of_eq t.isLt fcN0
  funext j
  exact fcPoint0 (V c main_v37) (V c main_v38) (V c main_arg6) (iblk0 V c 0 t) (iblk0 V c 1 t) (iblk0 V c 2 t) t.val ht
    (fun p k => fcBlk0_0 V c t t.val ht e0 e1 p k)
    (fun k q => fcBlk0_1 V c t e2 e3 k q)
    (fun q => fcBlk0_2 V c t e4 q)
    ((cfg0.win 3).xinj (grid0.coords t) j) (((cfg0.win 3).blk t).view.emb j)
    (by show win0_3.index t (0 : Fin 2) * 4000 + 1 * (j 0).val = t.val * 4000 + (j 0).val; omega)
    (by show win0_3.index t (1 : Fin 2) * 256 + 1 * (j 1).val = (j 1).val; omega)

/-! ## The blocks tile the output array -/

/-- An index of the output array is in point `t`'s block iff each coordinate is in the block's range on its axis. -/
theorem fcMemBlk0 (t : Fin cfg0.N) (i : S400000x256.Idx) :
    i ∈ ((cfg0.win 3).blk t).view.set
      ↔ ∀ a : Fin 2, win0_3.index t a * S4000x256.size a ≤ (i a).val ∧ (i a).val < win0_3.index t a * S4000x256.size a + S4000x256.size a := by
  show i ∈ ((View.whole main_v39).slice (win0_3.rect t)).set ↔ _
  rw [View.set_slice_whole, Rect.mem_set_unit]
  exact Iff.rfl

/-- Every index of the output array is in the block of the point numbered by its row divided by 4000. -/
theorem fcCover0 (i : S400000x256.Idx) :
    ∃ t : Fin cfg0.N, (cfg0.win 3).flush t = true ∧ i ∈ ((cfg0.win 3).blk t).view.set := by
  have hi0 : (i 0).val < 400000 := (i 0).isLt
  have hi1 : (i 1).val < 256 := (i 1).isLt
  have ht : (i 0).val / 4000 < cfg0.N := by rw [fcN0]; omega
  obtain ⟨-, -, -, -, -, e5, e6⟩ := fcIdx0 ⟨(i 0).val / 4000, ht⟩
  have e5' : win0_3.index ⟨(i 0).val / 4000, ht⟩ (0 : Fin 2) = (i 0).val / 4000 := e5
  refine ⟨⟨(i 0).val / 4000, ht⟩, flush0_3 _, ?_⟩
  rw [fcMemBlk0]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e5']; omega
  | ⟨1, _⟩ =>
    show win0_3.index ⟨(i 0).val / 4000, ht⟩ (1 : Fin 2) * 256 ≤ (i 1).val
      ∧ (i 1).val < win0_3.index ⟨(i 0).val / 4000, ht⟩ (1 : Fin 2) * 256 + 256
    rw [e6]; omega

/-! ## The output array after the region -/

/-- After the region's last point the output array is the layer of the activations, weights and bias as the region found
    them. -/
theorem final0 (c : Dev nD) :
    (dat0 (F := Ideal) V c).arrAt 3 cfg0.N = fcIn (V c main_v37) (V c main_v38) (V c main_arg6) :=
  (dat0 (F := Ideal) V c).arrAt_eq_of_cover 3 (fcIn (V c main_v37) (V c main_v38) (V c main_arg6))
    (fun t _ => fcFlushed0 V c t) fcCover0

end Cert.KernelIdeal.Fr

end
-- ==== Proof.FrI.Final1.lean ====
/-
  Region 1 as a whole: after its last grid point the output array is the fully connected layer of the arrays it found.

  The region tiles the 25000 rows of the layer over 5 grid points, 5000 rows to a point; every point reads its block of rows
  of the activations, the whole 256×128 weight matrix and the whole bias of length 128, and writes back its 5000×128 block of
  the output. Here the pieces are put together, at the ideal values (extended reals, every operation exact):

  * the printed index maps, decided once over the grid: the activations' and the output's row-block index at a point is
    the point's number, every other block index is zero (`fcIdx1`);
  * each input block read at coordinates: row `p` of the activations' block at point `n` is row `n * 5000 + p` of the array,
    the weights' and the bias's blocks are their whole arrays (`fcBlk1_0`, `fcBlk1_1`, `fcBlk1_2`) — an element of a
    block sits in its array, on each axis, at the block index times the block's size plus its coordinate in the block;
  * one element of one block: the body's result at a block index is the layer of the whole arrays at the array index
    under it (`fcPoint1`, stated over arbitrary arrays and blocks related by those equations);
  * so what a point writes back is its block of the layer of the whole arrays (`fcFlushed1`);
  * an index is in a point's block iff each coordinate is in the block's range (`fcMemBlk1`), and the index with row `r`
    is in the block of point `r / 5000`, so the blocks cover the array (`fcCover1`);
  * hence the output array after the last point is the layer (`final1`).
-/
import proofs.«180239_j88888643158466_1_alg».proof.Proof.FrI.Region1
import proofs.«180239_j88888643158466_1_alg».proof.Proof.FrI.FcSpec
import proofs.«180239_j88888643158466_1_alg».proof.Proof.FcKernel
import Idealize.ShloMosaic.Lib.Pipeline.Value
import Idealize.ShloMosaic.Lib.ValueIdx

noncomputable section

open scoped BigOperators

namespace Cert.KernelIdeal.Fr

open Cert.KernelIdeal Cert.KernelIdeal.Gen Cert.KernelIdeal.FcKernel
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided over the grid -/

/-- At every grid point: the input block's and the output block's row-block index is the point's number, their column-block
    index is zero, and the weights and the bias are read at block index zero on every axis. -/
theorem fcIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The grid has 5 points. -/
theorem fcN1 : cfg1.N = 5 := N_1

/-! ## The input blocks, read at coordinates -/

/-- The input block at a point whose row-block index is `n`: row `p` of the block is row `n * 5000 + p` of the array. -/
theorem fcBlk1_0 (c : Dev nD) (t : Fin cfg1.N) (n : Nat) (hn : n < 5)
    (h0 : win1_0.index t (0 : Fin 2) = n) (h1 : win1_0.index t (1 : Fin 2) = 0) (p : Fin 5000) (k : Fin 256) :
    iblk1 (F := Ideal) V c 0 t (ix2 p k) = V c main_v83 (ix2 (⟨n * 5000 + p.val, by omega⟩ : Fin 25000) k) := by
  show V c main_v83 (((cfg1.win 0).blk t).view.emb (ix2 p k)) = _
  refine congrArg (V c main_v83) (funext fun a => Fin.ext ?_)
  match a with
  | ⟨0, _⟩ => show win1_0.index t (0 : Fin 2) * 5000 + 1 * p.val = n * 5000 + p.val; omega
  | ⟨1, _⟩ => show win1_0.index t (1 : Fin 2) * 256 + 1 * k.val = k.val; omega

/-- The weights' block is the whole weight array. -/
theorem fcBlk1_1 (c : Dev nD) (t : Fin cfg1.N)
    (h0 : win1_1.index t (0 : Fin 2) = 0) (h1 : win1_1.index t (1 : Fin 2) = 0) (k : Fin 256) (q : Fin 128) :
    iblk1 (F := Ideal) V c 1 t (ix2 k q) = V c main_v84 (ix2 k q) := by
  show V c main_v84 (((cfg1.win 1).blk t).view.emb (ix2 k q)) = _
  refine congrArg (V c main_v84) (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The bias's block is the whole bias array. -/
theorem fcBlk1_2 (c : Dev nD) (t : Fin cfg1.N)
    (h0 : win1_2.index t (0 : Fin 1) = 0) (q : Fin 128) :
    iblk1 (F := Ideal) V c 2 t (ix1 q) = V c main_arg8 (ix1 q) := by
  show V c main_arg8 (((cfg1.win 2).blk t).view.emb (ix1 q)) = _
  refine congrArg (V c main_arg8) (funext fun a => Fin.ext ?_)
  match a with
  | ⟨0, _⟩ => show win1_2.index t (0 : Fin 1) * 128 + 1 * q.val = q.val; omega

/-! ## One element of one block -/

/-- If a block `x` of rows is rows `n * 5000 …` of the array `X`, and `w`, `b` are the whole weights `W` and bias `B`, then the
    body's result at a block index `y` is the layer of the whole arrays at the array index `i` with row `n * 5000 + y₀` and
    column `y₁`. -/
theorem fcPoint1 (X : FVec Ideal S25000x256 .bf16) (W : FVec Ideal S256x128 .bf16) (B : FVec Ideal S128 .f32)
    (x : FVec Ideal S5000x256 .bf16) (w : FVec Ideal S256x128 .bf16) (b : FVec Ideal S128 .f32) (n : Nat) (hn : n < 5)
    (hx : ∀ (p : Fin 5000) (k : Fin 256), x (ix2 p k) = X (ix2 (⟨n * 5000 + p.val, by omega⟩ : Fin 25000) k))
    (hw : ∀ (k : Fin 256) (q : Fin 128), w (ix2 k q) = W (ix2 k q))
    (hb : ∀ q : Fin 128, b (ix1 q) = B (ix1 q))
    (y : S5000x128.Idx) (i : S25000x128.Idx) (hi0 : (i 0).val = n * 5000 + (y 0).val) (hi1 : (i 1).val = (y 1).val) :
    k1_pay1 (F := Ideal) x w b y = fcOut X W B i := by
  have hy0 : (y 0).val < 5000 := (y 0).isLt
  have hy1 : (y 1).val < 128 := (y 1).isLt
  have hy : y = ix2 (⟨(y 0).val, hy0⟩ : Fin 5000) (⟨(y 1).val, hy1⟩ : Fin 128) :=
    funext fun a => Fin.ext (by match a with | ⟨0, _⟩ => rfl | ⟨1, _⟩ => rfl)
  have hi : i = ix2 (⟨n * 5000 + (y 0).val, by omega⟩ : Fin 25000) (⟨(y 1).val, hy1⟩ : Fin 128) :=
    funext fun a => Fin.ext (by match a with | ⟨0, _⟩ => exact hi0 | ⟨1, _⟩ => exact hi1)
  refine (congrArg (k1_pay1 (F := Ideal) x w b) hy).trans ?_
  refine Eq.trans ?_ (congrArg (fcOut X W B) hi.symm)
  rw [pay1_apply, fcOut_apply, hb]
  refine congrArg (· + B (ix1 (⟨(y 1).val, hy1⟩ : Fin 128))) (Finset.sum_congr rfl fun k _ => ?_)
  rw [hx, hw]

/-! ## What a grid point writes back -/

/-- What point `t` writes back to the output array is block `t` of the layer of the whole arrays as the region finds them. -/
theorem fcFlushed1 (c : Dev nD) (t : Fin cfg1.N) :
    (dat1 (F := Ideal) V c).flushed 3 t
      = ((cfg1.win 3).blk t).view.read (Elt Ideal) (fcOut (V c main_v83) (V c main_v84) (V c main_arg8)) := by
  show (cfg1.win 3).cut (grid1.coords t) ((dat1 V c).after 3 t) = _
  rw [after1_3]
  unfold out1_3
  rw [View.canon_unit_zero fcZero2]
  simp only [View.ld_unit_zero (S := S5000x256) fcZero2, View.ld_unit_zero (S := S256x128) fcZero2, View.ld_unit_zero (S := S128) fcZero1]
  obtain ⟨e0, e1, e2, e3, e4, e5, e6⟩ := fcIdx1 t
  have ht : t.val < 5 := lt_of_lt_of_eq t.isLt fcN1
  funext j
  exact fcPoint1 (V c main_v83) (V c main_v84) (V c main_arg8) (iblk1 V c 0 t) (iblk1 V c 1 t) (iblk1 V c 2 t) t.val ht
    (fun p k => fcBlk1_0 V c t t.val ht e0 e1 p k)
    (fun k q => fcBlk1_1 V c t e2 e3 k q)
    (fun q => fcBlk1_2 V c t e4 q)
    ((cfg1.win 3).xinj (grid1.coords t) j) (((cfg1.win 3).blk t).view.emb j)
    (by show win1_3.index t (0 : Fin 2) * 5000 + 1 * (j 0).val = t.val * 5000 + (j 0).val; omega)
    (by show win1_3.index t (1 : Fin 2) * 128 + 1 * (j 1).val = (j 1).val; omega)

/-! ## The blocks tile the output array -/

/-- An index of the output array is in point `t`'s block iff each coordinate is in the block's range on its axis. -/
theorem fcMemBlk1 (t : Fin cfg1.N) (i : S25000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v85).slice (win1_3.rect t)).set ↔ _
  rw [View.set_slice_whole, Rect.mem_set_unit]
  exact Iff.rfl

/-- Every index of the output array is in the block of the point numbered by its row divided by 5000. -/
theorem fcCover1 (i : S25000x128.Idx) :
    ∃ t : Fin cfg1.N, (cfg1.win 3).flush t = true ∧ i ∈ ((cfg1.win 3).blk t).view.set := by
  have hi0 : (i 0).val < 25000 := (i 0).isLt
  have hi1 : (i 1).val < 128 := (i 1).isLt
  have ht : (i 0).val / 5000 < cfg1.N := by rw [fcN1]; omega
  obtain ⟨-, -, -, -, -, e5, e6⟩ := fcIdx1 ⟨(i 0).val / 5000, ht⟩
  have e5' : win1_3.index ⟨(i 0).val / 5000, ht⟩ (0 : Fin 2) = (i 0).val / 5000 := e5
  refine ⟨⟨(i 0).val / 5000, ht⟩, flush1_3 _, ?_⟩
  rw [fcMemBlk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e5']; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e6]; omega

/-! ## The output array after the region -/

/-- After the region's last point the output array is the layer of the activations, weights and bias as the region found
    them. -/
theorem final1 (c : Dev nD) :
    (dat1 (F := Ideal) V c).arrAt 3 cfg1.N = fcOut (V c main_v83) (V c main_v84) (V c main_arg8) :=
  (dat1 (F := Ideal) V c).arrAt_eq_of_cover 3 (fcOut (V c main_v83) (V c main_v84) (V c main_arg8))
    (fun t _ => fcFlushed1 V c t) fcCover1

end Cert.KernelIdeal.Fr

end
-- ==== Proof.FcRef.lean ====
/-
  The fully connected layer of the whole-array program, read at one element.

  The layer is one matrix product of the whole input with the weights, plus the bias: the bias is first placed on the
  columns of a single row, then that row is repeated down every row, and the two arrays are added. At the ideal values
  (extended reals, every operation exact) its element at row `r` and column `q` is the sum over the contracted axis of row
  `r` of the input times column `q` of the weights, plus the bias at `q`. Two layers occur: 400000×128 by 128×256 with a
  bias of length 256 (`fc_in_apply`) and 25000×256 by 256×128 with a bias of length 128 (`fc_out_apply`). Each statement
  names its indices by coordinates, so the sum runs over `k : Fin 128` or `k : Fin 256`.

  The steps, per layer: the operand indices of the product at an output index and a contraction coordinate (`lhs…`,
  `rhs…`); the re-indexing of the contraction's sum through its one coordinate (`dot…_sum`); the two-step repetition of
  the bias (`bias…_apply`); the whole layer.
-/
import proofs.«180239_j88888643158466_1_alg».proof.Proof.Gen.ReferenceIdeal
import Idealize.ShloMosaic.Lib.ValueIdx
import Idealize.ShloMosaic.Lib.Pipeline.Value
import Idealize.ShloMosaic.PureOps.Ideal.Laws

noncomputable section

open scoped BigOperators

namespace Cert.ReferenceIdeal.FcRef

open Cert.ReferenceIdeal Cert.ReferenceIdeal.Gen Idealize.ShloMosaic Idealize.ShloMosaic.ValueIdx

/-! ## The 400000×128 by 128×256 layer -/

/-- On the rows axis the left operand's index is the output row. -/
theorem lhsIn_0 (i : S400000x256.Idx) (k : dot_S400000x128_S128x256_S400000x256_1_0_0_1_n_n.contr.Idx) :
    (dot_S400000x128_S128x256_S400000x256_1_0_0_1_n_n.lhsIdx i k 0).val = (i 0).val := by
  unfold DotDims.lhsIdx
  rw [dif_neg (show ¬(0 : Fin S400000x128.rank) ∈ dot_S400000x128_S128x256_S400000x256_1_0_0_1_n_n.lhsBatch by decide),
    dif_pos (show (0 : Fin S400000x128.rank) ∈ dot_S400000x128_S128x256_S400000x256_1_0_0_1_n_n.lhsNonContracting by decide)]
  rfl
/-- On its contracted axis the left operand's index is the contraction coordinate. -/
theorem lhsIn_1 (i : S400000x256.Idx) (k : dot_S400000x128_S128x256_S400000x256_1_0_0_1_n_n.contr.Idx) :
    (dot_S400000x128_S128x256_S400000x256_1_0_0_1_n_n.lhsIdx i k 1).val = (k ⟨0, by decide⟩).val :=
  dot_S400000x128_S128x256_S400000x256_1_0_0_1_n_n.lhsIdx_val_of_single rfl i k
/-- On its contracted axis the right operand's index is the contraction coordinate. -/
theorem rhsIn_0 (i : S400000x256.Idx) (k : dot_S400000x128_S128x256_S400000x256_1_0_0_1_n_n.contr.Idx) :
    (dot_S400000x128_S128x256_S400000x256_1_0_0_1_n_n.rhsIdx i k 0).val = (k ⟨0, by decide⟩).val :=
  dot_S400000x128_S128x256_S400000x256_1_0_0_1_n_n.rhsIdx_val_of_single rfl i k
/-- On the columns axis the right operand's index is the output column. -/
theorem rhsIn_1 (i : S400000x256.Idx) (k : dot_S400000x128_S128x256_S400000x256_1_0_0_1_n_n.contr.Idx) :
    (dot_S400000x128_S128x256_S400000x256_1_0_0_1_n_n.rhsIdx i k 1).val = (i 1).val := by
  unfold DotDims.rhsIdx
  rw [dif_neg (show ¬(1 : Fin S128x256.rank) ∈ dot_S400000x128_S128x256_S400000x256_1_0_0_1_n_n.rhsBatch by decide),
    dif_pos (show (1 : Fin S128x256.rank) ∈ dot_S400000x128_S128x256_S400000x256_1_0_0_1_n_n.rhsNonContracting by decide)]
  rfl

/-- The contraction's sum over its one-axis index set is the sum over `k < 128` of row `r` of the left operand
    times column `q` of the right operand. -/
theorem dotIn_sum (X : FVec Ideal S400000x128 .f32) (W : FVec Ideal S128x256 .f32) (r : Fin 400000) (q : Fin 256) :
    (∑ k : dot_S400000x128_S128x256_S400000x256_1_0_0_1_n_n.contr.Idx,
        X (dot_S400000x128_S128x256_S400000x256_1_0_0_1_n_n.lhsIdx (ix2 r q) k) * W (dot_S400000x128_S128x256_S400000x256_1_0_0_1_n_n.rhsIdx (ix2 r q) k))
      = ∑ k : Fin 128, X (ix2 r k) * W (ix2 k q) := by
  rw [← Equiv.sum_comp (contrEquiv1 dot_S400000x128_S128x256_S400000x256_1_0_0_1_n_n 128 rfl rfl).symm]
  refine Finset.sum_congr rfl fun k _ => ?_
  have hk := contrEquiv1_symm_val dot_S400000x128_S128x256_S400000x256_1_0_0_1_n_n 128 rfl rfl k
  have el : dot_S400000x128_S128x256_S400000x256_1_0_0_1_n_n.lhsIdx (ix2 r q) ((contrEquiv1 dot_S400000x128_S128x256_S400000x256_1_0_0_1_n_n 128 rfl rfl).symm k) = ix2 r k :=
    funext fun a => Fin.ext (by
      match a with
      | ⟨0, _⟩ => exact lhsIn_0 _ _
      | ⟨1, _⟩ => exact (lhsIn_1 _ _).trans hk)
  have er : dot_S400000x128_S128x256_S400000x256_1_0_0_1_n_n.rhsIdx (ix2 r q) ((contrEquiv1 dot_S400000x128_S128x256_S400000x256_1_0_0_1_n_n 128 rfl rfl).symm k) = ix2 k q :=
    funext fun a => Fin.ext (by
      match a with
      | ⟨0, _⟩ => exact (rhsIn_0 _ _).trans hk
      | ⟨1, _⟩ => exact rhsIn_1 _ _)
  rw [el, er]

/-- The bias, placed on the columns of a single row and that row repeated down the rows, reads the bias at the column. -/
theorem biasIn_apply (B : FVec Ideal S256 .f32) (r : Fin 400000) (q : Fin 256) :
    broadcastInDim S400000x256 ![0, 1] bcast_S1x256_S400000x256_0_1 (broadcastInDim S1x256 ![1] bcast_S256_S1x256_1 B) (ix2 r q) = B (ix1 q) := by
  refine (broadcastInDim_apply _ bcast_S1x256_S400000x256_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (256 : Nat) = 1 then 0 else q.val; rw [if_neg (by decide)]
  · exact broadcastInDim_apply _ bcast_S256_S1x256_1 B (ix2 (0 : Fin 1) q) (ix1 q) (fun a => match a with
      | ⟨0, _⟩ => by show q.val = if (256 : Nat) = 1 then 0 else q.val; rw [if_neg (by decide)])

/-- Element (r, q) of the layer: row `r` of the input times column `q` of the weights, plus the bias at `q`. -/
theorem fc_in_apply (X : FVec Ideal S400000x128 .f32) (W : FVec Ideal S128x256 .f32) (B : FVec Ideal S256 .f32)
    (r : Fin 400000) (q : Fin 256) :
    addf (Host.dotGeneral (F := Ideal) dot_S400000x128_S128x256_S400000x256_1_0_0_1_n_n none X W)
        (broadcastInDim S400000x256 ![0, 1] bcast_S1x256_S400000x256_0_1 (broadcastInDim S1x256 ![1] bcast_S256_S1x256_1 B)) (ix2 r q)
      = (∑ k : Fin 128, X (ix2 r k) * W (ix2 k q)) + B (ix1 q) := by
  refine (addf_apply _ _ _).trans ?_
  rw [biasIn_apply]
  refine congrArg (· + B (ix1 q)) ?_
  exact (Ideal.dotGeneral_apply dot_S400000x128_S128x256_S400000x256_1_0_0_1_n_n none .single X W (ix2 r q)).trans (dotIn_sum X W r q)

/-! ## The 25000×256 by 256×128 layer -/

/-- On the rows axis the left operand's index is the output row. -/
theorem lhsOut_0 (i : S25000x128.Idx) (k : dot_S25000x256_S256x128_S25000x128_1_0_0_1_n_n.contr.Idx) :
    (dot_S25000x256_S256x128_S25000x128_1_0_0_1_n_n.lhsIdx i k 0).val = (i 0).val := by
  unfold DotDims.lhsIdx
  rw [dif_neg (show ¬(0 : Fin S25000x256.rank) ∈ dot_S25000x256_S256x128_S25000x128_1_0_0_1_n_n.lhsBatch by decide),
    dif_pos (show (0 : Fin S25000x256.rank) ∈ dot_S25000x256_S256x128_S25000x128_1_0_0_1_n_n.lhsNonContracting by decide)]
  rfl
/-- On its contracted axis the left operand's index is the contraction coordinate. -/
theorem lhsOut_1 (i : S25000x128.Idx) (k : dot_S25000x256_S256x128_S25000x128_1_0_0_1_n_n.contr.Idx) :
    (dot_S25000x256_S256x128_S25000x128_1_0_0_1_n_n.lhsIdx i k 1).val = (k ⟨0, by decide⟩).val :=
  dot_S25000x256_S256x128_S25000x128_1_0_0_1_n_n.lhsIdx_val_of_single rfl i k
/-- On its contracted axis the right operand's index is the contraction coordinate. -/
theorem rhsOut_0 (i : S25000x128.Idx) (k : dot_S25000x256_S256x128_S25000x128_1_0_0_1_n_n.contr.Idx) :
    (dot_S25000x256_S256x128_S25000x128_1_0_0_1_n_n.rhsIdx i k 0).val = (k ⟨0, by decide⟩).val :=
  dot_S25000x256_S256x128_S25000x128_1_0_0_1_n_n.rhsIdx_val_of_single rfl i k
/-- On the columns axis the right operand's index is the output column. -/
theorem rhsOut_1 (i : S25000x128.Idx) (k : dot_S25000x256_S256x128_S25000x128_1_0_0_1_n_n.contr.Idx) :
    (dot_S25000x256_S256x128_S25000x128_1_0_0_1_n_n.rhsIdx i k 1).val = (i 1).val := by
  unfold DotDims.rhsIdx
  rw [dif_neg (show ¬(1 : Fin S256x128.rank) ∈ dot_S25000x256_S256x128_S25000x128_1_0_0_1_n_n.rhsBatch by decide),
    dif_pos (show (1 : Fin S256x128.rank) ∈ dot_S25000x256_S256x128_S25000x128_1_0_0_1_n_n.rhsNonContracting by decide)]
  rfl

/-- The contraction's sum over its one-axis index set is the sum over `k < 256` of row `r` of the left operand
    times column `q` of the right operand. -/
theorem dotOut_sum (X : FVec Ideal S25000x256 .f32) (W : FVec Ideal S256x128 .f32) (r : Fin 25000) (q : Fin 128) :
    (∑ k : dot_S25000x256_S256x128_S25000x128_1_0_0_1_n_n.contr.Idx,
        X (dot_S25000x256_S256x128_S25000x128_1_0_0_1_n_n.lhsIdx (ix2 r q) k) * W (dot_S25000x256_S256x128_S25000x128_1_0_0_1_n_n.rhsIdx (ix2 r q) k))
      = ∑ k : Fin 256, X (ix2 r k) * W (ix2 k q) := by
  rw [← Equiv.sum_comp (contrEquiv1 dot_S25000x256_S256x128_S25000x128_1_0_0_1_n_n 256 rfl rfl).symm]
  refine Finset.sum_congr rfl fun k _ => ?_
  have hk := contrEquiv1_symm_val dot_S25000x256_S256x128_S25000x128_1_0_0_1_n_n 256 rfl rfl k
  have el : dot_S25000x256_S256x128_S25000x128_1_0_0_1_n_n.lhsIdx (ix2 r q) ((contrEquiv1 dot_S25000x256_S256x128_S25000x128_1_0_0_1_n_n 256 rfl rfl).symm k) = ix2 r k :=
    funext fun a => Fin.ext (by
      match a with
      | ⟨0, _⟩ => exact lhsOut_0 _ _
      | ⟨1, _⟩ => exact (lhsOut_1 _ _).trans hk)
  have er : dot_S25000x256_S256x128_S25000x128_1_0_0_1_n_n.rhsIdx (ix2 r q) ((contrEquiv1 dot_S25000x256_S256x128_S25000x128_1_0_0_1_n_n 256 rfl rfl).symm k) = ix2 k q :=
    funext fun a => Fin.ext (by
      match a with
      | ⟨0, _⟩ => exact (rhsOut_0 _ _).trans hk
      | ⟨1, _⟩ => exact rhsOut_1 _ _)
  rw [el, er]

/-- The bias, placed on the columns of a single row and that row repeated down the rows, reads the bias at the column. -/
theorem biasOut_apply (B : FVec Ideal S128 .f32) (r : Fin 25000) (q : Fin 128) :
    broadcastInDim S25000x128 ![0, 1] bcast_S1x128_S25000x128_0_1 (broadcastInDim S1x128 ![1] bcast_S128_S1x128_1 B) (ix2 r q) = B (ix1 q) := by
  refine (broadcastInDim_apply _ bcast_S1x128_S25000x128_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (128 : Nat) = 1 then 0 else q.val; rw [if_neg (by decide)]
  · exact broadcastInDim_apply _ bcast_S128_S1x128_1 B (ix2 (0 : Fin 1) q) (ix1 q) (fun a => match a with
      | ⟨0, _⟩ => by show q.val = if (128 : Nat) = 1 then 0 else q.val; rw [if_neg (by decide)])

/-- Element (r, q) of the layer: row `r` of the input times column `q` of the weights, plus the bias at `q`. -/
theorem fc_out_apply (X : FVec Ideal S25000x256 .f32) (W : FVec Ideal S256x128 .f32) (B : FVec Ideal S128 .f32)
    (r : Fin 25000) (q : Fin 128) :
    addf (Host.dotGeneral (F := Ideal) dot_S25000x256_S256x128_S25000x128_1_0_0_1_n_n none X W)
        (broadcastInDim S25000x128 ![0, 1] bcast_S1x128_S25000x128_0_1 (broadcastInDim S1x128 ![1] bcast_S128_S1x128_1 B)) (ix2 r q)
      = (∑ k : Fin 256, X (ix2 r k) * W (ix2 k q)) + B (ix1 q) := by
  refine (addf_apply _ _ _).trans ?_
  rw [biasOut_apply]
  refine congrArg (· + B (ix1 q)) ?_
  exact (Ideal.dotGeneral_apply dot_S25000x256_S256x128_S25000x128_1_0_0_1_n_n none .single X W (ix2 r q)).trans (dotOut_sum X W r q)

end Cert.ReferenceIdeal.FcRef

end
-- ==== Proof.Br.Branch0.lean ====
import proofs.«180239_j88888643158466_1_alg».proof.Proof.FrI.Run
import proofs.«180239_j88888643158466_1_alg».proof.Proof.FrI.Final0
import proofs.«180239_j88888643158466_1_alg».proof.Proof.FrI.Final1
import proofs.«180239_j88888643158466_1_alg».proof.Proof.FcRef
import proofs.«180239_j88888643158466_1_alg».proof.Proof.Gen.ReferenceIdeal.Read

/-
  The first branch of the kernel program against the reference, stage by stage, at exact arithmetic.
  Each lemma says that one buffer of the kernel program, at one boundary between segments, holds the reference's value of the
  corresponding stage as a function of the launch arguments: the concatenated embedding rows; the first fully connected layer
  (a sum over the 128 features, plus the bias — the kernel's row-tiled product on operands whose change of format is the
  identity, the reference's one whole product); neighbour averaging plus residual, the positive part, a second round of
  averaging; and the second fully connected layer (a sum over 256 features plus the bias).
-/
set_option maxRecDepth 16384

noncomputable section

namespace Cert.KernelIdeal.Br

open Cert.KernelIdeal Cert.KernelIdeal.Gen Cert.KernelIdeal.Fr
open Idealize.ShloMosaic Idealize.ShloMosaic.TcCoe Idealize.ShloMosaic.ValueIdx
open Idealize.SL Idealize.SL.Sem
open Cert.ReferenceIdeal.Read (val_main_v0 val_main_v1 val_main_c val_main_v2 val_main_v3 val_main_c_0 val_main_v4 val_main_v5 val_main_v6 val_main_v7 val_main_v8 val_main_v9 val_main_v10 val_main_c_1 val_main_v11 val_main_v12 val_main_c_2 val_main_v13 val_main_v14 val_main_v15 val_main_v16 val_main_v17 val_main_v18 val_main_v19 val_main_c_3 val_main_v20 val_main_v21 val_main_c_4 val_main_v22 val_main_v23 val_main_v24 val_main_v25 val_main_v26 val_main_v27 val_main_v28 val_main_c_5 val_main_v29 val_main_v30 val_main_c_6 val_main_v31 val_main_v32 val_main_v33 val_main_v34 val_main_v35 val_main_v36 val_main_v37 val_main_v38 val_main_v39 val_main_v40 val_main_c_7 val_main_v41 val_main_v42 val_main_c_8 val_main_v43 val_main_v44 val_main_v45 val_main_v46 val_main_v47 val_main_cst val_main_v48 val_main_v49 val_main_v50 val_main_cst_9 val_main_v51 val_main_cst_10 val_main_v52 val_main_v53 val_main_v54 val_main_cst_11 val_main_v55 val_main_v56 val_main_v57 val_main_v58 val_main_v59 val_main_v60 val_main_v61 val_main_call0_cst val_main_call0_v0 val_main_v62 val_main_c_12 val_main_v63 val_main_v64 val_main_c_13 val_main_v65 val_main_v66 val_main_v67 val_main_v68 val_main_v69 val_main_cst_14 val_main_v70 val_main_v71 val_main_v72 val_main_cst_15 val_main_v73 val_main_cst_16 val_main_v74 val_main_v75 val_main_v76 val_main_cst_17 val_main_v77 val_main_v78 val_main_v79 val_main_v80 val_main_v81 val_main_v82 val_main_v83 val_main_v84 val_main_v85 val_main_v86 val_main_v87 val_main_v88 val_main_v89 val_main_v90 val_main_v91 val_main_c_18 val_main_v92 val_main_v93 val_main_c_19 val_main_v94 val_main_v95 val_main_v96 val_main_v97 val_main_v98 val_main_cst_20 val_main_v99 val_main_v100 val_main_v101 val_main_cst_21 val_main_v102 val_main_cst_22 val_main_v103 val_main_v104 val_main_v105 val_main_cst_23 val_main_v106 val_main_v107 val_main_v108 val_main_v109 val_main_v110 val_main_v111 val_main_v112 val_main_call1_cst val_main_call1_v0 val_main_v113 val_main_c_24 val_main_v114 val_main_v115 val_main_c_25 val_main_v116 val_main_v117 val_main_v118 val_main_v119 val_main_v120 val_main_cst_26 val_main_v121 val_main_v122 val_main_v123 val_main_cst_27 val_main_v124 val_main_cst_28 val_main_v125 val_main_v126 val_main_v127 val_main_cst_29 val_main_v128 val_main_v129 val_main_v130 val_main_v131 val_main_v132 val_main_v133 val_main_v134 val_main_v135 val_main_v136 val_main_v137 val_main_v138)

variable (m : (ℓ : Loc nD τ sig) → Buf (Elt Ideal) ℓ) (outs : Outs (F := Ideal))

/-! ## The features -/

set_option backward.isDefEq.respectTransparency.types false in
/-- After the first host stretch the feature buffer holds the reference's concatenation of the four gathered embedding rows. -/
theorem feat_eq (c : Dev nD) :
    (V1 m c main_v36 : S400000x128.Idx → EReal) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show (StableHlo.after hostOps0 (V0 m c) (Proc.devRef .tc main_v36) : S400000x128.Idx → EReal) = _
  after_results_simp
  rfl

set_option backward.isDefEq.respectTransparency.types false in
/-- Its copy in the narrower float format holds the same values: the change of format is the identity on extended reals. -/
theorem featb_eq (c : Dev nD) :
    (V1 m c main_v37 : S400000x128.Idx → EReal) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show (StableHlo.after hostOps0 (V0 m c) (Proc.devRef .tc main_v37) : S400000x128.Idx → EReal) = _
  after_results_simp
  rfl

set_option backward.isDefEq.respectTransparency.types false in
/-- The first weight matrix in the narrower format holds the argument's values. -/
theorem w0b_eq (c : Dev nD) :
    (V1 m c main_v38 : S128x256.Idx → EReal) = m ((c : Thread nD τ).loc main_arg5) := by
  show (StableHlo.after hostOps0 (V0 m c) (Proc.devRef .tc main_v38) : S128x256.Idx → EReal) = _
  after_results_simp
  rfl

/-! ## The first layer -/

set_option backward.isDefEq.respectTransparency.types false in
/-- The first region's output array is the reference's first layer: at row `r`, column `q`, the sum over the 128 features of feature times weight, plus the bias at `q`. -/
theorem fc0_eq (h : OutsOk m outs) (c : Dev nD) :
    (V2 m outs c main_v39 : S400000x256.Idx → EReal) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e1 : (V2 m outs c main_v39 : S400000x256.Idx → EReal) = fcIn (T1 m c main_v37) (T1 m c main_v38) (T1 m c main_arg6) :=
    (Function.update_self (f := V1 m c) (Proc.devRef .tc main_v39) (outs 2 main_v39 c)).trans ((h.h2 c).trans (final0 (T1 m) c))
  have e2 : fcIn (V1 m c main_v37) (V1 m c main_v38) (V1 m c main_arg6)
      = fcIn (val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
    rw [featb_eq m c, w0b_eq m c,
      show (V1 m c main_arg6 : S256.Idx → EReal) = m ((c : Thread nD τ).loc main_arg6) from (V1_of m c main_arg6 (by decide)).trans rfl]
  refine e1.trans (e2.trans ?_)
  funext i
  obtain ⟨r, q, rfl⟩ : ∃ (r : Fin 400000) (q : Fin 256), i = ix2 r q := ⟨i 0, i 1, eq_ix2 i⟩
  rw [fcIn_apply]
  exact (Cert.ReferenceIdeal.FcRef.fc_in_apply _ _ _ r q).symm

/-! ## Averaging over neighbours, the residual, the positive part, and averaging again -/

set_option backward.isDefEq.respectTransparency.types false in
/-- After the first round of neighbour averaging plus residual, the positive part, and the second round of averaging plus
    residual (and the identity change of format), the buffer holds the reference's value: the same operations applied to the
    first layer's output and the same edge lists. -/
theorem sage1_eq (h : OutsOk m outs) (c : Dev nD) :
    (V5 m outs c main_v83 : S25000x256.Idx → EReal) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) := by
  show (StableHlo.after hostOps1_2 (StableHlo.after hostOps1_1 (StableHlo.after hostOps1 (V2 m outs c))) (Proc.devRef .tc main_v83) : S25000x256.Idx → EReal) = _
  after_results_simp
  rw [show (V2 m outs c (Proc.devRef .tc main_v39) : S400000x256.Idx → EReal) = _ from fc0_eq m outs h c,
    show V2 m outs c (Proc.devRef .tc main_arg13) = m ((c : Thread nD τ).loc main_arg13) from (V2_of m outs c main_arg13 (by decide)).trans <| (V1_of m c main_arg13 (by decide)).trans rfl,
    show V2 m outs c (Proc.devRef .tc main_arg14) = m ((c : Thread nD τ).loc main_arg14) from (V2_of m outs c main_arg14 (by decide)).trans <| (V1_of m c main_arg14 (by decide)).trans rfl,
    show V2 m outs c (Proc.devRef .tc main_arg15) = m ((c : Thread nD τ).loc main_arg15) from (V2_of m outs c main_arg15 (by decide)).trans <| (V1_of m c main_arg15 (by decide)).trans rfl,
    show V2 m outs c (Proc.devRef .tc main_arg16) = m ((c : Thread nD τ).loc main_arg16) from (V2_of m outs c main_arg16 (by decide)).trans <| (V1_of m c main_arg16 (by decide)).trans rfl]
  rfl

set_option backward.isDefEq.respectTransparency.types false in
/-- The second weight matrix in the narrower format holds the argument's values. -/
theorem w1b_eq (c : Dev nD) :
    (V5 m outs c main_v84 : S256x128.Idx → EReal) = m ((c : Thread nD τ).loc main_arg7) := by
  show (StableHlo.after hostOps1_2 (StableHlo.after hostOps1_1 (StableHlo.after hostOps1 (V2 m outs c))) (Proc.devRef .tc main_v84) : S256x128.Idx → EReal) = _
  after_results_simp
  rw [show V2 m outs c (Proc.devRef .tc main_arg7) = m ((c : Thread nD τ).loc main_arg7) from (V2_of m outs c main_arg7 (by decide)).trans <| (V1_of m c main_arg7 (by decide)).trans rfl]
  rfl

/-! ## The second layer, and the first result -/

set_option backward.isDefEq.respectTransparency.types false in
/-- The second region's output array is the reference's first result: at row `r`, column `q`, the sum over the 256 hidden features of feature times weight, plus the bias at `q`. -/
theorem out0_eq (h : OutsOk m outs) (c : Dev nD) :
    (V6 m outs c main_v85 : S25000x128.Idx → EReal) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  have e1 : (V6 m outs c main_v85 : S25000x128.Idx → EReal) = fcOut (T5 m outs c main_v83) (T5 m outs c main_v84) (T5 m outs c main_arg8) :=
    (Function.update_self (f := V5 m outs c) (Proc.devRef .tc main_v85) (outs 6 main_v85 c)).trans ((h.h6 c).trans (final1 (T5 m outs) c))
  have e2 : fcOut (V5 m outs c main_v83) (V5 m outs c main_v84) (V5 m outs c main_arg8)
      = fcOut (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16))) (m ((c : Thread nD τ).loc main_arg7)) (m ((c : Thread nD τ).loc main_arg8)) := by
    rw [sage1_eq m outs h c, w1b_eq m outs c,
      show (V5 m outs c main_arg8 : S128.Idx → EReal) = m ((c : Thread nD τ).loc main_arg8) from (V5_of m outs c main_arg8 (by decide)).trans <| (V4_of m outs c main_arg8 (by decide)).trans <| (V3_of m outs c main_arg8 (by decide)).trans <| (V2_of m outs c main_arg8 (by decide)).trans <| (V1_of m c main_arg8 (by decide)).trans rfl]
  refine e1.trans (e2.trans ?_)
  funext i
  obtain ⟨r, q, rfl⟩ : ∃ (r : Fin 25000) (q : Fin 128), i = ix2 r q := ⟨i 0, i 1, eq_ix2 i⟩
  rw [fcOut_apply]
  exact (Cert.ReferenceIdeal.FcRef.fc_out_apply _ _ _ r q).symm

set_option backward.isDefEq.respectTransparency.types false in
/-- Nothing after the second region writes the first result's buffer: at the end it still holds the reference's first result. -/
theorem res0_eq (h : OutsOk m outs) (c : Dev nD) :
    (V12 m outs c main_v85 : S25000x128.Idx → EReal) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) :=
  (V12_of m outs c main_v85 (by decide)).trans <| (V11_of m outs c main_v85 (by decide)).trans <| (V10_of m outs c main_v85 (by decide)).trans <| (V9_of m outs c main_v85 (by decide)).trans <| (V8_of m outs c main_v85 (by decide)).trans <| (V7_of m outs c main_v85 (by decide)).trans <| out0_eq m outs h c

end Cert.KernelIdeal.Br

end
-- ==== Proof.FrI.Final2.lean ====
/-
  Region 2 as a whole: after its last grid point the output array is the fully connected layer of the arrays it found.

  The region tiles the 400000 rows of the layer over 100 grid points, 4000 rows to a point; every point reads its block of rows
  of the activations, the whole 128×256 weight matrix and the whole bias of length 256, and writes back its 4000×256 block of
  the output. Here the pieces are put together, at the ideal values (extended reals, every operation exact):

  * the printed index maps, decided once over the grid: the activations' and the output's row-block index at a point is
    the point's number, every other block index is zero (`fcIdx2`);
  * each input block read at coordinates: row `p` of the activations' block at point `n` is row `n * 4000 + p` of the array,
    the weights' and the bias's blocks are their whole arrays (`fcBlk2_0`, `fcBlk2_1`, `fcBlk2_2`) — an element of a
    block sits in its array, on each axis, at the block index times the block's size plus its coordinate in the block;
  * one element of one block: the body's result at a block index is the layer of the whole arrays at the array index
    under it (`fcPoint2`, stated over arbitrary arrays and blocks related by those equations);
  * so what a point writes back is its block of the layer of the whole arrays (`fcFlushed2`);
  * an index is in a point's block iff each coordinate is in the block's range (`fcMemBlk2`), and the index with row `r`
    is in the block of point `r / 4000`, so the blocks cover the array (`fcCover2`);
  * hence the output array after the last point is the layer (`final2`).
-/
import proofs.«180239_j88888643158466_1_alg».proof.Proof.FrI.Region2
import proofs.«180239_j88888643158466_1_alg».proof.Proof.FrI.FcSpec
import proofs.«180239_j88888643158466_1_alg».proof.Proof.FcKernel
import Idealize.ShloMosaic.Lib.Pipeline.Value
import Idealize.ShloMosaic.Lib.ValueIdx

noncomputable section

open scoped BigOperators

namespace Cert.KernelIdeal.Fr

open Cert.KernelIdeal Cert.KernelIdeal.Gen Cert.KernelIdeal.FcKernel
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided over the grid -/

/-- At every grid point: the input block's and the output block's row-block index is the point's number, their column-block
    index is zero, and the weights and the bias are read at block index zero on every axis. -/
theorem fcIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The grid has 100 points. -/
theorem fcN2 : cfg2.N = 100 := N_2

/-! ## The input blocks, read at coordinates -/

/-- The input block at a point whose row-block index is `n`: row `p` of the block is row `n * 4000 + p` of the array. -/
theorem fcBlk2_0 (c : Dev nD) (t : Fin cfg2.N) (n : Nat) (hn : n < 100)
    (h0 : win2_0.index t (0 : Fin 2) = n) (h1 : win2_0.index t (1 : Fin 2) = 0) (p : Fin 4000) (k : Fin 128) :
    iblk2 (F := Ideal) V c 0 t (ix2 p k) = V c main_v86 (ix2 (⟨n * 4000 + p.val, by omega⟩ : Fin 400000) k) := by
  show V c main_v86 (((cfg2.win 0).blk t).view.emb (ix2 p k)) = _
  refine congrArg (V c main_v86) (funext fun a => Fin.ext ?_)
  match a with
  | ⟨0, _⟩ => show win2_0.index t (0 : Fin 2) * 4000 + 1 * p.val = n * 4000 + p.val; omega
  | ⟨1, _⟩ => show win2_0.index t (1 : Fin 2) * 128 + 1 * k.val = k.val; omega

/-- The weights' block is the whole weight array. -/
theorem fcBlk2_1 (c : Dev nD) (t : Fin cfg2.N)
    (h0 : win2_1.index t (0 : Fin 2) = 0) (h1 : win2_1.index t (1 : Fin 2) = 0) (k : Fin 128) (q : Fin 256) :
    iblk2 (F := Ideal) V c 1 t (ix2 k q) = V c main_v87 (ix2 k q) := by
  show V c main_v87 (((cfg2.win 1).blk t).view.emb (ix2 k q)) = _
  refine congrArg (V c main_v87) (funext fun a => Fin.ext ?_)
  match a with
  | ⟨0, _⟩ => show win2_1.index t (0 : Fin 2) * 128 + 1 * k.val = k.val; omega
  | ⟨1, _⟩ => show win2_1.index t (1 : Fin 2) * 256 + 1 * q.val = q.val; omega

/-- The bias's block is the whole bias array. -/
theorem fcBlk2_2 (c : Dev nD) (t : Fin cfg2.N)
    (h0 : win2_2.index t (0 : Fin 1) = 0) (q : Fin 256) :
    iblk2 (F := Ideal) V c 2 t (ix1 q) = V c main_arg10 (ix1 q) := by
  show V c main_arg10 (((cfg2.win 2).blk t).view.emb (ix1 q)) = _
  refine congrArg (V c main_arg10) (funext fun a => Fin.ext ?_)
  match a with
  | ⟨0, _⟩ => show win2_2.index t (0 : Fin 1) * 256 + 1 * q.val = q.val; omega

/-! ## One element of one block -/

/-- If a block `x` of rows is rows `n * 4000 …` of the array `X`, and `w`, `b` are the whole weights `W` and bias `B`, then the
    body's result at a block index `y` is the layer of the whole arrays at the array index `i` with row `n * 4000 + y₀` and
    column `y₁`. -/
theorem fcPoint2 (X : FVec Ideal S400000x128 .bf16) (W : FVec Ideal S128x256 .bf16) (B : FVec Ideal S256 .f32)
    (x : FVec Ideal S4000x128 .bf16) (w : FVec Ideal S128x256 .bf16) (b : FVec Ideal S256 .f32) (n : Nat) (hn : n < 100)
    (hx : ∀ (p : Fin 4000) (k : Fin 128), x (ix2 p k) = X (ix2 (⟨n * 4000 + p.val, by omega⟩ : Fin 400000) k))
    (hw : ∀ (k : Fin 128) (q : Fin 256), w (ix2 k q) = W (ix2 k q))
    (hb : ∀ q : Fin 256, b (ix1 q) = B (ix1 q))
    (y : S4000x256.Idx) (i : S400000x256.Idx) (hi0 : (i 0).val = n * 4000 + (y 0).val) (hi1 : (i 1).val = (y 1).val) :
    k2_pay1 (F := Ideal) x w b y = fcIn X W B i := by
  have hy0 : (y 0).val < 4000 := (y 0).isLt
  have hy1 : (y 1).val < 256 := (y 1).isLt
  have hy : y = ix2 (⟨(y 0).val, hy0⟩ : Fin 4000) (⟨(y 1).val, hy1⟩ : Fin 256) :=
    funext fun a => Fin.ext (by match a with | ⟨0, _⟩ => rfl | ⟨1, _⟩ => rfl)
  have hi : i = ix2 (⟨n * 4000 + (y 0).val, by omega⟩ : Fin 400000) (⟨(y 1).val, hy1⟩ : Fin 256) :=
    funext fun a => Fin.ext (by match a with | ⟨0, _⟩ => exact hi0 | ⟨1, _⟩ => exact hi1)
  refine (congrArg (k2_pay1 (F := Ideal) x w b) hy).trans ?_
  refine Eq.trans ?_ (congrArg (fcIn X W B) hi.symm)
  rw [pay2_apply, fcIn_apply, hb]
  refine congrArg (· + B (ix1 (⟨(y 1).val, hy1⟩ : Fin 256))) (Finset.sum_congr rfl fun k _ => ?_)
  rw [hx, hw]

/-! ## What a grid point writes back -/

/-- What point `t` writes back to the output array is block `t` of the layer of the whole arrays as the region finds them. -/
theorem fcFlushed2 (c : Dev nD) (t : Fin cfg2.N) :
    (dat2 (F := Ideal) V c).flushed 3 t
      = ((cfg2.win 3).blk t).view.read (Elt Ideal) (fcIn (V c main_v86) (V c main_v87) (V c main_arg10)) := by
  show (cfg2.win 3).cut (grid2.coords t) ((dat2 V c).after 3 t) = _
  rw [after2_3]
  unfold out2_3
  rw [View.canon_unit_zero fcZero2]
  simp only [View.ld_unit_zero (S := S4000x128) fcZero2, View.ld_unit_zero (S := S128x256) fcZero2, View.ld_unit_zero (S := S256) fcZero1]
  obtain ⟨e0, e1, e2, e3, e4, e5, e6⟩ := fcIdx2 t
  have ht : t.val < 100 := lt_of_lt_of_eq t.isLt fcN2
  funext j
  exact fcPoint2 (V c main_v86) (V c main_v87) (V c main_arg10) (iblk2 V c 0 t) (iblk2 V c 1 t) (iblk2 V c 2 t) t.val ht
    (fun p k => fcBlk2_0 V c t t.val ht e0 e1 p k)
    (fun k q => fcBlk2_1 V c t e2 e3 k q)
    (fun q => fcBlk2_2 V c t e4 q)
    ((cfg2.win 3).xinj (grid2.coords t) j) (((cfg2.win 3).blk t).view.emb j)
    (by show win2_3.index t (0 : Fin 2) * 4000 + 1 * (j 0).val = t.val * 4000 + (j 0).val; omega)
    (by show win2_3.index t (1 : Fin 2) * 256 + 1 * (j 1).val = (j 1).val; omega)

/-! ## The blocks tile the output array -/

/-- An index of the output array is in point `t`'s block iff each coordinate is in the block's range on its axis. -/
theorem fcMemBlk2 (t : Fin cfg2.N) (i : S400000x256.Idx) :
    i ∈ ((cfg2.win 3).blk t).view.set
      ↔ ∀ a : Fin 2, win2_3.index t a * S4000x256.size a ≤ (i a).val ∧ (i a).val < win2_3.index t a * S4000x256.size a + S4000x256.size a := by
  show i ∈ ((View.whole main_v88).slice (win2_3.rect t)).set ↔ _
  rw [View.set_slice_whole, Rect.mem_set_unit]
  exact Iff.rfl

/-- Every index of the output array is in the block of the point numbered by its row divided by 4000. -/
theorem fcCover2 (i : S400000x256.Idx) :
    ∃ t : Fin cfg2.N, (cfg2.win 3).flush t = true ∧ i ∈ ((cfg2.win 3).blk t).view.set := by
  have hi0 : (i 0).val < 400000 := (i 0).isLt
  have hi1 : (i 1).val < 256 := (i 1).isLt
  have ht : (i 0).val / 4000 < cfg2.N := by rw [fcN2]; omega
  obtain ⟨-, -, -, -, -, e5, e6⟩ := fcIdx2 ⟨(i 0).val / 4000, ht⟩
  have e5' : win2_3.index ⟨(i 0).val / 4000, ht⟩ (0 : Fin 2) = (i 0).val / 4000 := e5
  refine ⟨⟨(i 0).val / 4000, ht⟩, flush2_3 _, ?_⟩
  rw [fcMemBlk2]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e5']; omega
  | ⟨1, _⟩ =>
    show win2_3.index ⟨(i 0).val / 4000, ht⟩ (1 : Fin 2) * 256 ≤ (i 1).val
      ∧ (i 1).val < win2_3.index ⟨(i 0).val / 4000, ht⟩ (1 : Fin 2) * 256 + 256
    rw [e6]; omega

/-! ## The output array after the region -/

/-- After the region's last point the output array is the layer of the activations, weights and bias as the region found
    them. -/
theorem final2 (c : Dev nD) :
    (dat2 (F := Ideal) V c).arrAt 3 cfg2.N = fcIn (V c main_v86) (V c main_v87) (V c main_arg10) :=
  (dat2 (F := Ideal) V c).arrAt_eq_of_cover 3 (fcIn (V c main_v86) (V c main_v87) (V c main_arg10))
    (fun t _ => fcFlushed2 V c t) fcCover2

end Cert.KernelIdeal.Fr

end
-- ==== Proof.FrI.Final3.lean ====
/-
  Region 3 as a whole: after its last grid point the output array is the fully connected layer of the arrays it found.

  The region tiles the 25000 rows of the layer over 5 grid points, 5000 rows to a point; every point reads its block of rows
  of the activations, the whole 256×128 weight matrix and the whole bias of length 128, and writes back its 5000×128 block of
  the output. Here the pieces are put together, at the ideal values (extended reals, every operation exact):

  * the printed index maps, decided once over the grid: the activations' and the output's row-block index at a point is
    the point's number, every other block index is zero (`fcIdx3`);
  * each input block read at coordinates: row `p` of the activations' block at point `n` is row `n * 5000 + p` of the array,
    the weights' and the bias's blocks are their whole arrays (`fcBlk3_0`, `fcBlk3_1`, `fcBlk3_2`) — an element of a
    block sits in its array, on each axis, at the block index times the block's size plus its coordinate in the block;
  * one element of one block: the body's result at a block index is the layer of the whole arrays at the array index
    under it (`fcPoint3`, stated over arbitrary arrays and blocks related by those equations);
  * so what a point writes back is its block of the layer of the whole arrays (`fcFlushed3`);
  * an index is in a point's block iff each coordinate is in the block's range (`fcMemBlk3`), and the index with row `r`
    is in the block of point `r / 5000`, so the blocks cover the array (`fcCover3`);
  * hence the output array after the last point is the layer (`final3`).
-/
import proofs.«180239_j88888643158466_1_alg».proof.Proof.FrI.Region3
import proofs.«180239_j88888643158466_1_alg».proof.Proof.FrI.FcSpec
import proofs.«180239_j88888643158466_1_alg».proof.Proof.FcKernel
import Idealize.ShloMosaic.Lib.Pipeline.Value
import Idealize.ShloMosaic.Lib.ValueIdx

noncomputable section

open scoped BigOperators

namespace Cert.KernelIdeal.Fr

open Cert.KernelIdeal Cert.KernelIdeal.Gen Cert.KernelIdeal.FcKernel
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided over the grid -/

/-- At every grid point: the input block's and the output block's row-block index is the point's number, their column-block
    index is zero, and the weights and the bias are read at block index zero on every axis. -/
theorem fcIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The grid has 5 points. -/
theorem fcN3 : cfg3.N = 5 := N_3

/-! ## The input blocks, read at coordinates -/

/-- The input block at a point whose row-block index is `n`: row `p` of the block is row `n * 5000 + p` of the array. -/
theorem fcBlk3_0 (c : Dev nD) (t : Fin cfg3.N) (n : Nat) (hn : n < 5)
    (h0 : win3_0.index t (0 : Fin 2) = n) (h1 : win3_0.index t (1 : Fin 2) = 0) (p : Fin 5000) (k : Fin 256) :
    iblk3 (F := Ideal) V c 0 t (ix2 p k) = V c main_v132 (ix2 (⟨n * 5000 + p.val, by omega⟩ : Fin 25000) k) := by
  show V c main_v132 (((cfg3.win 0).blk t).view.emb (ix2 p k)) = _
  refine congrArg (V c main_v132) (funext fun a => Fin.ext ?_)
  match a with
  | ⟨0, _⟩ => show win3_0.index t (0 : Fin 2) * 5000 + 1 * p.val = n * 5000 + p.val; omega
  | ⟨1, _⟩ => show win3_0.index t (1 : Fin 2) * 256 + 1 * k.val = k.val; omega

/-- The weights' block is the whole weight array. -/
theorem fcBlk3_1 (c : Dev nD) (t : Fin cfg3.N)
    (h0 : win3_1.index t (0 : Fin 2) = 0) (h1 : win3_1.index t (1 : Fin 2) = 0) (k : Fin 256) (q : Fin 128) :
    iblk3 (F := Ideal) V c 1 t (ix2 k q) = V c main_v133 (ix2 k q) := by
  show V c main_v133 (((cfg3.win 1).blk t).view.emb (ix2 k q)) = _
  refine congrArg (V c main_v133) (funext fun a => Fin.ext ?_)
  match a with
  | ⟨0, _⟩ => show win3_1.index t (0 : Fin 2) * 256 + 1 * k.val = k.val; omega
  | ⟨1, _⟩ => show win3_1.index t (1 : Fin 2) * 128 + 1 * q.val = q.val; omega

/-- The bias's block is the whole bias array. -/
theorem fcBlk3_2 (c : Dev nD) (t : Fin cfg3.N)
    (h0 : win3_2.index t (0 : Fin 1) = 0) (q : Fin 128) :
    iblk3 (F := Ideal) V c 2 t (ix1 q) = V c main_arg12 (ix1 q) := by
  show V c main_arg12 (((cfg3.win 2).blk t).view.emb (ix1 q)) = _
  refine congrArg (V c main_arg12) (funext fun a => Fin.ext ?_)
  match a with
  | ⟨0, _⟩ => show win3_2.index t (0 : Fin 1) * 128 + 1 * q.val = q.val; omega

/-! ## One element of one block -/

/-- If a block `x` of rows is rows `n * 5000 …` of the array `X`, and `w`, `b` are the whole weights `W` and bias `B`, then the
    body's result at a block index `y` is the layer of the whole arrays at the array index `i` with row `n * 5000 + y₀` and
    column `y₁`. -/
theorem fcPoint3 (X : FVec Ideal S25000x256 .bf16) (W : FVec Ideal S256x128 .bf16) (B : FVec Ideal S128 .f32)
    (x : FVec Ideal S5000x256 .bf16) (w : FVec Ideal S256x128 .bf16) (b : FVec Ideal S128 .f32) (n : Nat) (hn : n < 5)
    (hx : ∀ (p : Fin 5000) (k : Fin 256), x (ix2 p k) = X (ix2 (⟨n * 5000 + p.val, by omega⟩ : Fin 25000) k))
    (hw : ∀ (k : Fin 256) (q : Fin 128), w (ix2 k q) = W (ix2 k q))
    (hb : ∀ q : Fin 128, b (ix1 q) = B (ix1 q))
    (y : S5000x128.Idx) (i : S25000x128.Idx) (hi0 : (i 0).val = n * 5000 + (y 0).val) (hi1 : (i 1).val = (y 1).val) :
    k3_pay1 (F := Ideal) x w b y = fcOut X W B i := by
  have hy0 : (y 0).val < 5000 := (y 0).isLt
  have hy1 : (y 1).val < 128 := (y 1).isLt
  have hy : y = ix2 (⟨(y 0).val, hy0⟩ : Fin 5000) (⟨(y 1).val, hy1⟩ : Fin 128) :=
    funext fun a => Fin.ext (by match a with | ⟨0, _⟩ => rfl | ⟨1, _⟩ => rfl)
  have hi : i = ix2 (⟨n * 5000 + (y 0).val, by omega⟩ : Fin 25000) (⟨(y 1).val, hy1⟩ : Fin 128) :=
    funext fun a => Fin.ext (by match a with | ⟨0, _⟩ => exact hi0 | ⟨1, _⟩ => exact hi1)
  refine (congrArg (k3_pay1 (F := Ideal) x w b) hy).trans ?_
  refine Eq.trans ?_ (congrArg (fcOut X W B) hi.symm)
  rw [pay3_apply, fcOut_apply, hb]
  refine congrArg (· + B (ix1 (⟨(y 1).val, hy1⟩ : Fin 128))) (Finset.sum_congr rfl fun k _ => ?_)
  rw [hx, hw]

/-! ## What a grid point writes back -/

/-- What point `t` writes back to the output array is block `t` of the layer of the whole arrays as the region finds them. -/
theorem fcFlushed3 (c : Dev nD) (t : Fin cfg3.N) :
    (dat3 (F := Ideal) V c).flushed 3 t
      = ((cfg3.win 3).blk t).view.read (Elt Ideal) (fcOut (V c main_v132) (V c main_v133) (V c main_arg12)) := by
  show (cfg3.win 3).cut (grid3.coords t) ((dat3 V c).after 3 t) = _
  rw [after3_3]
  unfold out3_3
  rw [View.canon_unit_zero fcZero2]
  simp only [View.ld_unit_zero (S := S5000x256) fcZero2, View.ld_unit_zero (S := S256x128) fcZero2, View.ld_unit_zero (S := S128) fcZero1]
  obtain ⟨e0, e1, e2, e3, e4, e5, e6⟩ := fcIdx3 t
  have ht : t.val < 5 := lt_of_lt_of_eq t.isLt fcN3
  funext j
  exact fcPoint3 (V c main_v132) (V c main_v133) (V c main_arg12) (iblk3 V c 0 t) (iblk3 V c 1 t) (iblk3 V c 2 t) t.val ht
    (fun p k => fcBlk3_0 V c t t.val ht e0 e1 p k)
    (fun k q => fcBlk3_1 V c t e2 e3 k q)
    (fun q => fcBlk3_2 V c t e4 q)
    ((cfg3.win 3).xinj (grid3.coords t) j) (((cfg3.win 3).blk t).view.emb j)
    (by show win3_3.index t (0 : Fin 2) * 5000 + 1 * (j 0).val = t.val * 5000 + (j 0).val; omega)
    (by show win3_3.index t (1 : Fin 2) * 128 + 1 * (j 1).val = (j 1).val; omega)

/-! ## The blocks tile the output array -/

/-- An index of the output array is in point `t`'s block iff each coordinate is in the block's range on its axis. -/
theorem fcMemBlk3 (t : Fin cfg3.N) (i : S25000x128.Idx) :
    i ∈ ((cfg3.win 3).blk t).view.set
      ↔ ∀ a : Fin 2, win3_3.index t a * S5000x128.size a ≤ (i a).val ∧ (i a).val < win3_3.index t a * S5000x128.size a + S5000x128.size a := by
  show i ∈ ((View.whole main_v134).slice (win3_3.rect t)).set ↔ _
  rw [View.set_slice_whole, Rect.mem_set_unit]
  exact Iff.rfl

/-- Every index of the output array is in the block of the point numbered by its row divided by 5000. -/
theorem fcCover3 (i : S25000x128.Idx) :
    ∃ t : Fin cfg3.N, (cfg3.win 3).flush t = true ∧ i ∈ ((cfg3.win 3).blk t).view.set := by
  have hi0 : (i 0).val < 25000 := (i 0).isLt
  have hi1 : (i 1).val < 128 := (i 1).isLt
  have ht : (i 0).val / 5000 < cfg3.N := by rw [fcN3]; omega
  obtain ⟨-, -, -, -, -, e5, e6⟩ := fcIdx3 ⟨(i 0).val / 5000, ht⟩
  have e5' : win3_3.index ⟨(i 0).val / 5000, ht⟩ (0 : Fin 2) = (i 0).val / 5000 := e5
  refine ⟨⟨(i 0).val / 5000, ht⟩, flush3_3 _, ?_⟩
  rw [fcMemBlk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e5']; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e6]; omega

/-! ## The output array after the region -/

/-- After the region's last point the output array is the layer of the activations, weights and bias as the region found
    them. -/
theorem final3 (c : Dev nD) :
    (dat3 (F := Ideal) V c).arrAt 3 cfg3.N = fcOut (V c main_v132) (V c main_v133) (V c main_arg12) :=
  (dat3 (F := Ideal) V c).arrAt_eq_of_cover 3 (fcOut (V c main_v132) (V c main_v133) (V c main_arg12))
    (fun t _ => fcFlushed3 V c t) fcCover3

end Cert.KernelIdeal.Fr

end
-- ==== Proof.Br.Branch1.lean ====
import proofs.«180239_j88888643158466_1_alg».proof.Proof.Br.Branch0
import proofs.«180239_j88888643158466_1_alg».proof.Proof.FrI.Final2
import proofs.«180239_j88888643158466_1_alg».proof.Proof.FrI.Final3

/-
  The second branch of the kernel program against the reference, stage by stage, at exact arithmetic: the same features as the
  first branch, its own two fully connected layers and its own edge lists. Each lemma says that one buffer of the kernel
  program, at one boundary between segments, holds the reference's value of the corresponding stage as a function of the
  launch arguments; the last one is the second result.
-/
set_option maxRecDepth 16384

noncomputable section

namespace Cert.KernelIdeal.Br

open Cert.KernelIdeal Cert.KernelIdeal.Gen Cert.KernelIdeal.Fr
open Idealize.ShloMosaic Idealize.ShloMosaic.TcCoe Idealize.ShloMosaic.ValueIdx
open Idealize.SL Idealize.SL.Sem
open Cert.ReferenceIdeal.Read (val_main_v0 val_main_v1 val_main_c val_main_v2 val_main_v3 val_main_c_0 val_main_v4 val_main_v5 val_main_v6 val_main_v7 val_main_v8 val_main_v9 val_main_v10 val_main_c_1 val_main_v11 val_main_v12 val_main_c_2 val_main_v13 val_main_v14 val_main_v15 val_main_v16 val_main_v17 val_main_v18 val_main_v19 val_main_c_3 val_main_v20 val_main_v21 val_main_c_4 val_main_v22 val_main_v23 val_main_v24 val_main_v25 val_main_v26 val_main_v27 val_main_v28 val_main_c_5 val_main_v29 val_main_v30 val_main_c_6 val_main_v31 val_main_v32 val_main_v33 val_main_v34 val_main_v35 val_main_v36 val_main_v37 val_main_v38 val_main_v39 val_main_v40 val_main_c_7 val_main_v41 val_main_v42 val_main_c_8 val_main_v43 val_main_v44 val_main_v45 val_main_v46 val_main_v47 val_main_cst val_main_v48 val_main_v49 val_main_v50 val_main_cst_9 val_main_v51 val_main_cst_10 val_main_v52 val_main_v53 val_main_v54 val_main_cst_11 val_main_v55 val_main_v56 val_main_v57 val_main_v58 val_main_v59 val_main_v60 val_main_v61 val_main_call0_cst val_main_call0_v0 val_main_v62 val_main_c_12 val_main_v63 val_main_v64 val_main_c_13 val_main_v65 val_main_v66 val_main_v67 val_main_v68 val_main_v69 val_main_cst_14 val_main_v70 val_main_v71 val_main_v72 val_main_cst_15 val_main_v73 val_main_cst_16 val_main_v74 val_main_v75 val_main_v76 val_main_cst_17 val_main_v77 val_main_v78 val_main_v79 val_main_v80 val_main_v81 val_main_v82 val_main_v83 val_main_v84 val_main_v85 val_main_v86 val_main_v87 val_main_v88 val_main_v89 val_main_v90 val_main_v91 val_main_c_18 val_main_v92 val_main_v93 val_main_c_19 val_main_v94 val_main_v95 val_main_v96 val_main_v97 val_main_v98 val_main_cst_20 val_main_v99 val_main_v100 val_main_v101 val_main_cst_21 val_main_v102 val_main_cst_22 val_main_v103 val_main_v104 val_main_v105 val_main_cst_23 val_main_v106 val_main_v107 val_main_v108 val_main_v109 val_main_v110 val_main_v111 val_main_v112 val_main_call1_cst val_main_call1_v0 val_main_v113 val_main_c_24 val_main_v114 val_main_v115 val_main_c_25 val_main_v116 val_main_v117 val_main_v118 val_main_v119 val_main_v120 val_main_cst_26 val_main_v121 val_main_v122 val_main_v123 val_main_cst_27 val_main_v124 val_main_cst_28 val_main_v125 val_main_v126 val_main_v127 val_main_cst_29 val_main_v128 val_main_v129 val_main_v130 val_main_v131 val_main_v132 val_main_v133 val_main_v134 val_main_v135 val_main_v136 val_main_v137 val_main_v138)

variable (m : (ℓ : Loc nD τ sig) → Buf (Elt Ideal) ℓ) (outs : Outs (F := Ideal))

/-! ## The features again -/

set_option backward.isDefEq.respectTransparency.types false in
/-- The second branch's copy of the features in the narrower format: the feature buffer is untouched since the first host
    stretch, and the change of format is the identity. -/
theorem feat2_eq (c : Dev nD) :
    (V7 m outs c main_v86 : S400000x128.Idx → EReal) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show (StableHlo.after hostOps2 (V6 m outs c) (Proc.devRef .tc main_v86) : S400000x128.Idx → EReal) = _
  after_results_simp
  rw [show (V6 m outs c (Proc.devRef .tc main_v36) : S400000x128.Idx → EReal) = _ from
    (V6_of m outs c main_v36 (by decide)).trans <| (V5_of m outs c main_v36 (by decide)).trans <| (V4_of m outs c main_v36 (by decide)).trans <| (V3_of m outs c main_v36 (by decide)).trans <| (V2_of m outs c main_v36 (by decide)).trans <| feat_eq m c]
  rfl

set_option backward.isDefEq.respectTransparency.types false in
/-- The third weight matrix in the narrower format holds the argument's values. -/
theorem w2b_eq (c : Dev nD) :
    (V7 m outs c main_v87 : S128x256.Idx → EReal) = m ((c : Thread nD τ).loc main_arg9) := by
  show (StableHlo.after hostOps2 (V6 m outs c) (Proc.devRef .tc main_v87) : S128x256.Idx → EReal) = _
  after_results_simp
  rw [show V6 m outs c (Proc.devRef .tc main_arg9) = m ((c : Thread nD τ).loc main_arg9) from (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl]
  rfl

/-! ## The first layer of the second branch -/

set_option backward.isDefEq.respectTransparency.types false in
/-- The third region's output array is the reference's first layer of the second branch: at row `r`, column `q`, the sum over the 128 features of feature times weight, plus the bias at `q`. -/
theorem fc2_eq (h : OutsOk m outs) (c : Dev nD) :
    (V8 m outs c main_v88 : S400000x256.Idx → EReal) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  have e1 : (V8 m outs c main_v88 : S400000x256.Idx → EReal) = fcIn (T7 m outs c main_v86) (T7 m outs c main_v87) (T7 m outs c main_arg10) :=
    (Function.update_self (f := V7 m outs c) (Proc.devRef .tc main_v88) (outs 8 main_v88 c)).trans ((h.h8 c).trans (final2 (T7 m outs) c))
  have e2 : fcIn (V7 m outs c main_v86) (V7 m outs c main_v87) (V7 m outs c main_arg10)
      = fcIn (val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg9)) (m ((c : Thread nD τ).loc main_arg10)) := by
    rw [feat2_eq m outs c, w2b_eq m outs c,
      show (V7 m outs c main_arg10 : S256.Idx → EReal) = m ((c : Thread nD τ).loc main_arg10) from (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl]
  refine e1.trans (e2.trans ?_)
  funext i
  obtain ⟨r, q, rfl⟩ : ∃ (r : Fin 400000) (q : Fin 256), i = ix2 r q := ⟨i 0, i 1, eq_ix2 i⟩
  rw [fcIn_apply]
  exact (Cert.ReferenceIdeal.FcRef.fc_in_apply _ _ _ r q).symm

/-! ## Averaging over neighbours, the residual, the positive part, and averaging again -/

set_option backward.isDefEq.respectTransparency.types false in
/-- After the first round of neighbour averaging plus residual, the positive part, and the second round of averaging plus
    residual (and the identity change of format), the buffer holds the reference's value: the same operations applied to the
    first layer's output and the same edge lists. -/
theorem sage3_eq (h : OutsOk m outs) (c : Dev nD) :
    (V11 m outs c main_v132 : S25000x256.Idx → EReal) = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg17)) (m ((c : Thread nD τ).loc main_arg18)) (m ((c : Thread nD τ).loc main_arg19)) (m ((c : Thread nD τ).loc main_arg20)) := by
  show (StableHlo.after hostOps3_2 (StableHlo.after hostOps3_1 (StableHlo.after hostOps3 (V8 m outs c))) (Proc.devRef .tc main_v132) : S25000x256.Idx → EReal) = _
  after_results_simp
  rw [show (V8 m outs c (Proc.devRef .tc main_v88) : S400000x256.Idx → EReal) = _ from fc2_eq m outs h c,
    show V8 m outs c (Proc.devRef .tc main_arg17) = m ((c : Thread nD τ).loc main_arg17) from (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans rfl,
    show V8 m outs c (Proc.devRef .tc main_arg18) = m ((c : Thread nD τ).loc main_arg18) from (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m outs c main_arg18 (by decide)).trans <| (V2_of m outs c main_arg18 (by decide)).trans <| (V1_of m c main_arg18 (by decide)).trans rfl,
    show V8 m outs c (Proc.devRef .tc main_arg19) = m ((c : Thread nD τ).loc main_arg19) from (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans rfl,
    show V8 m outs c (Proc.devRef .tc main_arg20) = m ((c : Thread nD τ).loc main_arg20) from (V8_of m outs c main_arg20 (by decide)).trans <| (V7_of m outs c main_arg20 (by decide)).trans <| (V6_of m outs c main_arg20 (by decide)).trans <| (V5_of m outs c main_arg20 (by decide)).trans <| (V4_of m outs c main_arg20 (by decide)).trans <| (V3_of m outs c main_arg20 (by decide)).trans <| (V2_of m outs c main_arg20 (by decide)).trans <| (V1_of m c main_arg20 (by decide)).trans rfl]
  rfl

set_option backward.isDefEq.respectTransparency.types false in
/-- The fourth weight matrix in the narrower format holds the argument's values. -/
theorem w3b_eq (c : Dev nD) :
    (V11 m outs c main_v133 : S256x128.Idx → EReal) = m ((c : Thread nD τ).loc main_arg11) := by
  show (StableHlo.after hostOps3_2 (StableHlo.after hostOps3_1 (StableHlo.after hostOps3 (V8 m outs c))) (Proc.devRef .tc main_v133) : S256x128.Idx → EReal) = _
  after_results_simp
  rw [show V8 m outs c (Proc.devRef .tc main_arg11) = m ((c : Thread nD τ).loc main_arg11) from (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans rfl]
  rfl

/-! ## The second layer, and the second result -/

set_option backward.isDefEq.respectTransparency.types false in
/-- The fourth region's output array — the last valuation's second result buffer — is the reference's second result: at row `r`, column `q`, the sum over the 256 hidden features of feature times weight, plus the bias at `q`. -/
theorem out1_eq (h : OutsOk m outs) (c : Dev nD) :
    (V12 m outs c main_v134 : S25000x128.Idx → EReal) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) := by
  have e1 : (V12 m outs c main_v134 : S25000x128.Idx → EReal) = fcOut (T11 m outs c main_v132) (T11 m outs c main_v133) (T11 m outs c main_arg12) :=
    (Function.update_self (f := V11 m outs c) (Proc.devRef .tc main_v134) (outs 12 main_v134 c)).trans ((h.h12 c).trans (final3 (T11 m outs) c))
  have e2 : fcOut (V11 m outs c main_v132) (V11 m outs c main_v133) (V11 m outs c main_arg12)
      = fcOut (val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg17)) (m ((c : Thread nD τ).loc main_arg18)) (m ((c : Thread nD τ).loc main_arg19)) (m ((c : Thread nD τ).loc main_arg20))) (m ((c : Thread nD τ).loc main_arg11)) (m ((c : Thread nD τ).loc main_arg12)) := by
    rw [sage3_eq m outs h c, w3b_eq m outs c,
      show (V11 m outs c main_arg12 : S128.Idx → EReal) = m ((c : Thread nD τ).loc main_arg12) from (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl]
  refine e1.trans (e2.trans ?_)
  funext i
  obtain ⟨r, q, rfl⟩ : ∃ (r : Fin 25000) (q : Fin 128), i = ix2 r q := ⟨i 0, i 1, eq_ix2 i⟩
  rw [fcOut_apply]
  exact (Cert.ReferenceIdeal.FcRef.fc_out_apply _ _ _ r q).symm

end Cert.KernelIdeal.Br

end
-- ==== Proof.lean ====
/-
  The proof of `Cert.Claim`: two programs compute, for a batch of 400000 rows of four integer keys, two branches of
  "look up and concatenate four embedding rows (128 features); a fully connected layer to 256 hidden features; average each
  destination node's incoming messages and add the node's own row, over 800000 edges into 100000 nodes; take the positive part;
  average again over 200000 edges into 25000 nodes; a fully connected layer to 128 outputs".
  The kernel program computes each fully connected layer in a region of a one-axis grid, a block of 4000 (or 5000) rows per
  point, on operands changed to a narrower float format; the reference computes each as one whole product. Everything else is
  the same host operations in both.
  * The frames of the two kernel programs: each region is a segment between known valuations of the buffers, given what the
    region leaves in its one output array; a choice of those four arrays exists (each is what its region's pipeline leaves),
    and the program's segments chain from the launch to the end with every argument array untouched.
  * The reference's frame is its run with the results dropped.
  * No operation was rewritten between the kernel program and its idealization, so that conjunct is `True`.
  * At exact arithmetic both programs end with equal results: a region's output array is, index by index, the sum over the
    contracted axis of activation times weight plus the bias (the blocks tile the rows, each block's rows depend only on the
    same rows of the activations), which is the reference's whole product plus bias since the change of format is the
    identity and a sum of extended reals does not depend on how it is tiled; the host stretches between the layers are the
    same operations applied to equal values.
-/
import proofs.«180239_j88888643158466_1_alg».proof.Defs
import proofs.«180239_j88888643158466_1_alg».proof.Proof.Gen.Kernel
import proofs.«180239_j88888643158466_1_alg».proof.Proof.Gen.KernelIdeal
import proofs.«180239_j88888643158466_1_alg».proof.Proof.Gen.ReferenceIdeal
import proofs.«180239_j88888643158466_1_alg».proof.Proof.Gen.Pre_finite_inputs
import proofs.«180239_j88888643158466_1_alg».proof.Proof.Gen.ReferenceIdeal.Run
import proofs.«180239_j88888643158466_1_alg».proof.Proof.Gen.ReferenceIdeal.Read
import proofs.«180239_j88888643158466_1_alg».proof.Proof.FrB.Outs
import proofs.«180239_j88888643158466_1_alg».proof.Proof.FrI.Outs
import proofs.«180239_j88888643158466_1_alg».proof.Proof.FrI.RunVals
import proofs.«180239_j88888643158466_1_alg».proof.Proof.Br.Branch1
import Idealize.ShloMosaic.Adequacy
import Idealize.ShloMosaic.Init

set_option maxRecDepth 16384

noncomputable section

namespace Cert.Proof

open Idealize.ShloMosaic Idealize.ShloMosaic.TcCoe Idealize.SL.Sem

/-- The word-level kernel program's frame: the run under the concrete choice of what the regions leave. -/
theorem frame_k : Cert.frame_Kernel := fun m ρ _ =>
  Cert.Kernel.Fr.frame_of m (Cert.Kernel.Fr.outsE m) ρ (Cert.Kernel.Fr.outsE_ok m)

/-- The idealized kernel program's frame, the same way. -/
theorem frame_ki : Cert.frame_KernelIdeal := fun m ρ _ =>
  Cert.KernelIdeal.Fr.frame_of m (Cert.KernelIdeal.Fr.outsE m) ρ (Cert.KernelIdeal.Fr.outsE_ok m)

/-- The reference's frame: its run, the results dropped. -/
theorem frame_r : Cert.frame_ReferenceIdeal := fun m ρ _ =>
  (θ_run Cert.ReferenceIdeal.defs _ _).mono (fun _ h c => (h c).2.2) (Cert.ReferenceIdeal.Value.run (F := Ideal) m ρ)

/-- No operation was rewritten by the idealization. -/
theorem preserves : Cert.preserves_Kernel_KernelIdeal := trivial

set_option backward.isDefEq.respectTransparency.types false in
/-- At exact arithmetic, from memories agreeing on the arguments, both programs run and end with equal results: the kernel
    program's two result buffers hold the last valuation's contents, which are the reference's two results as functions of the
    arguments. -/
theorem algebraic : Cert.algebraic_KernelIdeal_ReferenceIdeal := by
  intro m ρ m' ρ' _ hagree
  refine ⟨fun c => Cert.KernelIdeal.Gen.V12 m (Cert.KernelIdeal.Fr.outsE m) c Cert.KernelIdeal.main_v85,
    fun c => Cert.KernelIdeal.Gen.V12 m (Cert.KernelIdeal.Fr.outsE m) c Cert.KernelIdeal.main_v134,
    Cert.KernelIdeal.Fr.run_of m (Cert.KernelIdeal.Fr.outsE m) ρ (Cert.KernelIdeal.Fr.outsE_ok m), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20⟩ := hagree c
    rw [Cert.ReferenceIdeal.Read.val_main_v87_eq, a0, a1, a2, a3, a4, a5, a6, a7, a8, a13, a14, a15, a16]
    exact (Cert.KernelIdeal.Br.res0_eq m (Cert.KernelIdeal.Fr.outsE m) (Cert.KernelIdeal.Fr.outsE_ok m) c).symm
  · obtain ⟨a0, a1, a2, a3, a4, a5, a6, a7, a8, a9, a10, a11, a12, a13, a14, a15, a16, a17, a18, a19, a20⟩ := hagree c
    rw [Cert.ReferenceIdeal.Read.val_main_v138_eq, a0, a1, a2, a3, a4, a9, a10, a11, a12, a17, a18, a19, a20]
    exact (Cert.KernelIdeal.Br.out1_eq m (Cert.KernelIdeal.Fr.outsE m) (Cert.KernelIdeal.Fr.outsE_ok m) c).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
